-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S180224x3 : Shape := ⟨2, ![180224, 3]⟩
abbrev S2x1441792 : Shape := ⟨2, ![2, 1441792]⟩
abbrev S1441792 : Shape := ⟨1, ![1441792]⟩
abbrev S3x128 : Shape := ⟨2, ![3, 128]⟩
abbrev S128 : Shape := ⟨1, ![128]⟩
abbrev S128x128 : Shape := ⟨2, ![128, 128]⟩
abbrev S2816x128 : Shape := ⟨2, ![2816, 128]⟩
abbrev S128x1 : Shape := ⟨2, ![128, 1]⟩
abbrev S1 : Shape := ⟨1, ![1]⟩
abbrev S_ : Shape := ⟨0, ![]⟩

class Facts : Prop where
  bcast_S_S180224x3 : S_.BroadcastsInDim S180224x3 (![] : Fin 0 → Fin S180224x3.rank)
  reducesTo_S180224x3_S_d0_1 : S180224x3.ReducesTo [0, 1] S_
  h_S_ : 0 < S_.numel
  bcast_S_S1441792 : S_.BroadcastsInDim S1441792 (![] : Fin 0 → Fin S1441792.rank)
  reducesTo_S1441792_S_d0 : S1441792.ReducesTo [0] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2816x128 : S_.BroadcastsInDim S2816x128 (![] : Fin 0 → Fin S2816x128.rank)
  reducesTo_S2816x128_S_d0_1 : S2816x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S128 .f32) (main_arg11 : FVec F S128x1 .f32) (main_arg12 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg12 main_v48 main_v49 main_v50

def fn_part1 {F : FTy → Type} [FloatOps F] (main_arg5 : FVec F S128x128 .f32) (main_arg6 : FVec F S128 .f32) (main_arg7 : FVec F S2816x128 .f32) (main_arg8 : FVec F S128 .f32) (main_arg9 : FVec F S128x128 .f32) (main_arg10 : FVec F S128 .f32) (main_arg11 : FVec F S128x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2816x128 .f32 := Host.absf main_arg7
  let main_cst_10 : FVec F S_ .f32 := constant S_ .f32 0x7F800000#32
  let main_v30 : FVec F S2816x128 .f32 := broadcastInDim S2816x128 ![] bcast_S_S2816x128 main_cst_10
  let main_v31 : IVec S2816x128 1 := cmpf .olt main_v29 main_v30
  let main_c_11 : IVec S_ 1 := constantI S_ 1 1#1
  let main_v32 : IVec S_ 1 := (fun x v => Host.reduce IntOp.andi x v reducesTo_S2816x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S180224x3 .f32) (main_arg1 : IVec S2x1441792 32) (main_arg2 : FVec F S1441792 .f32) (main_arg3 : FVec F S3x128 .f32) (main_arg4 : FVec F S128 .f32) (main_arg5 : FVec F S128x128 .f32) (main_arg6 : FVec F S128 .f32) (main_arg7 : FVec F S2816x128 .f32) (main_arg8 : FVec F S128 .f32) (main_arg9 : FVec F S128x128 .f32) (main_arg10 : FVec F S128 .f32) (main_arg11 : FVec F S128x1 .f32) (main_arg12 : FVec F S1 .f32) : IVec S_ 1 :=
  let main_v0 : FVec F S180224x3 .f32 := Host.absf main_arg0
  let main_cst : FVec F S_ .f32 := constant S_ .f32 0x7F800000#32
  let main_v1 : FVec F S180224x3 .f32 := broadcastInDim S180224x3 ![] bcast_S_S180224x3 main_cst
  let main_v2 : IVec S180224x3 1 := cmpf .olt main_v0 main_v1
  let main_c : IVec S_ 1 := constantI S_ 1 1#1
  let main_v3 : IVec S_ 1 := (fun x v => Host.reduce IntOp.andi x v reducesTo_S180224x3_S_d0_1 h_S_) main_v2 main_c
  let main_v4 : FVec F S1441792 .f32 := Host.absf main_arg2
  let main_cst_0 : FVec F S_ .f32 := constant S_ .f32 0x7F800000#32
  let main_v5 : FVec F S1441792 .f32 := broadcastInDim S1441792 ![] bcast_S_S1441792 main_cst_0
  let main_v6 : IVec S1441792 1 := cmpf .olt main_v4 main_v5
  let main_c_1 : IVec S_ 1 := constantI S_ 1 1#1
  let main_v7 : IVec S_ 1 := (fun x v => Host.reduce IntOp.andi x v reducesTo_S1441792_S_d0 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S180224x3 : Shape := ⟨2, ![180224, 3]⟩
abbrev S2x1441792 : Shape := ⟨2, ![2, 1441792]⟩
abbrev S1441792 : Shape := ⟨1, ![1441792]⟩
abbrev S3x128 : Shape := ⟨2, ![3, 128]⟩
abbrev S128 : Shape := ⟨1, ![128]⟩
abbrev S128x128 : Shape := ⟨2, ![128, 128]⟩
abbrev S2816x128 : Shape := ⟨2, ![2816, 128]⟩
abbrev S128x1 : Shape := ⟨2, ![128, 1]⟩
abbrev S1 : Shape := ⟨1, ![1]⟩
abbrev S180224 : Shape := ⟨1, ![180224]⟩
abbrev S1x1441792 : Shape := ⟨2, ![1, 1441792]⟩
abbrev S1622016 : Shape := ⟨1, ![1622016]⟩
abbrev S_ : Shape := ⟨0, ![]⟩
abbrev S1622016x1 : Shape := ⟨2, ![1622016, 1]⟩
abbrev S180224x128 : Shape := ⟨2, ![180224, 128]⟩
abbrev S4096x3 : Shape := ⟨2, ![4096, 3]⟩
abbrev S4096x128 : Shape := ⟨2, ![4096, 128]⟩
abbrev S1622016x128 : Shape := ⟨2, ![1622016, 128]⟩
abbrev S1x128 : Shape := ⟨2, ![1, 128]⟩
abbrev S8192x2816 : Shape := ⟨2, ![8192, 2816]⟩
abbrev S8192x128 : Shape := ⟨2, ![8192, 128]⟩
abbrev S512x2816 : Shape := ⟨2, ![512, 2816]⟩
abbrev S512x128 : Shape := ⟨2, ![512, 128]⟩
abbrev S1024x128 : Shape := ⟨2, ![1024, 128]⟩
abbrev S1x1 : Shape := ⟨2, ![1, 1]⟩
abbrev S8192x1 : Shape := ⟨2, ![8192, 1]⟩
abbrev S1024x1 : Shape := ⟨2, ![1024, 1]⟩

abbrev nBuf : Space → Nat
  | .hbm => 110
  | .vmem => 28
  | .smem => 0
  | _ => 0

abbrev bufTy : (tb : Table) → Fin (tcTables nBuf tb) → BufTy
  | .hbm, ⟨0, _⟩ => ⟨S180224x3, .f32⟩
  | .hbm, ⟨1, _⟩ => ⟨S2x1441792, .i32⟩
  | .hbm, ⟨2, _⟩ => ⟨S1441792, .f32⟩
  | .hbm, ⟨3, _⟩ => ⟨S3x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2816x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S180224, .i32⟩
  | .hbm, ⟨14, _⟩ => ⟨S1x1441792, .i32⟩
  | .hbm, ⟨15, _⟩ => ⟨S1441792, .i32⟩
  | .hbm, ⟨16, _⟩ => ⟨S1622016, .i32⟩
  | .hbm, ⟨17, _⟩ => ⟨S1x1441792, .i32⟩
  | .hbm, ⟨18, _⟩ => ⟨S1441792, .i32⟩
  | .hbm, ⟨19, _⟩ => ⟨S1622016, .i32⟩
  | .hbm, ⟨20, _⟩ => ⟨S_, .f32⟩
  | .hbm, ⟨21, _⟩ => ⟨S180224, .f32⟩
  | .hbm, ⟨22, _⟩ => ⟨S1622016, .f32⟩
  | .hbm, ⟨23, _⟩ => ⟨S_, .f32⟩
  | .hbm, ⟨24, _⟩ => ⟨S180224, .f32⟩
  | .hbm, ⟨25, _⟩ => ⟨S1622016x1, .i32⟩
  | .hbm, ⟨26, _⟩ => ⟨S180224, .f32⟩
  | .hbm, ⟨27, _⟩ => ⟨S_, .f32⟩
  | .hbm, ⟨28, _⟩ => ⟨S180224, .f32⟩
  | .hbm, ⟨29, _⟩ => ⟨S180224, .i1⟩
  | .hbm, ⟨30, _⟩ => ⟨S180224, .f32⟩
  | .hbm, ⟨31, _⟩ => ⟨S_, .f32⟩
  | .hbm, ⟨32, _⟩ => ⟨S_, .f32⟩
  | .hbm, ⟨33, _⟩ => ⟨S180224, .f32⟩
  | .hbm, ⟨34, _⟩ => ⟨S180224, .f32⟩
  | .hbm, ⟨35, _⟩ => ⟨S_, .i32⟩
  | .hbm, ⟨36, _⟩ => ⟨S1622016, .i32⟩
  | .hbm, ⟨37, _⟩ => ⟨S1622016, .i1⟩
  | .hbm, ⟨38, _⟩ => ⟨S_, .i32⟩
  | .hbm, ⟨39, _⟩ => ⟨S1622016, .i32⟩
  | .hbm, ⟨40, _⟩ => ⟨S1622016, .i32⟩
  | .hbm, ⟨41, _⟩ => ⟨S1622016, .i32⟩
  | .hbm, ⟨42, _⟩ => ⟨S1622016x1, .i32⟩
  | .hbm, ⟨43, _⟩ => ⟨S1622016, .f32⟩
  | .hbm, ⟨44, _⟩ => ⟨S1622016, .f32⟩
  | .hbm, ⟨45, _⟩ => ⟨S_, .i32⟩
  | .hbm, ⟨46, _⟩ => ⟨S1622016, .i32⟩
  | .hbm, ⟨47, _⟩ => ⟨S1622016, .i1⟩
  | .hbm, ⟨48, _⟩ => ⟨S_, .i32⟩
  | .hbm, ⟨49, _⟩ => ⟨S1622016, .i32⟩
  | .hbm, ⟨50, _⟩ => ⟨S1622016, .i32⟩
  | .hbm, ⟨51, _⟩ => ⟨S1622016, .i32⟩
  | .hbm, ⟨52, _⟩ => ⟨S1622016x1, .i32⟩
  | .hbm, ⟨53, _⟩ => ⟨S1622016, .f32⟩
  | .hbm, ⟨54, _⟩ => ⟨S1622016, .f32⟩
  | .hbm, ⟨55, _⟩ => ⟨S180224x128, .f32⟩
  | .hbm, ⟨56, _⟩ => ⟨S1622016x1, .f32⟩
  | .hbm, ⟨57, _⟩ => ⟨S_, .i32⟩
  | .hbm, ⟨58, _⟩ => ⟨S1622016, .i32⟩
  | .hbm, ⟨59, _⟩ => ⟨S1622016, .i1⟩
  | .hbm, ⟨60, _⟩ => ⟨S_, .i32⟩
  | .hbm, ⟨61, _⟩ => ⟨S1622016, .i32⟩
  | .hbm, ⟨62, _⟩ => ⟨S1622016, .i32⟩
  | .hbm, ⟨63, _⟩ => ⟨S1622016, .i32⟩
  | .hbm, ⟨64, _⟩ => ⟨S1622016x1, .i32⟩
  | .hbm, ⟨65, _⟩ => ⟨S1622016x128, .f32⟩
  | .hbm, ⟨66, _⟩ => ⟨S1622016x128, .f32⟩
  | .hbm, ⟨67, _⟩ => ⟨S1622016x128, .f32⟩
  | .hbm, ⟨68, _⟩ => ⟨S_, .f32⟩
  | .hbm, ⟨69, _⟩ => ⟨S180224x128, .f32⟩
  | .hbm, ⟨70, _⟩ => ⟨S1622016x1, .i32⟩
  | .hbm, ⟨71, _⟩ => ⟨S180224x128, .f32⟩
  | .hbm, ⟨72, _⟩ => ⟨S1x128, .f32⟩
  | .hbm, ⟨73, _⟩ => ⟨S180224x128, .f32⟩
  | .hbm, ⟨74, _⟩ => ⟨S180224x128, .f32⟩
  | .hbm, ⟨75, _⟩ => ⟨S_, .f32⟩
  | .hbm, ⟨76, _⟩ => ⟨S_, .f32⟩
  | .hbm, ⟨77, _⟩ => ⟨S180224x128, .f32⟩
  | .hbm, ⟨78, _⟩ => ⟨S180224x128, .i1⟩
  | .hbm, ⟨79, _⟩ => ⟨S_, .f32⟩
  | .hbm, ⟨80, _⟩ => ⟨S180224x128, .f32⟩
  | .hbm, ⟨81, _⟩ => ⟨S180224x128, .f32⟩
  | .hbm, ⟨82, _⟩ => ⟨S180224x128, .f32⟩
  | .hbm, ⟨83, _⟩ => ⟨S180224x128, .f32⟩
  | .hbm, ⟨84, _⟩ => ⟨S1622016x1, .f32⟩
  | .hbm, ⟨85, _⟩ => ⟨S_, .i32⟩
  | .hbm, ⟨86, _⟩ => ⟨S1622016, .i32⟩
  | .hbm, ⟨87, _⟩ => ⟨S1622016, .i1⟩
  | .hbm, ⟨88, _⟩ => ⟨S_, .i32⟩
  | .hbm, ⟨89, _⟩ => ⟨S1622016, .i32⟩
  | .hbm, ⟨90, _⟩ => ⟨S1622016, .i32⟩
  | .hbm, ⟨91, _⟩ => ⟨S1622016, .i32⟩
  | .hbm, ⟨92, _⟩ => ⟨S1622016x1, .i32⟩
  | .hbm, ⟨93, _⟩ => ⟨S1622016x128, .f32⟩
  | .hbm, ⟨94, _⟩ => ⟨S1622016x128, .f32⟩
  | .hbm, ⟨95, _⟩ => ⟨S1622016x128, .f32⟩
  | .hbm, ⟨96, _⟩ => ⟨S_, .f32⟩
  | .hbm, ⟨97, _⟩ => ⟨S180224x128, .f32⟩
  | .hbm, ⟨98, _⟩ => ⟨S1622016x1, .i32⟩
  | .hbm, ⟨99, _⟩ => ⟨S180224x128, .f32⟩
  | .hbm, ⟨100, _⟩ => ⟨S1x128, .f32⟩
  | .hbm, ⟨101, _⟩ => ⟨S180224x128, .f32⟩
  | .hbm, ⟨102, _⟩ => ⟨S180224x128, .f32⟩
  | .hbm, ⟨103, _⟩ => ⟨S8192x2816, .f32⟩
  | .hbm, ⟨104, _⟩ => ⟨S1x128, .f32⟩
  | .hbm, ⟨105, _⟩ => ⟨S8192x128, .f32⟩
  | .hbm, ⟨106, _⟩ => ⟨S1x128, .f32⟩
  | .hbm, ⟨107, _⟩ => ⟨S8192x128, .f32⟩
  | .hbm, ⟨108, _⟩ => ⟨S1x1, .f32⟩
  | .hbm, ⟨109, _⟩ => ⟨S8192x1, .f32⟩
  | .local _ .vmem, ⟨0, _⟩ => ⟨S4096x3, .f32⟩
  | .local _ .vmem, ⟨1, _⟩ => ⟨S4096x3, .f32⟩
  | .local _ .vmem, ⟨2, _⟩ => ⟨S3x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S128x128, .f32⟩
  | .local _ .vmem, ⟨8, _⟩ => ⟨S4096x128, .f32⟩
  | .local _ .vmem, ⟨9, _⟩ => ⟨S4096x128, .f32⟩
  | .local _ .vmem, ⟨10, _⟩ => ⟨S512x2816, .f32⟩
  | .local _ .vmem, ⟨11, _⟩ => ⟨S512x2816, .f32⟩
  | .local _ .vmem, ⟨12, _⟩ => ⟨S2816x128, .f32⟩
  | .local _ .vmem, ⟨13, _⟩ => ⟨S1x128, .f32⟩
  | .local _ .vmem, ⟨14, _⟩ => ⟨S512x128, .f32⟩
  | .local _ .vmem, ⟨15, _⟩ => ⟨S512x128, .f32⟩
  | .local _ .vmem, ⟨16, _⟩ => ⟨S1024x128, .f32⟩
  | .local _ .vmem, ⟨17, _⟩ => ⟨S1024x128, .f32⟩
  | .local _ .vmem, ⟨18, _⟩ => ⟨S128x128, .f32⟩
  | .local _ .vmem, ⟨19, _⟩ => ⟨S1x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S128x1, .f32⟩
  | .local _ .vmem, ⟨25, _⟩ => ⟨S1x1, .f32⟩
  | .local _ .vmem, ⟨26, _⟩ => ⟨S1024x1, .f32⟩
  | .local _ .vmem, ⟨27, _⟩ => ⟨S1024x1, .f32⟩
  | _, _ => ⟨S180224x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_c_10 : Ref sig .tc := ⟨.hbm, 85, rfl⟩
abbrev main_v52 : Ref sig .tc := ⟨.hbm, 86, rfl⟩
abbrev main_v53 : Ref sig .tc := ⟨.hbm, 87, rfl⟩
abbrev main_c_11 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_12 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![44], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2816 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2816x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1441792_S1x1441792_0_0 : S2x1441792.Slices ![0, 0] S1x1441792
  shapeCasts_S1x1441792_S1441792 : S1x1441792.ShapeCasts S1441792
  concatenates_S1441792_S180224_S1622016_d0 : Shape.Concatenates [S1441792, S180224] S1622016 0
  slices_S2x1441792_S1x1441792_1_0 : S2x1441792.Slices ![1, 0] S1x1441792
  bcast_S_S180224 : S_.BroadcastsInDim S180224 (![] : Fin 0 → Fin S180224.rank)
  bcast_S1622016_S1622016x1_0 : S1622016.BroadcastsInDim S1622016x1 (![0] : Fin 1 → Fin S1622016x1.rank)
  bcast_S_S1622016 : S_.BroadcastsInDim S1622016 (![] : Fin 0 → Fin S1622016.rank)
  inb_S4096x3_S4096x3_0_0 : ∀ a, (![0, 0] : Fin 2 → Nat) a + S4096x3.size a ≤ S4096x3.size a
  h_S4096x3 : 0 < S4096x3.numel
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S4096x128_S4096x128_0_0 : ∀ a, (![0, 0] : Fin 2 → Nat) a + S4096x128.size a ≤ S4096x128.size a
  h_S4096x128 : 0 < S4096x128.numel
  bcast_S1622016x1_S1622016x128_0_1 : S1622016x1.BroadcastsInDim S1622016x128 (![0, 1] : Fin 2 → Fin S1622016x128.rank)
  bcast_S_S180224x128 : S_.BroadcastsInDim S180224x128 (![] : Fin 0 → Fin S180224x128.rank)
  bcast_S128_S1x128_1 : S128.BroadcastsInDim S1x128 (![1] : Fin 1 → Fin S1x128.rank)
  bcast_S1x128_S180224x128_0_1 : S1x128.BroadcastsInDim S180224x128 (![0, 1] : Fin 2 → Fin S180224x128.rank)
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S180224x128_S8192x2816 : S180224x128.ShapeCasts S8192x2816
  shapeCasts_S128_S1x128 : S128.ShapeCasts S1x128
  inb_S512x2816_S512x2816_0_0 : ∀ a, (![0, 0] : Fin 2 → Nat) a + S512x2816.size a ≤ S512x2816.size a
  h_S512x2816 : 0 < S512x2816.numel
  shapeCasts_S512x2816_S512x2816 : S512x2816.ShapeCasts S512x2816
  inb_S2816x128_S2816x128_0_0 : ∀ a, (![0, 0] : Fin 2 → Nat) a + S2816x128.size a ≤ S2816x128.size a
  h_S2816x128 : 0 < S2816x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x128_S1024x128 : S1x128.Broadcasts S1024x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  scatter_S180224_S1622016x1_S1622016_n_0_0_1_wf : ScatterDims.WF S180224 S1622016x1 S1622016 [] [0] [0] 1
  gather_S180224_S1622016x1_S1622016_n_0_n_n_0_1_1_wf : GatherDims.WF S180224 S1622016x1 S1622016 [] [0] [] [0] [] 1 ![1]
  dot_S4096x3_S3x128_S4096x128_1_0_0_1_n_n_wf : DotDims.WF S4096x3 S3x128 S4096x128 [1] [0] [0] [1] [] []
  gather_S180224x128_S1622016x1_S1622016x128_1_0_n_n_0_1_1128_wf : GatherDims.WF S180224x128 S1622016x1 S1622016x128 [1] [0] [] [0] [] 1 ![1, 128]
  scatter_S180224x128_S1622016x1_S1622016x128_1_0_0_1_wf : ScatterDims.WF S180224x128 S1622016x1 S1622016x128 [1] [0] [0] 1
  dot_S4096x128_S128x128_S4096x128_1_0_0_1_n_n_wf : DotDims.WF S4096x128 S128x128 S4096x128 [1] [0] [0] [1] [] []
  dot_S512x2816_S2816x128_S512x128_1_0_0_1_n_n_wf : DotDims.WF S512x2816 S2816x128 S512x128 [1] [0] [0] [1] [] []
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S180224x3.size a
  hwx0_0 : ∀ i : grid0.Coords, EltTy.bits .f32 = 32 ∨ (Rect.block (s := S180224x3) S4096x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S180224x128.size a
  hwx0_2 : ∀ i : grid0.Coords, EltTy.bits .f32 = 32 ∨ (Rect.block (s := S180224x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S180224x128.size a
  hwx1_0 : ∀ i : grid1.Coords, EltTy.bits .f32 = 32 ∨ (Rect.block (s := S180224x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S180224x128.size a
  hwx1_2 : ∀ i : grid1.Coords, EltTy.bits .f32 = 32 ∨ (Rect.block (s := S180224x128) S4096x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2816.size a ≤ S8192x2816.size a
  hwx2_0 : ∀ i : grid2.Coords, EltTy.bits .f32 = 32 ∨ (Rect.block (s := S8192x2816) S512x2816.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2816x128.size a ≤ S2816x128.size a
  hwx2_1 : ∀ i : grid2.Coords, EltTy.bits .f32 = 32 ∨ (Rect.block (s := S2816x128) S2816x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S8192x128.size a
  hwx2_3 : ∀ i : grid2.Coords, EltTy.bits .f32 = 32 ∨ (Rect.block (s := S8192x128) S512x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S8192x128.size a
  hwx3_0 : ∀ i : grid3.Coords, EltTy.bits .f32 = 32 ∨ (Rect.block (s := S8192x128) S1024x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S8192x128.size a
  hwx3_3 : ∀ i : grid3.Coords, EltTy.bits .f32 = 32 ∨ (Rect.block (s := S8192x128) S1024x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S8192x128.size a
  hwx4_0 : ∀ i : grid4.Coords, EltTy.bits .f32 = 32 ∨ (Rect.block (s := S8192x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1.size a ≤ S8192x1.size a
  hwx4_3 : ∀ i : grid4.Coords, EltTy.bits .f32 = 32 ∨ (Rect.block (s := S8192x1) S1024x1.size (cc4_transform_3 i) (hinb4_3 i)).WholeWords (EltTy.packing .f32)

variable [Facts₀]

def scatter_S180224_S1622016x1_S1622016_n_0_0_1 : ScatterDims S180224 S1622016x1 S1622016 where
  updateWindowDims := []
  insertedWindowDims := [0]
  scatterDimsToOperandDims := [0]
  indexVectorDim := 1
  wf := scatter_S180224_S1622016x1_S1622016_n_0_0_1_wf
def gather_S180224_S1622016x1_S1622016_n_0_n_n_0_1_1 : GatherDims S180224 S1622016x1 S1622016 where
  offsetDims := []
  collapsedSliceDims := [0]
  operandBatchingDims := []
  startIndicesBatchingDims := []
  startIndexMap := [0]
  indexVectorDim := 1
  sliceSizes := ![1]
  wf := gather_S180224_S1622016x1_S1622016_n_0_n_n_0_1_1_wf
def dot_S4096x3_S3x128_S4096x128_1_0_0_1_n_n : DotDims S4096x3 S3x128 S4096x128 where
  lhsContracting := [1]
  rhsContracting := [0]
  lhsNonContracting := [0]
  rhsNonContracting := [1]
  lhsBatch := []
  rhsBatch := []
  wf := dot_S4096x3_S3x128_S4096x128_1_0_0_1_n_n_wf
def gather_S180224x128_S1622016x1_S1622016x128_1_0_n_n_0_1_1128 : GatherDims S180224x128 S1622016x1 S1622016x128 where
  offsetDims := [1]
  collapsedSliceDims := [0]
  operandBatchingDims := []
  startIndicesBatchingDims := []
  startIndexMap := [0]
  indexVectorDim := 1
  sliceSizes := ![1, 128]
  wf := gather_S180224x128_S1622016x1_S1622016x128_1_0_n_n_0_1_1128_wf
def scatter_S180224x128_S1622016x1_S1622016x128_1_0_0_1 : ScatterDims S180224x128 S1622016x1 S1622016x128 where
  updateWindowDims := [1]
  insertedWindowDims := [0]
  scatterDimsToOperandDims := [0]
  indexVectorDim := 1
  wf := scatter_S180224x128_S1622016x1_S1622016x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x2816_S2816x128_S512x128_1_0_0_1_n_n : DotDims S512x2816 S2816x128 S512x128 where
  lhsContracting := [1]
  rhsContracting := [0]
  lhsNonContracting := [0]
  rhsNonContracting := [1]
  lhsBatch := []
  rhsBatch := []
  wf := dot_S512x2816_S2816x128_S512x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_arg0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S512x2816.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S2816x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v69) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v71) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S1024x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S180224x3 : Shape := ⟨2, ![180224, 3]⟩
abbrev S2x1441792 : Shape := ⟨2, ![2, 1441792]⟩
abbrev S1441792 : Shape := ⟨1, ![1441792]⟩
abbrev S3x128 : Shape := ⟨2, ![3, 128]⟩
abbrev S128 : Shape := ⟨1, ![128]⟩
abbrev S128x128 : Shape := ⟨2, ![128, 128]⟩
abbrev S2816x128 : Shape := ⟨2, ![2816, 128]⟩
abbrev S128x1 : Shape := ⟨2, ![128, 1]⟩
abbrev S1 : Shape := ⟨1, ![1]⟩
abbrev S180224 : Shape := ⟨1, ![180224]⟩
abbrev S1x1441792 : Shape := ⟨2, ![1, 1441792]⟩
abbrev S1622016 : Shape := ⟨1, ![1622016]⟩
abbrev S_ : Shape := ⟨0, ![]⟩
abbrev S180224x128 : Shape := ⟨2, ![180224, 128]⟩
abbrev S1622016x1 : Shape := ⟨2, ![1622016, 1]⟩
abbrev S1622016x128 : Shape := ⟨2, ![1622016, 128]⟩
abbrev S1x128 : Shape := ⟨2, ![1, 128]⟩
abbrev S8192x2816 : Shape := ⟨2, ![8192, 2816]⟩
abbrev S8192x128 : Shape := ⟨2, ![8192, 128]⟩
abbrev S8192x1 : Shape := ⟨2, ![8192, 1]⟩
abbrev S1x1 : Shape := ⟨2, ![1, 1]⟩

abbrev nBuf : Space → Nat
  | .hbm => 171
  | .vmem => 0
  | .smem => 0
  | _ => 0

abbrev hbmTy0_0 (i : Nat) : BufTy := match i % 128 with
  | 0 => ⟨S180224x3, .f32⟩
  | 1 => ⟨S2x1441792, .i32⟩
  | 2 => ⟨S1441792, .f32⟩
  | 3 => ⟨S3x128, .f32⟩
  | 4 => ⟨S128, .f32⟩
  | 5 => ⟨S128x128, .f32⟩
  | 6 => ⟨S128, .f32⟩
  | 7 => ⟨S2816x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S180224, .i32⟩
  | 14 => ⟨S1x1441792, .i32⟩
  | 15 => ⟨S1441792, .i32⟩
  | 16 => ⟨S1622016, .i32⟩
  | 17 => ⟨S1x1441792, .i32⟩
  | 18 => ⟨S1441792, .i32⟩
  | 19 => ⟨S1622016, .i32⟩
  | 20 => ⟨S_, .f32⟩
  | 21 => ⟨S180224, .f32⟩
  | 22 => ⟨S1622016, .f32⟩
  | 23 => ⟨S180224x128, .f32⟩
  | 24 => ⟨S_, .f32⟩
  | 25 => ⟨S180224, .f32⟩
  | 26 => ⟨S1622016x1, .i32⟩
  | 27 => ⟨S180224, .f32⟩
  | 28 => ⟨S_, .f32⟩
  | 29 => ⟨S180224, .f32⟩
  | 30 => ⟨S180224, .i1⟩
  | 31 => ⟨S180224, .f32⟩
  | 32 => ⟨S_, .f32⟩
  | 33 => ⟨S_, .f32⟩
  | 34 => ⟨S180224, .f32⟩
  | 35 => ⟨S180224, .f32⟩
  | 36 => ⟨S_, .i32⟩
  | 37 => ⟨S1622016, .i32⟩
  | 38 => ⟨S1622016, .i1⟩
  | 39 => ⟨S_, .i32⟩
  | 40 => ⟨S1622016, .i32⟩
  | 41 => ⟨S1622016, .i32⟩
  | 42 => ⟨S1622016, .i32⟩
  | 43 => ⟨S1622016x1, .i32⟩
  | 44 => ⟨S1622016, .f32⟩
  | 45 => ⟨S1622016, .f32⟩
  | 46 => ⟨S_, .i32⟩
  | 47 => ⟨S1622016, .i32⟩
  | 48 => ⟨S1622016, .i1⟩
  | 49 => ⟨S_, .i32⟩
  | 50 => ⟨S1622016, .i32⟩
  | 51 => ⟨S1622016, .i32⟩
  | 52 => ⟨S1622016, .i32⟩
  | 53 => ⟨S1622016x1, .i32⟩
  | 54 => ⟨S1622016, .f32⟩
  | 55 => ⟨S1622016, .f32⟩
  | 56 => ⟨S1622016x1, .f32⟩
  | 57 => ⟨S_, .i32⟩
  | 58 => ⟨S1622016, .i32⟩
  | 59 => ⟨S1622016, .i1⟩
  | 60 => ⟨S_, .i32⟩
  | 61 => ⟨S1622016, .i32⟩
  | 62 => ⟨S1622016, .i32⟩
  | 63 => ⟨S1622016, .i32⟩
  | 64 => ⟨S1622016x1, .i32⟩
  | 65 => ⟨S1622016x128, .f32⟩
  | 66 => ⟨S1622016x128, .f32⟩
  | 67 => ⟨S1622016x128, .f32⟩
  | 68 => ⟨S_, .f32⟩
  | 69 => ⟨S180224x128, .f32⟩
  | 70 => ⟨S1622016x1, .i32⟩
  | 71 => ⟨S180224x128, .f32⟩
  | 72 => ⟨S1x128, .f32⟩
  | 73 => ⟨S180224x128, .f32⟩
  | 74 => ⟨S180224x128, .f32⟩
  | 75 => ⟨S_, .f32⟩
  | 76 => ⟨S_, .f32⟩
  | 77 => ⟨S180224x128, .f32⟩
  | 78 => ⟨S180224x128, .i1⟩
  | 79 => ⟨S_, .f32⟩
  | 80 => ⟨S180224x128, .f32⟩
  | 81 => ⟨S180224x128, .f32⟩
  | 82 => ⟨S180224x128, .f32⟩
  | 83 => ⟨S180224x128, .f32⟩
  | 84 => ⟨S_, .f32⟩
  | 85 => ⟨S180224, .f32⟩
  | 86 => ⟨S1622016x1, .i32⟩
  | 87 => ⟨S180224, .f32⟩
  | 88 => ⟨S_, .f32⟩
  | 89 => ⟨S180224, .f32⟩
  | 90 => ⟨S180224, .i1⟩
  | 91 => ⟨S180224, .f32⟩
  | 92 => ⟨S_, .f32⟩
  | 93 => ⟨S_, .f32⟩
  | 94 => ⟨S180224, .f32⟩
  | 95 => ⟨S180224, .f32⟩
  | 96 => ⟨S_, .i32⟩
  | 97 => ⟨S1622016, .i32⟩
  | 98 => ⟨S1622016, .i1⟩
  | 99 => ⟨S_, .i32⟩
  | 100 => ⟨S1622016, .i32⟩
  | 101 => ⟨S1622016, .i32⟩
  | 102 => ⟨S1622016, .i32⟩
  | 103 => ⟨S1622016x1, .i32⟩
  | 104 => ⟨S1622016, .f32⟩
  | 105 => ⟨S1622016, .f32⟩
  | 106 => ⟨S_, .i32⟩
  | 107 => ⟨S1622016, .i32⟩
  | 108 => ⟨S1622016, .i1⟩
  | 109 => ⟨S_, .i32⟩
  | 110 => ⟨S1622016, .i32⟩
  | 111 => ⟨S1622016, .i32⟩
  | 112 => ⟨S1622016, .i32⟩
  | 113 => ⟨S1622016x1, .i32⟩
  | 114 => ⟨S1622016, .f32⟩
  | 115 => ⟨S1622016, .f32⟩
  | 116 => ⟨S1622016x1, .f32⟩
  | 117 => ⟨S_, .i32⟩
  | 118 => ⟨S1622016, .i32⟩
  | 119 => ⟨S1622016, .i1⟩
  | 120 => ⟨S_, .i32⟩
  | 121 => ⟨S1622016, .i32⟩
  | 122 => ⟨S1622016, .i32⟩
  | 123 => ⟨S1622016, .i32⟩
  | 124 => ⟨S1622016x1, .i32⟩
  | 125 => ⟨S1622016x128, .f32⟩
  | 126 => ⟨S1622016x128, .f32⟩
  | 127 => ⟨S1622016x128, .f32⟩
  | _ => ⟨S180224x3, .f32⟩

abbrev hbmTy0_1 (i : Nat) : BufTy := match i % 128 with
  | 0 => ⟨S_, .f32⟩
  | 1 => ⟨S180224x128, .f32⟩
  | 2 => ⟨S1622016x1, .i32⟩
  | 3 => ⟨S180224x128, .f32⟩
  | 4 => ⟨S1x128, .f32⟩
  | 5 => ⟨S180224x128, .f32⟩
  | 6 => ⟨S180224x128, .f32⟩
  | 7 => ⟨S8192x2816, .f32⟩
  | 8 => ⟨S8192x128, .f32⟩
  | 9 => ⟨S1x128, .f32⟩
  | 10 => ⟨S8192x128, .f32⟩
  | 11 => ⟨S8192x128, .f32⟩
  | 12 => ⟨S_, .f32⟩
  | 13 => ⟨S_, .f32⟩
  | 14 => ⟨S8192x128, .f32⟩
  | 15 => ⟨S8192x128, .i1⟩
  | 16 => ⟨S_, .f32⟩
  | 17 => ⟨S8192x128, .f32⟩
  | 18 => ⟨S8192x128, .f32⟩
  | 19 => ⟨S8192x128, .f32⟩
  | 20 => ⟨S8192x128, .f32⟩
  | 21 => ⟨S1x128, .f32⟩
  | 22 => ⟨S8192x128, .f32⟩
  | 23 => ⟨S8192x128, .f32⟩
  | 24 => ⟨S_, .f32⟩
  | 25 => ⟨S_, .f32⟩
  | 26 => ⟨S8192x128, .f32⟩
  | 27 => ⟨S8192x128, .i1⟩
  | 28 => ⟨S_, .f32⟩
  | 29 => ⟨S8192x128, .f32⟩
  | 30 => ⟨S8192x128, .f32⟩
  | 31 => ⟨S8192x128, .f32⟩
  | 32 => ⟨S8192x1, .f32⟩
  | 33 => ⟨S1x1, .f32⟩
  | 34 => ⟨S8192x1, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192x1, .f32⟩
  | 42 => ⟨S8192x1, .f32⟩
  | _ => ⟨S180224x3, .f32⟩

abbrev hbmTy (i : Nat) : BufTy := match i / 128 with
  | 0 => hbmTy0_0 i
  | 1 => hbmTy0_1 i
  | _ => ⟨S180224x3, .f32⟩

abbrev bufTy : (tb : Table) → Fin (tcTables nBuf tb) → BufTy
  | .hbm, ⟨i, _⟩ => hbmTy i
  | _, _ => ⟨S180224x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v49 : Ref sig .tc := ⟨.hbm, 82, rfl⟩
abbrev main_v50 : Ref sig .tc := ⟨.hbm, 83, rfl⟩
abbrev main_cst_10 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_11 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v57 : Ref sig .tc := ⟨.hbm, 95, rfl⟩
abbrev main_c_13 : Ref sig .tc := ⟨.hbm, 96, rfl⟩
abbrev main_v58 : Ref sig .tc := ⟨.hbm, 97, rfl⟩
abbrev main_v59 : Ref sig .tc := ⟨.hbm, 98, rfl⟩
abbrev main_c_14 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_c_15 : Ref sig .tc := ⟨.hbm, 106, rfl⟩
abbrev main_v66 : Ref sig .tc := ⟨.hbm, 107, rfl⟩
abbrev main_v67 : Ref sig .tc := ⟨.hbm, 108, rfl⟩
abbrev main_c_16 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_17 : Ref sig .tc := ⟨.hbm, 117, rfl⟩
abbrev main_v75 : Ref sig .tc := ⟨.hbm, 118, rfl⟩
abbrev main_v76 : Ref sig .tc := ⟨.hbm, 119, rfl⟩
abbrev main_c_18 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_19 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_20 : Ref sig .tc := ⟨.hbm, 140, rfl⟩
abbrev main_call3_cst : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_21 : Ref sig .tc := ⟨.hbm, 152, rfl⟩
abbrev main_call4_cst : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_call4_v3 : Ref sig .tc := ⟨.hbm, 157, rfl⟩
abbrev main_call4_v4 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_22 : Ref sig .tc := ⟨.hbm, 165, rfl⟩
abbrev main_v106 : Ref sig .tc := ⟨.hbm, 166, rfl⟩
abbrev main_v107 : Ref sig .tc := ⟨.hbm, 167, rfl⟩
abbrev main_cst_23 : Ref sig .tc := ⟨.hbm, 168, rfl⟩
abbrev main_v108 : Ref sig .tc := ⟨.hbm, 169, rfl⟩
abbrev main_v109 : Ref sig .tc := ⟨.hbm, 170, rfl⟩

abbrev nD : Nat := 1
abbrev τ : Topo := Topo.v7x

variable {F : FTy → Type} [FloatOps F]

class Facts₀ : Prop where
  slices_S2x1441792_S1x1441792_0_0 : S2x1441792.Slices ![0, 0] S1x1441792
  shapeCasts_S1x1441792_S1441792 : S1x1441792.ShapeCasts S1441792
  concatenates_S1441792_S180224_S1622016_d0 : Shape.Concatenates [S1441792, S180224] S1622016 0
  slices_S2x1441792_S1x1441792_1_0 : S2x1441792.Slices ![1, 0] S1x1441792
  bcast_S_S180224 : S_.BroadcastsInDim S180224 (![] : Fin 0 → Fin S180224.rank)
  bcast_S1622016_S1622016x1_0 : S1622016.BroadcastsInDim S1622016x1 (![0] : Fin 1 → Fin S1622016x1.rank)
  bcast_S_S1622016 : S_.BroadcastsInDim S1622016 (![] : Fin 0 → Fin S1622016.rank)
  bcast_S1622016x1_S1622016x128_0_1 : S1622016x1.BroadcastsInDim S1622016x128 (![0, 1] : Fin 2 → Fin S1622016x128.rank)
  bcast_S_S180224x128 : S_.BroadcastsInDim S180224x128 (![] : Fin 0 → Fin S180224x128.rank)
  bcast_S128_S1x128_1 : S128.BroadcastsInDim S1x128 (![1] : Fin 1 → Fin S1x128.rank)
  bcast_S1x128_S180224x128_0_1 : S1x128.BroadcastsInDim S180224x128 (![0, 1] : Fin 2 → Fin S180224x128.rank)
  shapeCasts_S180224x128_S8192x2816 : S180224x128.ShapeCasts S8192x2816
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  dot_S180224x3_S3x128_S180224x128_1_0_0_1_n_n_wf : DotDims.WF S180224x3 S3x128 S180224x128 [1] [0] [0] [1] [] []
  scatter_S180224_S1622016x1_S1622016_n_0_0_1_wf : ScatterDims.WF S180224 S1622016x1 S1622016 [] [0] [0] 1
  gather_S180224_S1622016x1_S1622016_n_0_n_n_0_1_1_wf : GatherDims.WF S180224 S1622016x1 S1622016 [] [0] [] [0] [] 1 ![1]
  gather_S180224x128_S1622016x1_S1622016x128_1_0_n_n_0_1_1128_wf : GatherDims.WF S180224x128 S1622016x1 S1622016x128 [1] [0] [] [0] [] 1 ![1, 128]
  scatter_S180224x128_S1622016x1_S1622016x128_1_0_0_1_wf : ScatterDims.WF S180224x128 S1622016x1 S1622016x128 [1] [0] [0] 1
  dot_S180224x128_S128x128_S180224x128_1_0_0_1_n_n_wf : DotDims.WF S180224x128 S128x128 S180224x128 [1] [0] [0] [1] [] []
  dot_S8192x2816_S2816x128_S8192x128_1_0_0_1_n_n_wf : DotDims.WF S8192x2816 S2816x128 S8192x128 [1] [0] [0] [1] [] []
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []

variable [Facts₀]

def dot_S180224x3_S3x128_S180224x128_1_0_0_1_n_n : DotDims S180224x3 S3x128 S180224x128 where
  lhsContracting := [1]
  rhsContracting := [0]
  lhsNonContracting := [0]
  rhsNonContracting := [1]
  lhsBatch := []
  rhsBatch := []
  wf := dot_S180224x3_S3x128_S180224x128_1_0_0_1_n_n_wf
def scatter_S180224_S1622016x1_S1622016_n_0_0_1 : ScatterDims S180224 S1622016x1 S1622016 where
  updateWindowDims := []
  insertedWindowDims := [0]
  scatterDimsToOperandDims := [0]
  indexVectorDim := 1
  wf := scatter_S180224_S1622016x1_S1622016_n_0_0_1_wf
def gather_S180224_S1622016x1_S1622016_n_0_n_n_0_1_1 : GatherDims S180224 S1622016x1 S1622016 where
  offsetDims := []
  collapsedSliceDims := [0]
  operandBatchingDims := []
  startIndicesBatchingDims := []
  startIndexMap := [0]
  indexVectorDim := 1
  sliceSizes := ![1]
  wf := gather_S180224_S1622016x1_S1622016_n_0_n_n_0_1_1_wf
def gather_S180224x128_S1622016x1_S1622016x128_1_0_n_n_0_1_1128 : GatherDims S180224x128 S1622016x1 S1622016x128 where
  offsetDims := [1]
  collapsedSliceDims := [0]
  operandBatchingDims := []
  startIndicesBatchingDims := []
  startIndexMap := [0]
  indexVectorDim := 1
  sliceSizes := ![1, 128]
  wf := gather_S180224x128_S1622016x1_S1622016x128_1_0_n_n_0_1_1128_wf
def scatter_S180224x128_S1622016x1_S1622016x128_1_0_0_1 : ScatterDims S180224x128 S1622016x1 S1622016x128 where
  updateWindowDims := [1]
  insertedWindowDims := [0]
  scatterDimsToOperandDims := [0]
  indexVectorDim := 1
  wf := scatter_S180224x128_S1622016x1_S1622016x128_1_0_0_1_wf
def dot_S180224x128_S128x128_S180224x128_1_0_0_1_n_n : DotDims S180224x128 S128x128 S180224x128 where
  lhsContracting := [1]
  rhsContracting := [0]
  lhsNonContracting := [0]
  rhsNonContracting := [1]
  lhsBatch := []
  rhsBatch := []
  wf := dot_S180224x128_S128x128_S180224x128_1_0_0_1_n_n_wf
def dot_S8192x2816_S2816x128_S8192x128_1_0_0_1_n_n : DotDims S8192x2816 S2816x128 S8192x128 where
  lhsContracting := [1]
  rhsContracting := [0]
  lhsNonContracting := [0]
  rhsNonContracting := [1]
  lhsBatch := []
  rhsBatch := []
  wf := dot_S8192x2816_S2816x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

class Facts : Prop extends Facts₀ where

variable [Facts]
-- ==== Proof.Spec.lean ====
/-
  The two programs as ONE composition of array functions.

  Both programs compute a two-layer graph convolution followed by a three-layer perceptron head:
    row, col  : the edge endpoints followed by one self loop per node;  ew : the edge weights followed by ones
    deg       : the weighted in-degree (a scatter-add of ew at col);  dinv = deg^(-1/2) where deg > 0, else 0
    norm      : dinv[row] * ew * dinv[col]
    conv h b  : scatter-add at col of norm * h[row], plus the bias b on every row
    layer 1   : leaky (conv (x W1) b1);   layer 2 : conv (layer1 W2) b2, re-laid as 8192 rows of 22*128
    head      : leaky (z Wf0 + bf0), leaky (z Wf1 + bf1), tanh (z Wout + bout) * 90 + 150
  Each stage is named here once, over the host operations of the reference, so that the value of either program is
  the same composition of these names; the stages themselves (a gather, a scatter-add) are never opened.
-/
import proofs.«116987_j64750926955165_1_alg».proof.Proof.Gen.ReferenceIdeal
import Idealize.ShloMosaic.PureOps.Ideal

noncomputable section

namespace Cert.Spec

open Idealize.ShloMosaic Cert.ReferenceIdeal Cert.ReferenceIdeal.Facts₀

/-- Edge sources, then the self loops `0 … n-1`. -/
def rowOf (a1 : IVec S2x1441792 32) : IVec S1622016 32 :=
  concatenate S1622016 0 [⟨S1441792, shapeCast S1441792 (extractStridedSlice S1x1441792 ![0, 0] a1 slices_S2x1441792_S1x1441792_0_0) shapeCasts_S1x1441792_S1441792⟩, ⟨S180224, iotaInDim S180224 32 0⟩] concatenates_S1441792_S180224_S1622016_d0

/-- Edge targets, then the self loops `0 … n-1`. -/
def colOf (a1 : IVec S2x1441792 32) : IVec S1622016 32 :=
  concatenate S1622016 0 [⟨S1441792, shapeCast S1441792 (extractStridedSlice S1x1441792 ![1, 0] a1 slices_S2x1441792_S1x1441792_1_0) shapeCasts_S1x1441792_S1441792⟩, ⟨S180224, iotaInDim S180224 32 0⟩] concatenates_S1441792_S180224_S1622016_d0

/-- Edge weights, then weight one for every self loop. -/
def ewOf (a2 : FVec Ideal S1441792 .f32) : FVec Ideal S1622016 .f32 :=
  concatenate S1622016 0 [⟨S1441792, a2⟩, ⟨S180224, broadcastInDim S180224 ![] bcast_S_S180224 (constant (F := Ideal) S_ .f32 0x3F800000#32)⟩] concatenates_S1441792_S180224_S1622016_d0

/-- The weighted in-degree of every node: the weights summed at their targets. -/
def degOf (col : IVec S1622016 32) (ew : FVec Ideal S1622016 .f32) : FVec Ideal S180224 .f32 :=
  Host.scatterAdd (F := Ideal) scatter_S180224_S1622016x1_S1622016_n_0_0_1
    (broadcastInDim S180224 ![] bcast_S_S180224 (constant (F := Ideal) S_ .f32 0x00000000#32))
    (broadcastInDim S1622016x1 ![0] bcast_S1622016_S1622016x1_0 col) ew

/-- `deg^(-1/2)` where the degree is positive, zero elsewhere. -/
def dinvOf (deg : FVec Ideal S180224 .f32) : FVec Ideal S180224 .f32 :=
  select (cmpf .ogt deg (broadcastInDim S180224 ![] bcast_S_S180224 (constant (F := Ideal) S_ .f32 0x00000000#32)))
    (Host.rsqrt (F := Ideal) deg)
    (broadcastInDim S180224 ![] bcast_S_S180224 (id (constant (F := Ideal) S_ .f32 0x00000000#32)))

/-- A node index as a gather reads it: a negative one counted from the end; as a column of indices. -/
def idxCol (r : IVec S1622016 32) : IVec S1622016x1 32 :=
  broadcastInDim S1622016x1 ![0] bcast_S1622016_S1622016x1_0
    (select (cmpi .slt r (broadcastInDim S1622016 ![] bcast_S_S1622016 (constantI S_ 32 0#32)))
      (addi r (broadcastInDim S1622016 ![] bcast_S_S1622016 (constantI S_ 32 180224#32))) r)

/-- The symmetric normalisation of every edge: `dinv[row] * ew * dinv[col]`. -/
def normOf (row col : IVec S1622016 32) (ew : FVec Ideal S1622016 .f32) (dinv : FVec Ideal S180224 .f32) : FVec Ideal S1622016 .f32 :=
  mulf (mulf (Host.gather gather_S180224_S1622016x1_S1622016_n_0_n_n_0_1_1 dinv (idxCol row)) ew)
    (Host.gather gather_S180224_S1622016x1_S1622016_n_0_n_n_0_1_1 dinv (idxCol col))

/-- One graph convolution of node features `h`: the normalised source rows summed at their targets, plus the bias. -/
def convOf (h : FVec Ideal S180224x128 .f32) (row col : IVec S1622016 32) (norm : FVec Ideal S1622016 .f32)
    (b : FVec Ideal S128 .f32) : FVec Ideal S180224x128 .f32 :=
  addf (Host.scatterAdd (F := Ideal) scatter_S180224x128_S1622016x1_S1622016x128_1_0_0_1
      (broadcastInDim S180224x128 ![] bcast_S_S180224x128 (constant (F := Ideal) S_ .f32 0x00000000#32))
      (broadcastInDim S1622016x1 ![0] bcast_S1622016_S1622016x1_0 col)
      (mulf (broadcastInDim S1622016x128 ![0, 1] bcast_S1622016x1_S1622016x128_0_1 (broadcastInDim S1622016x1 ![0] bcast_S1622016_S1622016x1_0 norm))
        (Host.gather gather_S180224x128_S1622016x1_S1622016x128_1_0_n_n_0_1_1128 h (idxCol row))))
    (broadcastInDim S180224x128 ![0, 1] bcast_S1x128_S180224x128_0_1 (broadcastInDim S1x128 ![1] bcast_S128_S1x128_1 b))

/-- The leaky rectifier of slope 0.01 on the node features. -/
def leakyN (x : FVec Ideal S180224x128 .f32) : FVec Ideal S180224x128 .f32 :=
  select (cmpf .oge x (broadcastInDim S180224x128 ![] bcast_S_S180224x128 (constant (F := Ideal) S_ .f32 0x00000000#32))) x
    (mulf (broadcastInDim S180224x128 ![] bcast_S_S180224x128 (id (constant (F := Ideal) S_ .f32 0x3C23D70A#32))) x)

/-- The leaky rectifier of slope 0.01 on the graph features. -/
def leakyG (x : FVec Ideal S8192x128 .f32) : FVec Ideal S8192x128 .f32 :=
  select (cmpf .oge x (broadcastInDim S8192x128 ![] bcast_S_S8192x128 (constant (F := Ideal) S_ .f32 0x00000000#32))) x
    (mulf (broadcastInDim S8192x128 ![] bcast_S_S8192x128 (id (constant (F := Ideal) S_ .f32 0x3C23D70A#32))) x)

/-- The node features times the first layer's weights. -/
def mm0 (x : FVec Ideal S180224x3 .f32) (w : FVec Ideal S3x128 .f32) : FVec Ideal S180224x128 .f32 :=
  Host.dotGeneral (F := Ideal) dot_S180224x3_S3x128_S180224x128_1_0_0_1_n_n none x w

/-- The hidden node features times the second layer's weights. -/
def mm1 (x : FVec Ideal S180224x128 .f32) (w : FVec Ideal S128x128 .f32) : FVec Ideal S180224x128 .f32 :=
  Host.dotGeneral (F := Ideal) dot_S180224x128_S128x128_S180224x128_1_0_0_1_n_n none x w

/-- A bias vector as a one-row matrix. -/
def biasRow (b : FVec Ideal S128 .f32) : FVec Ideal S1x128 .f32 := broadcastInDim S1x128 ![1] bcast_S128_S1x128_1 b

/-- The scalar bias as a one-by-one matrix. -/
def biasOne (b : FVec Ideal S1 .f32) : FVec Ideal S1x1 .f32 := broadcastInDim S1x1 ![1] bcast_S1_S1x1_1 b

/-- Every graph's 22 node rows laid side by side. -/
def flat (h : FVec Ideal S180224x128 .f32) : FVec Ideal S8192x2816 .f32 := shapeCast S8192x2816 h shapeCasts_S180224x128_S8192x2816

/-- The head's first layer: `leaky (z Wf0 + bf0)`, the bias given as a one-row matrix. -/
def head2 (z : FVec Ideal S8192x2816 .f32) (w : FVec Ideal S2816x128 .f32) (b : FVec Ideal S1x128 .f32) : FVec Ideal S8192x128 .f32 :=
  leakyG (addf (Host.dotGeneral (F := Ideal) dot_S8192x2816_S2816x128_S8192x128_1_0_0_1_n_n none z w)
    (broadcastInDim S8192x128 ![0, 1] bcast_S1x128_S8192x128_0_1 b))

/-- The head's second layer: `leaky (z Wf1 + bf1)`. -/
def head3 (z : FVec Ideal S8192x128 .f32) (w : FVec Ideal S128x128 .f32) (b : FVec Ideal S1x128 .f32) : FVec Ideal S8192x128 .f32 :=
  leakyG (addf (Host.dotGeneral (F := Ideal) dot_S8192x128_S128x128_S8192x128_1_0_0_1_n_n none z w)
    (broadcastInDim S8192x128 ![0, 1] bcast_S1x128_S8192x128_0_1 b))

/-- The head's last layer: `tanh (z Wout + bout) * 90 + 150`. -/
def head4 (z : FVec Ideal S8192x128 .f32) (w : FVec Ideal S128x1 .f32) (b : FVec Ideal S1x1 .f32) : FVec Ideal S8192x1 .f32 :=
  addf (mulf (Host.tanh (F := Ideal) (addf (Host.dotGeneral (F := Ideal) dot_S8192x128_S128x1_S8192x1_1_0_0_1_n_n none z w)
      (broadcastInDim S8192x1 ![0, 1] bcast_S1x1_S8192x1_0_1 b)))
    (broadcastInDim S8192x1 ![] bcast_S_S8192x1 (constant (F := Ideal) S_ .f32 0x42B40000#32)))
    (broadcastInDim S8192x1 ![] bcast_S_S8192x1 (constant (F := Ideal) S_ .f32 0x43160000#32))

/-- The whole network, as a function of the thirteen arguments. -/
def net (a0 : FVec Ideal S180224x3 .f32) (a1 : IVec S2x1441792 32) (a2 : FVec Ideal S1441792 .f32)
    (a3 : FVec Ideal S3x128 .f32) (a4 : FVec Ideal S128 .f32) (a5 : FVec Ideal S128x128 .f32) (a6 : FVec Ideal S128 .f32)
    (a7 : FVec Ideal S2816x128 .f32) (a8 : FVec Ideal S128 .f32) (a9 : FVec Ideal S128x128 .f32) (a10 : FVec Ideal S128 .f32)
    (a11 : FVec Ideal S128x1 .f32) (a12 : FVec Ideal S1 .f32) : FVec Ideal S8192x1 .f32 :=
  let row := rowOf a1
  let col := colOf a1
  let ew := ewOf a2
  let norm := normOf row col ew (dinvOf (degOf col ew))
  head4 (head3 (head2 (flat (convOf (mm1 (leakyN (convOf (mm0 a0 a3) row col norm a4)) a5) row col norm a6)) a7 (biasRow a8)) a9 (biasRow a10)) a11 (biasOne a12)

end Cert.Spec

end
-- ==== Proof.KRun.lean ====
/-
  The idealized kernel program's run with its result NAMED.

  @main is thirteen segments (host stretches and five kernel regions); the generated frame folds the buffer contents
  through them from the launch memory: `Gen.W13 m ρ c` is what every unscoped buffer holds when @main returns. The
  library's run theorem for such a chain leaves, in every final state, each unscoped buffer at that fold; read at the
  result buffer it names the result, read at an argument it gives the launch contents back.
-/
import proofs.«116987_j64750926955165_1_alg».proof.Proof.Gen.KernelIdeal.Frame

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument array as launched. -/
theorem run : θ_run defs (onTc (τ := τ) (main (F := F))) ⟨m, fun _ => 0, ρ⟩ (fun r => ∀ c : Dev nD,
      r.2.mem ((c.tc : Thread nD τ).loc main_v73) = W13 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v73 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.KRun

end
-- ==== Proof.Region0.lean ====
/-
  Region 0 of the idealized kernel program: the node features times the first layer's weights.

  The region's grid has 44 points; point t stages rows [4096 t, 4096 t + 4096) of the 180224 x 3 feature
  matrix and the whole 3 x 128 weight matrix, and writes back rows [4096 t, 4096 t + 4096) of the 180224 x 128
  product. At the ideal values the body's matrix product into a zero accumulator is, entry by entry, the plain sum
  over the contracted coordinate, which depends on one row of the left operand only; so the block written at point t
  is the corresponding block of the product of the whole matrices, and the 44 blocks tile the result.
-/
import proofs.«116987_j64750926955165_1_alg».proof.Proof.Gen.KernelIdeal.Frame
import proofs.«116987_j64750926955165_1_alg».proof.Proof.Spec
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

noncomputable section

namespace Cert.KernelIdeal.Region0

open Idealize.ShloMosaic Idealize.ShloMosaic.TcCoe Idealize.SL.Sem Cert.KernelIdeal Cert.KernelIdeal.Gen
open Idealize.ShloMosaic.ValueIdx
open Idealize.ShloMosaic.Pipeline (Dat)

/-! ## The two products at an index -/

/-- The body's payload at row r, column j of its block: the sum over the three contracted coordinates of the
    products of row r of the left block and column j of the right block. -/
theorem pay_apply (x0 : FVec Ideal S4096x3 .f32) (w : FVec Ideal S3x128 .f32) (r : Fin 4096) (j : Fin 128) :
    k0_pay1 (F := Ideal) x0 w (ix2 r j) = ∑ k : Fin 3, x0 (ix2 r k) * w (ix2 k j) := by
  unfold k0_pay1
  show matmul (F := Ideal) dot_S4096x3_S3x128_S4096x128_1_0_0_1_n_n none x0 w (constant (F := Ideal) S4096x128 .f32 0x00000000#32) (ix2 r j) = _
  rw [matmul_zero_eq_dotGeneral]
  rw [show dot_S4096x3_S3x128_S4096x128_1_0_0_1_n_n = DotDims.plain 4096 3 128 from rfl]
  exact StackMember.dotGeneral_plain_apply none x0 w r j

/-- The host's product of the whole matrices at row i, column j: the same sum over row i of the left matrix. -/
theorem mm0_apply (X : FVec Ideal Cert.ReferenceIdeal.S180224x3 .f32) (w : FVec Ideal Cert.ReferenceIdeal.S3x128 .f32)
    (i : Fin 180224) (j : Fin 128) :
    Cert.Spec.mm0 X w (ix2 i j) = ∑ k : Fin 3, X (ix2 i k) * w (ix2 k j) := by
  unfold Cert.Spec.mm0
  rw [show Cert.ReferenceIdeal.dot_S180224x3_S3x128_S180224x128_1_0_0_1_n_n = DotDims.plain 180224 3 128 from rfl]
  exact StackMember.dotGeneral_plain_apply none X w i j

/-! ## From the blocks to the array -/

variable (V : (c : Dev nD) → (b : Ref sig .tc) → Buf (Elt Ideal) ((c : Thread nD τ).loc b)) (c : Dev nD)

theorem zero_offsets : (![0, 0] : Fin 2 → Nat) = fun _ => 0 := funext fun a => by fin_cases a <;> rfl

/-- The printed index maps over the grid: the left operand's and the result's blocks are the t-th row blocks, the
    right operand's block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's payload at a block index agrees with the product of the whole matrices at an array index, when the
    left block's row there is the left matrix's row at the array index's row and the columns agree. -/
theorem pay_eq_mm0 (x0 : FVec Ideal S4096x3 .f32) (w : FVec Ideal S3x128 .f32)
    (X : FVec Ideal Cert.ReferenceIdeal.S180224x3 .f32) (r : Fin 4096) (j : Fin 128) (i : Fin 180224)
    (hrow : ∀ k : Fin 3, x0 (ix2 r k) = X (ix2 i k)) :
    k0_pay1 (F := Ideal) x0 w (ix2 r j) = Cert.Spec.mm0 X w (ix2 i j) := by
  rw [pay_apply, mm0_apply]
  exact Finset.sum_congr rfl fun k _ => by rw [hrow k]

/-- The right operand's block at any point is the whole weight matrix. -/
theorem iblk_w (t : Fin cfg0.N) : (iblk0 V c 1 t : FVec Ideal S3x128 .f32) = V c main_arg3 := by
  obtain ⟨e0, e1, e2, e3, e4, e5⟩ := idx_facts t
  funext z
  show V c main_arg3 (((cfg0.win 1).blk t).view.emb z) = V c main_arg3 z
  congr 1
  funext a
  apply Fin.ext
  match a with
  | ⟨0, _⟩ => show win0_1.index t (0 : Fin 2) * 3 + 1 * (z 0).val = (z 0).val; rw [e2]; omega
  | ⟨1, _⟩ => show win0_1.index t (1 : Fin 2) * 128 + 1 * (z 1).val = (z 1).val; rw [e3]; omega

/-- Row r of the left operand's block at point t is row 4096 t + r of the feature matrix. -/
theorem iblk_x (t : Fin cfg0.N) (r : Fin 4096) (k : Fin 3) (i : Fin 180224) (hi : i.val = t.val * 4096 + r.val) :
    (iblk0 V c 0 t : FVec Ideal S4096x3 .f32) (ix2 r k) = (V c main_arg0 : FVec Ideal S180224x3 .f32) (ix2 i k) := by
  obtain ⟨e0, e1, e2, e3, e4, e5⟩ := idx_facts t
  show V c main_arg0 (((cfg0.win 0).blk t).view.emb (ix2 r k)) = V c main_arg0 (ix2 i k)
  congr 1
  funext a
  apply Fin.ext
  match a with
  | ⟨0, _⟩ => show win0_0.index t (0 : Fin 2) * 4096 + 1 * r.val = i.val; rw [e0, hi]; omega
  | ⟨1, _⟩ => show win0_0.index t (1 : Fin 2) * 3 + 1 * k.val = k.val; rw [e1]; omega

/-- What point t writes back is block t of the product of the whole matrices. -/
theorem flushed_eq (t : Fin cfg0.N) :
    (dat0 (F := Ideal) V c).flushed 2 t
      = ((cfg0.win 2).blk t).view.read (Elt Ideal) (Cert.Spec.mm0 (V c main_arg0) (V c main_arg3)) := by
  show (cfg0.win 2).cut (grid0.coords t) ((dat0 V c).after 2 t) = _
  rw [after0_2]
  unfold out0_2
  rw [View.canon_unit_zero zero_offsets]
  simp only [View.ld_unit_zero (S := S4096x3) zero_offsets, View.ld_unit_zero (S := S3x128) zero_offsets]
  rw [iblk_w]
  obtain ⟨e0, e1, e2, e3, e4, e5⟩ := idx_facts t
  funext y
  obtain ⟨r, j, rfl⟩ : ∃ (r : Fin 4096) (j : Fin 128), y = ix2 r j := ⟨y 0, y 1, eq_ix2 y⟩
  have ht : t.val < 44 := lt_of_lt_of_eq t.isLt (show cfg0.N = 44 from N_0)
  have hr : r.val < 4096 := r.isLt
  show k0_pay1 (F := Ideal) (iblk0 V c 0 t) (V c main_arg3) (ix2 r j)
    = Cert.Spec.mm0 (V c main_arg0) (V c main_arg3) (((cfg0.win 2).blk t).view.emb (ix2 r j))
  have hemb : ((cfg0.win 2).blk t).view.emb (ix2 r j)
      = (ix2 (⟨t.val * 4096 + r.val, by omega⟩ : Fin 180224) j : S180224x128.Idx) := by
    funext a
    apply Fin.ext
    match a with
    | ⟨0, _⟩ => show win0_2.index t (0 : Fin 2) * 4096 + 1 * r.val = t.val * 4096 + r.val; rw [e4]; omega
    | ⟨1, _⟩ => show win0_2.index t (1 : Fin 2) * 128 + 1 * j.val = j.val; rw [e5]; omega
  rw [hemb]
  exact pay_eq_mm0 _ _ _ r j _ fun k => iblk_x V c t r k _ rfl

/-- An index of the result is in point t's block iff each coordinate is in the block's range on its axis. -/
theorem mem_blk (t : Fin cfg0.N) (i : S180224x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_v32).slice (win0_2.rect t)).set ↔ _
  rw [View.set_slice_whole, Rect.mem_set_unit]
  exact Iff.rfl

/-- The result array after the region's 44 points is the product of the feature matrix and the weights as the
    region found them: row i is written by point i / 4096. -/
theorem final : (dat0 (F := Ideal) V c).arrAt 2 cfg0.N = Cert.Spec.mm0 (V c main_arg0) (V c main_arg3) :=
  (dat0 (F := Ideal) V c).arrAt_eq_of_cover 2 (Cert.Spec.mm0 (V c main_arg0) (V c main_arg3))
    (fun t _ => flushed_eq V c t) fun i => by
      have hi0 : (i 0).val < 180224 := (i 0).isLt
      have hi1 : (i 1).val < 128 := (i 1).isLt
      have hN : cfg0.N = 44 := N_0
      refine ⟨⟨(i 0).val / 4096, by rw [hN]; omega⟩, flush0_2 _, ?_⟩
      obtain ⟨e0, e1, e2, e3, e4, e5⟩ := idx_facts ⟨(i 0).val / 4096, by rw [hN]; omega⟩
      rw [mem_blk]
      intro a
      match a with
      | ⟨0, _⟩ =>
        show win0_2.index _ (0 : Fin 2) * 4096 ≤ (i 0).val ∧ (i 0).val < win0_2.index _ (0 : Fin 2) * 4096 + 4096
        rw [e4]; show (i 0).val / 4096 * 4096 ≤ (i 0).val ∧ (i 0).val < (i 0).val / 4096 * 4096 + 4096; omega
      | ⟨1, _⟩ =>
        show win0_2.index _ (1 : Fin 2) * 128 ≤ (i 1).val ∧ (i 1).val < win0_2.index _ (1 : Fin 2) * 128 + 128
        rw [e5]; omega

end Cert.KernelIdeal.Region0

end
-- ==== Proof.Region1.lean ====
/-
  Region 1 of the idealized kernel program: the hidden node features times the second layer's weights.

  The region's grid has 44 points; point t stages rows [4096 t, 4096 t + 4096) of the 180224 x 128 matrix of hidden
  features and the whole 128 x 128 weight matrix, and writes back rows [4096 t, 4096 t + 4096) of the 180224 x 128
  product. At the ideal values the body's matrix product into a zero accumulator is, entry by entry, the plain sum
  over the contracted coordinate, which depends on one row of the left operand only; so the block written at point t
  is the corresponding block of the product of the whole matrices, and the 44 blocks tile the result.
-/
import proofs.«116987_j64750926955165_1_alg».proof.Proof.Gen.KernelIdeal.Frame
import proofs.«116987_j64750926955165_1_alg».proof.Proof.Spec
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

noncomputable section

namespace Cert.KernelIdeal.Region1

open Idealize.ShloMosaic Idealize.ShloMosaic.TcCoe Idealize.SL.Sem Cert.KernelIdeal Cert.KernelIdeal.Gen
open Idealize.ShloMosaic.ValueIdx
open Idealize.ShloMosaic.Pipeline (Dat)

/-! ## The two products at an index -/

/-- The body's payload at row r, column j of its block: the sum over the 128 contracted coordinates of the
    products of row r of the left block and column j of the right block. -/
theorem pay_apply (x0 : FVec Ideal S4096x128 .f32) (w : FVec Ideal S128x128 .f32) (r : Fin 4096) (j : Fin 128) :
    k1_pay1 (F := Ideal) x0 w (ix2 r j) = ∑ k : Fin 128, x0 (ix2 r k) * w (ix2 k j) := by
  unfold k1_pay1
  simp only [shapeCast_self]
  show matmul (F := Ideal) dot_S4096x128_S128x128_S4096x128_1_0_0_1_n_n none x0 w (constant (F := Ideal) S4096x128 .f32 0x00000000#32) (ix2 r j) = _
  rw [matmul_zero_eq_dotGeneral]
  rw [show dot_S4096x128_S128x128_S4096x128_1_0_0_1_n_n = DotDims.plain 4096 128 128 from rfl]
  exact StackMember.dotGeneral_plain_apply none x0 w r j

/-- The host's product of the whole matrices at row i, column j: the same sum over row i of the left matrix. -/
theorem mm1_apply (X : FVec Ideal Cert.ReferenceIdeal.S180224x128 .f32) (w : FVec Ideal Cert.ReferenceIdeal.S128x128 .f32)
    (i : Fin 180224) (j : Fin 128) :
    Cert.Spec.mm1 X w (ix2 i j) = ∑ k : Fin 128, X (ix2 i k) * w (ix2 k j) := by
  unfold Cert.Spec.mm1
  rw [show Cert.ReferenceIdeal.dot_S180224x128_S128x128_S180224x128_1_0_0_1_n_n = DotDims.plain 180224 128 128 from rfl]
  exact StackMember.dotGeneral_plain_apply none X w i j

/-! ## From the blocks to the array -/

variable (V : (c : Dev nD) → (b : Ref sig .tc) → Buf (Elt Ideal) ((c : Thread nD τ).loc b)) (c : Dev nD)

theorem zero_offsets : (![0, 0] : Fin 2 → Nat) = fun _ => 0 := funext fun a => by fin_cases a <;> rfl

/-- The printed index maps over the grid: the left operand's and the result's blocks are the t-th row blocks, the
    right operand's block is the whole matrix. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's payload at a block index agrees with the product of the whole matrices at an array index, when the
    left block's row there is the left matrix's row at the array index's row and the columns agree. -/
theorem pay_eq_mm1 (x0 : FVec Ideal S4096x128 .f32) (w : FVec Ideal S128x128 .f32)
    (X : FVec Ideal Cert.ReferenceIdeal.S180224x128 .f32) (r : Fin 4096) (j : Fin 128) (i : Fin 180224)
    (hrow : ∀ k : Fin 128, x0 (ix2 r k) = X (ix2 i k)) :
    k1_pay1 (F := Ideal) x0 w (ix2 r j) = Cert.Spec.mm1 X w (ix2 i j) := by
  rw [pay_apply, mm1_apply]
  exact Finset.sum_congr rfl fun k _ => by rw [hrow k]

/-- The right operand's block at any point is the whole weight matrix. -/
theorem iblk_w (t : Fin cfg1.N) : (iblk1 V c 1 t : FVec Ideal S128x128 .f32) = V c main_arg5 := by
  obtain ⟨e0, e1, e2, e3, e4, e5⟩ := idx_facts t
  funext z
  show V c main_arg5 (((cfg1.win 1).blk t).view.emb z) = V c main_arg5 z
  congr 1
  funext a
  apply Fin.ext
  match a with
  | ⟨0, _⟩ => show win1_1.index t (0 : Fin 2) * 128 + 1 * (z 0).val = (z 0).val; rw [e2]; omega
  | ⟨1, _⟩ => show win1_1.index t (1 : Fin 2) * 128 + 1 * (z 1).val = (z 1).val; rw [e3]; omega

/-- Row r of the left operand's block at point t is row 4096 t + r of the hidden feature matrix. -/
theorem iblk_x (t : Fin cfg1.N) (r : Fin 4096) (k : Fin 128) (i : Fin 180224) (hi : i.val = t.val * 4096 + r.val) :
    (iblk1 V c 0 t : FVec Ideal S4096x128 .f32) (ix2 r k) = (V c main_v49 : FVec Ideal S180224x128 .f32) (ix2 i k) := by
  obtain ⟨e0, e1, e2, e3, e4, e5⟩ := idx_facts t
  show V c main_v49 (((cfg1.win 0).blk t).view.emb (ix2 r k)) = V c main_v49 (ix2 i k)
  congr 1
  funext a
  apply Fin.ext
  match a with
  | ⟨0, _⟩ => show win1_0.index t (0 : Fin 2) * 4096 + 1 * r.val = i.val; rw [e0, hi]; omega
  | ⟨1, _⟩ => show win1_0.index t (1 : Fin 2) * 128 + 1 * k.val = k.val; rw [e1]; omega

/-- What point t writes back is block t of the product of the whole matrices. -/
theorem flushed_eq (t : Fin cfg1.N) :
    (dat1 (F := Ideal) V c).flushed 2 t
      = ((cfg1.win 2).blk t).view.read (Elt Ideal) (Cert.Spec.mm1 (V c main_v49) (V c main_arg5)) := by
  show (cfg1.win 2).cut (grid1.coords t) ((dat1 V c).after 2 t) = _
  rw [after1_2]
  unfold out1_2
  rw [View.canon_unit_zero zero_offsets]
  simp only [View.ld_unit_zero (S := S4096x128) zero_offsets, View.ld_unit_zero (S := S128x128) zero_offsets]
  rw [iblk_w]
  obtain ⟨e0, e1, e2, e3, e4, e5⟩ := idx_facts t
  funext y
  obtain ⟨r, j, rfl⟩ : ∃ (r : Fin 4096) (j : Fin 128), y = ix2 r j := ⟨y 0, y 1, eq_ix2 y⟩
  have ht : t.val < 44 := lt_of_lt_of_eq t.isLt (show cfg1.N = 44 from N_1)
  have hr : r.val < 4096 := r.isLt
  show k1_pay1 (F := Ideal) (iblk1 V c 0 t) (V c main_arg5) (ix2 r j)
    = Cert.Spec.mm1 (V c main_v49) (V c main_arg5) (((cfg1.win 2).blk t).view.emb (ix2 r j))
  have hemb : ((cfg1.win 2).blk t).view.emb (ix2 r j)
      = (ix2 (⟨t.val * 4096 + r.val, by omega⟩ : Fin 180224) j : S180224x128.Idx) := by
    funext a
    apply Fin.ext
    match a with
    | ⟨0, _⟩ => show win1_2.index t (0 : Fin 2) * 4096 + 1 * r.val = t.val * 4096 + r.val; rw [e4]; omega
    | ⟨1, _⟩ => show win1_2.index t (1 : Fin 2) * 128 + 1 * j.val = j.val; rw [e5]; omega
  rw [hemb]
  exact pay_eq_mm1 _ _ _ r j _ fun k => iblk_x V c t r k _ rfl

/-- An index of the result is in point t's block iff each coordinate is in the block's range on its axis. -/
theorem mem_blk (t : Fin cfg1.N) (i : S180224x128.Idx) :
    i ∈ ((cfg1.win 2).blk t).view.set ↔ ∀ a : Fin 2, win1_2.index t a * S4096x128.size a ≤ (i a).val
      ∧ (i a).val < win1_2.index t a * S4096x128.size a + S4096x128.size a := by
  show i ∈ ((View.whole main_v50).slice (win1_2.rect t)).set ↔ _
  rw [View.set_slice_whole, Rect.mem_set_unit]
  exact Iff.rfl

/-- The result array after the region's 44 points is the product of the hidden feature matrix and the weights as the
    region found them: row i is written by point i / 4096. -/
theorem final : (dat1 (F := Ideal) V c).arrAt 2 cfg1.N = Cert.Spec.mm1 (V c main_v49) (V c main_arg5) :=
  (dat1 (F := Ideal) V c).arrAt_eq_of_cover 2 (Cert.Spec.mm1 (V c main_v49) (V c main_arg5))
    (fun t _ => flushed_eq V c t) fun i => by
      have hi0 : (i 0).val < 180224 := (i 0).isLt
      have hi1 : (i 1).val < 128 := (i 1).isLt
      have hN : cfg1.N = 44 := N_1
      refine ⟨⟨(i 0).val / 4096, by rw [hN]; omega⟩, flush1_2 _, ?_⟩
      obtain ⟨e0, e1, e2, e3, e4, e5⟩ := idx_facts ⟨(i 0).val / 4096, by rw [hN]; omega⟩
      rw [mem_blk]
      intro a
      match a with
      | ⟨0, _⟩ =>
        show win1_2.index _ (0 : Fin 2) * 4096 ≤ (i 0).val ∧ (i 0).val < win1_2.index _ (0 : Fin 2) * 4096 + 4096
        rw [e4]; show (i 0).val / 4096 * 4096 ≤ (i 0).val ∧ (i 0).val < (i 0).val / 4096 * 4096 + 4096; omega
      | ⟨1, _⟩ =>
        show win1_2.index _ (1 : Fin 2) * 128 ≤ (i 1).val ∧ (i 1).val < win1_2.index _ (1 : Fin 2) * 128 + 128
        rw [e5]; omega

end Cert.KernelIdeal.Region1

end
-- ==== Proof.Region2.lean ====
import proofs.«116987_j64750926955165_1_alg».proof.Proof.Gen.KernelIdeal.Frame
import proofs.«116987_j64750926955165_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Idealize.ShloMosaic Idealize.ShloMosaic.TcCoe Idealize.SL.Sem Cert.KernelIdeal Cert.KernelIdeal.Gen
open Idealize.ShloMosaic.ValueIdx

/-! ## The leaky rectifier on one extended real, as each program writes it -/

/-- The slope, as the same float word in both programs; it is never evaluated. -/
abbrev slope : EReal := Ideal.ofBits .f32 0x3C23D70A#32

/-- The reference's form: `a` where `a ≥ 0`, else `slope * a`. -/
def leaky (a : EReal) : EReal := Scalar.select (Ideal.cmp .oge a 0) a (slope * a)

/-- The kernel's form, `a` where `a > 0`, else `a * slope`, is the same function: at `0` both are `0`,
    elsewhere the two tests agree and the product commutes. -/
theorem leaky_kernel (a : EReal) : Scalar.select (Ideal.cmp .ogt a 0) a (a * slope) = leaky a := by
  unfold leaky Scalar.select Ideal.cmp
  rcases lt_trichotomy a 0 with h | h | h
  · have h1 : ¬ (0 < a) := not_lt.mpr h.le
    have h2 : ¬ (0 ≤ a) := not_le.mpr h
    simp [h1, h2, mul_comm]
  · subst h; simp
  · have h2 : (0 : EReal) ≤ a := h.le
    simp [h, h2]

/-! ## The kernel's matrix product at an index -/

theorem klhs_0 (i : S512x128.Idx) (q : dot_S512x2816_S2816x128_S512x128_1_0_0_1_n_n.contr.Idx) :
    (dot_S512x2816_S2816x128_S512x128_1_0_0_1_n_n.lhsIdx i q 0).val = (i 0).val := by
  unfold DotDims.lhsIdx
  rw [dif_neg (show ¬(0 : Fin S512x2816.rank) ∈ dot_S512x2816_S2816x128_S512x128_1_0_0_1_n_n.lhsBatch by decide), dif_pos (show (0 : Fin S512x2816.rank) ∈ dot_S512x2816_S2816x128_S512x128_1_0_0_1_n_n.lhsNonContracting by decide)]
  rfl
theorem klhs_1 (i : S512x128.Idx) (q : dot_S512x2816_S2816x128_S512x128_1_0_0_1_n_n.contr.Idx) :
    (dot_S512x2816_S2816x128_S512x128_1_0_0_1_n_n.lhsIdx i q 1).val = (q ⟨0, by decide⟩).val :=
  dot_S512x2816_S2816x128_S512x128_1_0_0_1_n_n.lhsIdx_val_of_single rfl i q
theorem krhs_0 (i : S512x128.Idx) (q : dot_S512x2816_S2816x128_S512x128_1_0_0_1_n_n.contr.Idx) :
    (dot_S512x2816_S2816x128_S512x128_1_0_0_1_n_n.rhsIdx i q 0).val = (q ⟨0, by decide⟩).val :=
  dot_S512x2816_S2816x128_S512x128_1_0_0_1_n_n.rhsIdx_val_of_single rfl i q
theorem krhs_1 (i : S512x128.Idx) (q : dot_S512x2816_S2816x128_S512x128_1_0_0_1_n_n.contr.Idx) :
    (dot_S512x2816_S2816x128_S512x128_1_0_0_1_n_n.rhsIdx i q 1).val = (i 1).val := by
  unfold DotDims.rhsIdx
  rw [dif_neg (show ¬(1 : Fin S2816x128.rank) ∈ dot_S512x2816_S2816x128_S512x128_1_0_0_1_n_n.rhsBatch by decide), dif_pos (show (1 : Fin S2816x128.rank) ∈ dot_S512x2816_S2816x128_S512x128_1_0_0_1_n_n.rhsNonContracting by decide)]
  rfl

/-- The block product into a zero accumulator, entry `(r, j)`: row `r` of the left block against column `j` of the
    right one, summed over the 2816 contracted positions. -/
theorem kmatmul_apply (x : FVec Ideal S512x2816 .bf16) (w : FVec Ideal S2816x128 .bf16) (r : Fin 512) (j : Fin 128) :
    matmul (F := Ideal) dot_S512x2816_S2816x128_S512x128_1_0_0_1_n_n none x w (constant (F := Ideal) S512x128 .f32 0x00000000#32) (ix2 r j)
      = ∑ k : Fin 2816, x (ix2 r k) * w (ix2 k j) := by
  simp only [matmul]
  rw [Ideal.matmul_constant_zero_apply, ← Equiv.sum_comp (contrEquiv1 dot_S512x2816_S2816x128_S512x128_1_0_0_1_n_n 2816 rfl rfl).symm]
  refine Finset.sum_congr rfl fun k _ => ?_
  have hk := contrEquiv1_symm_val dot_S512x2816_S2816x128_S512x128_1_0_0_1_n_n 2816 rfl rfl k
  have el : dot_S512x2816_S2816x128_S512x128_1_0_0_1_n_n.lhsIdx (ix2 r j) ((contrEquiv1 dot_S512x2816_S2816x128_S512x128_1_0_0_1_n_n 2816 rfl rfl).symm k) = ix2 r k := funext fun a => Fin.ext (by
    match a with
    | ⟨0, _⟩ => exact klhs_0 _ _
    | ⟨1, _⟩ => exact (klhs_1 _ _).trans hk)
  have er : dot_S512x2816_S2816x128_S512x128_1_0_0_1_n_n.rhsIdx (ix2 r j) ((contrEquiv1 dot_S512x2816_S2816x128_S512x128_1_0_0_1_n_n 2816 rfl rfl).symm k) = ix2 k j := funext fun a => Fin.ext (by
    match a with
    | ⟨0, _⟩ => exact (krhs_0 _ _).trans hk
    | ⟨1, _⟩ => exact krhs_1 _ _)
  rw [el, er]

/-! ## The body's payload at an index -/

/-- Entry `(r, j)` of what the body stores: the rectifier of row `r` of the first block against column `j` of the
    second, plus the bias row's entry `j`. -/
theorem pay_apply (x0 : FVec Ideal S512x2816 .f32) (x1 : FVec Ideal S2816x128 .f32) (x2 : FVec Ideal S1x128 .f32)
    (r : Fin 512) (j : Fin 128) :
    Gen.k2_pay1 (F := Ideal) x0 x1 x2 (ix2 r j)
      = leaky ((∑ k : Fin 2816, x0 (ix2 r k) * x1 (ix2 k j)) + x2 (ix2 (0 : Fin 1) j)) := by
  unfold Gen.k2_pay1
  simp only [shapeCast_self]
  rw [select_apply, cmpf_apply, mulf_apply, addf_apply, broadcast_apply, broadcast_apply, kmatmul_apply,
    broadcastTo_1b_ab_apply]
  simp only [truncf_apply]
  show Scalar.select (Ideal.cmp .ogt _ (Ideal.ofBits .f32 0x00000000#32)) _ (_ * slope) = _
  rw [Ideal.ofBits_zero_f32]
  exact leaky_kernel _

/-! ## The reference's stage at an index -/

theorem rlhs_0 (i : Cert.ReferenceIdeal.S8192x128.Idx) (q : Cert.ReferenceIdeal.dot_S8192x2816_S2816x128_S8192x128_1_0_0_1_n_n.contr.Idx) :
    (Cert.ReferenceIdeal.dot_S8192x2816_S2816x128_S8192x128_1_0_0_1_n_n.lhsIdx i q 0).val = (i 0).val := by
  unfold DotDims.lhsIdx
  rw [dif_neg (show ¬(0 : Fin Cert.ReferenceIdeal.S8192x2816.rank) ∈ Cert.ReferenceIdeal.dot_S8192x2816_S2816x128_S8192x128_1_0_0_1_n_n.lhsBatch by decide), dif_pos (show (0 : Fin Cert.ReferenceIdeal.S8192x2816.rank) ∈ Cert.ReferenceIdeal.dot_S8192x2816_S2816x128_S8192x128_1_0_0_1_n_n.lhsNonContracting by decide)]
  rfl
theorem rlhs_1 (i : Cert.ReferenceIdeal.S8192x128.Idx) (q : Cert.ReferenceIdeal.dot_S8192x2816_S2816x128_S8192x128_1_0_0_1_n_n.contr.Idx) :
    (Cert.ReferenceIdeal.dot_S8192x2816_S2816x128_S8192x128_1_0_0_1_n_n.lhsIdx i q 1).val = (q ⟨0, by decide⟩).val :=
  Cert.ReferenceIdeal.dot_S8192x2816_S2816x128_S8192x128_1_0_0_1_n_n.lhsIdx_val_of_single rfl i q
theorem rrhs_0 (i : Cert.ReferenceIdeal.S8192x128.Idx) (q : Cert.ReferenceIdeal.dot_S8192x2816_S2816x128_S8192x128_1_0_0_1_n_n.contr.Idx) :
    (Cert.ReferenceIdeal.dot_S8192x2816_S2816x128_S8192x128_1_0_0_1_n_n.rhsIdx i q 0).val = (q ⟨0, by decide⟩).val :=
  Cert.ReferenceIdeal.dot_S8192x2816_S2816x128_S8192x128_1_0_0_1_n_n.rhsIdx_val_of_single rfl i q
theorem rrhs_1 (i : Cert.ReferenceIdeal.S8192x128.Idx) (q : Cert.ReferenceIdeal.dot_S8192x2816_S2816x128_S8192x128_1_0_0_1_n_n.contr.Idx) :
    (Cert.ReferenceIdeal.dot_S8192x2816_S2816x128_S8192x128_1_0_0_1_n_n.rhsIdx i q 1).val = (i 1).val := by
  unfold DotDims.rhsIdx
  rw [dif_neg (show ¬(1 : Fin Cert.ReferenceIdeal.S2816x128.rank) ∈ Cert.ReferenceIdeal.dot_S8192x2816_S2816x128_S8192x128_1_0_0_1_n_n.rhsBatch by decide), dif_pos (show (1 : Fin Cert.ReferenceIdeal.S2816x128.rank) ∈ Cert.ReferenceIdeal.dot_S8192x2816_S2816x128_S8192x128_1_0_0_1_n_n.rhsNonContracting by decide)]
  rfl

/-- The host's product, entry `(r, j)`: the same sum over the 2816 contracted positions, at the global row. -/
theorem rdot_apply (z : FVec Ideal Cert.ReferenceIdeal.S8192x2816 .f32) (w : FVec Ideal Cert.ReferenceIdeal.S2816x128 .f32) (r : Fin 8192) (j : Fin 128) :
    Host.dotGeneral (F := Ideal) Cert.ReferenceIdeal.dot_S8192x2816_S2816x128_S8192x128_1_0_0_1_n_n none z w (ix2 r j) = ∑ k : Fin 2816, z (ix2 r k) * w (ix2 k j) := by
  simp only [Host.dotGeneral]
  rw [Ideal.dotGeneral_apply, ← Equiv.sum_comp (contrEquiv1 Cert.ReferenceIdeal.dot_S8192x2816_S2816x128_S8192x128_1_0_0_1_n_n 2816 rfl rfl).symm]
  refine Finset.sum_congr rfl fun k _ => ?_
  have hk := contrEquiv1_symm_val Cert.ReferenceIdeal.dot_S8192x2816_S2816x128_S8192x128_1_0_0_1_n_n 2816 rfl rfl k
  have el : Cert.ReferenceIdeal.dot_S8192x2816_S2816x128_S8192x128_1_0_0_1_n_n.lhsIdx (ix2 r j) ((contrEquiv1 Cert.ReferenceIdeal.dot_S8192x2816_S2816x128_S8192x128_1_0_0_1_n_n 2816 rfl rfl).symm k) = ix2 r k := funext fun a => Fin.ext (by
    match a with
    | ⟨0, _⟩ => exact rlhs_0 _ _
    | ⟨1, _⟩ => exact (rlhs_1 _ _).trans hk)
  have er : Cert.ReferenceIdeal.dot_S8192x2816_S2816x128_S8192x128_1_0_0_1_n_n.rhsIdx (ix2 r j) ((contrEquiv1 Cert.ReferenceIdeal.dot_S8192x2816_S2816x128_S8192x128_1_0_0_1_n_n 2816 rfl rfl).symm k) = ix2 k j := funext fun a => Fin.ext (by
    match a with
    | ⟨0, _⟩ => exact (rrhs_0 _ _).trans hk
    | ⟨1, _⟩ => exact rrhs_1 _ _)
  rw [el, er]

/-- A scalar constant spread over the whole array reads that constant everywhere. -/
theorem splat_apply (b : BitVec 32) (i : Cert.ReferenceIdeal.S8192x128.Idx) :
    broadcastInDim Cert.ReferenceIdeal.S8192x128 ![] Cert.ReferenceIdeal.Facts₀.bcast_S_S8192x128 (constant (F := Ideal) Cert.ReferenceIdeal.S_ .f32 b) i = Ideal.ofBits .f32 b :=
  broadcastInDim_apply _ _ _ i ix0 fun a => a.elim0

/-- The bias row spread down the rows reads its entry `j` in every row. -/
theorem biasRows_apply (b : FVec Ideal Cert.ReferenceIdeal.S1x128 .f32) (r : Fin 8192) (j : Fin 128) :
    broadcastInDim Cert.ReferenceIdeal.S8192x128 ![0, 1] Cert.ReferenceIdeal.Facts₀.bcast_S1x128_S8192x128_0_1 b (ix2 r j) = b (ix2 (0 : Fin 1) j) := by
  refine broadcastInDim_apply _ _ b (ix2 r j) (ix2 (0 : Fin 1) j) fun a => ?_
  match a with
  | ⟨0, _⟩ => rfl
  | ⟨1, _⟩ => rfl

/-- The head's first layer, entry `(r, j)`. -/
theorem head2_apply (z : FVec Ideal Cert.ReferenceIdeal.S8192x2816 .f32) (w : FVec Ideal Cert.ReferenceIdeal.S2816x128 .f32) (b : FVec Ideal Cert.ReferenceIdeal.S1x128 .f32)
    (r : Fin 8192) (j : Fin 128) :
    Cert.Spec.head2 z w b (ix2 r j)
      = leaky ((∑ k : Fin 2816, z (ix2 r k) * w (ix2 k j)) + b (ix2 (0 : Fin 1) j)) := by
  unfold Cert.Spec.head2 Cert.Spec.leakyG
  rw [select_apply, cmpf_apply, mulf_apply, addf_apply, rdot_apply, biasRows_apply, splat_apply]
  simp only [id]
  rw [splat_apply, Ideal.ofBits_zero_f32]
  rfl

/-! ## From blocks to the array -/

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the grid: the first input and the output move one row block per point, the
    second input and the bias stay whole. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the first input's block at point `t` is row `512 t + p` of the array. -/
theorem read0 (t : Fin cfg2.N) (p : Fin 512) (k : Fin 2816) (h : 512 * t.val + p.val < 8192) :
    iblk2 (F := Ideal) V c 0 t (ix2 p k) = V c main_v67 (ix2 ⟨512 * t.val + p.val, h⟩ k) := by
  show V c main_v67 (((cfg2.win 0).blk t).view.emb (ix2 p k)) = V c main_v67 _
  obtain ⟨e0, e1, -⟩ := index_facts t
  refine congrArg _ (funext fun a => Fin.ext ?_)
  match a with
  | ⟨0, _⟩ => show win2_0.index t (0 : Fin 2) * 512 + 1 * p.val = 512 * t.val + p.val; omega
  | ⟨1, _⟩ => show win2_0.index t (1 : Fin 2) * 2816 + 1 * k.val = k.val; omega

/-- The second input's block is the whole array at every point. -/
theorem read1 (t : Fin cfg2.N) (k : Fin 2816) (q : Fin 128) :
    iblk2 (F := Ideal) V c 1 t (ix2 k q) = V c main_arg7 (ix2 k q) := by
  show V c main_arg7 (((cfg2.win 1).blk t).view.emb (ix2 k q)) = V c main_arg7 _
  obtain ⟨-, -, e0, e1, -⟩ := index_facts t
  refine congrArg _ (funext fun a => Fin.ext ?_)
  match a with
  | ⟨0, _⟩ => show win2_1.index t (0 : Fin 2) * 2816 + 1 * k.val = k.val; omega
  | ⟨1, _⟩ => show win2_1.index t (1 : Fin 2) * 128 + 1 * q.val = q.val; omega

/-- The bias row's block is the whole row at every point. -/
theorem read2 (t : Fin cfg2.N) (q : Fin 128) :
    iblk2 (F := Ideal) V c 2 t (ix2 (0 : Fin 1) q) = V c main_v68 (ix2 (0 : Fin 1) q) := by
  show V c main_v68 (((cfg2.win 2).blk t).view.emb (ix2 (0 : Fin 1) q)) = V c main_v68 _
  obtain ⟨-, -, -, -, e0, e1, -⟩ := index_facts t
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- Entry `(p, q)` of the output's block at point `t` sits at row `512 t + p`, column `q` of the array. -/
theorem emb3 (t : Fin cfg2.N) (p : Fin 512) (q : Fin 128) (h : 512 * t.val + p.val < 8192) :
    ((cfg2.win 3).blk t).view.emb (ix2 p q) = ix2 ⟨512 * t.val + p.val, h⟩ q := by
  obtain ⟨-, -, -, -, -, -, e0, e1⟩ := index_facts t
  refine funext fun a => Fin.ext ?_
  match a with
  | ⟨0, _⟩ => show win2_3.index t (0 : Fin 2) * 512 + 1 * p.val = 512 * t.val + p.val; omega
  | ⟨1, _⟩ => show win2_3.index t (1 : Fin 2) * 128 + 1 * q.val = q.val; omega

/-- WHAT POINT `t` WRITES BACK is block `t` of the head's first layer of the whole input arrays. -/
theorem flushed_eq (t : Fin cfg2.N) :
    (dat2 (F := Ideal) V c).flushed 3 t
      = ((cfg2.win 3).blk t).view.read (Elt Ideal) (Cert.Spec.head2 (V c main_v67) (V c main_arg7) (V c main_v68)) := by
  show (cfg2.win 3).cut (grid2.coords t) ((dat2 (F := Ideal) V c).after 3 t) = _
  rw [after2_3]
  unfold out2_3
  rw [View.canon_unit_zero hz]
  simp only [View.ld_unit_zero (S := S512x2816) hz, View.ld_unit_zero (S := S2816x128) hz, View.ld_unit_zero (S := S1x128) hz]
  funext y
  obtain ⟨p, q, rfl⟩ : ∃ (p : Fin 512) (q : Fin 128), y = ix2 p q := ⟨y 0, y 1, eq_ix2 y⟩
  have hN : t.val < 16 := by have h := t.isLt; have e : cfg2.N = 16 := N_2; omega
  have hp : 512 * t.val + p.val < 8192 := by have := p.isLt; omega
  show Gen.k2_pay1 (F := Ideal) (iblk2 V c 0 t) (iblk2 V c 1 t) (iblk2 V c 2 t) (ix2 p q)
    = Cert.Spec.head2 (V c main_v67) (V c main_arg7) (V c main_v68) (((cfg2.win 3).blk t).view.emb (ix2 p q))
  rw [emb3 t p q hp, head2_apply, pay_apply (iblk2 V c 0 t) (iblk2 V c 1 t) (iblk2 V c 2 t) p q]
  refine congrArg leaky (congrArg₂ (· + ·) (Finset.sum_congr rfl fun k _ => ?_) (read2 V c t q))
  rw [read0 V c t p k hp, read1 V c t k q]

/-- An index of the array is in point `t`'s block iff each coordinate is in the block's range on its axis. -/
theorem mem_blk (t : Fin cfg2.N) (i : S8192x128.Idx) :
    i ∈ ((cfg2.win 3).blk t).view.set ↔ ∀ a : Fin 2, win2_3.index t a * S512x128.size a ≤ (i a).val ∧ (i a).val < win2_3.index t a * S512x128.size a + S512x128.size a := by
  show i ∈ ((View.whole main_v69).slice (win2_3.rect t)).set ↔ _
  rw [View.set_slice_whole, Rect.mem_set_unit]
  exact Iff.rfl

/-- Every index of the output array is in some point's block: row `r` in point `r / 512`'s. -/
theorem cover (i : S8192x128.Idx) :
    ∃ t : Fin cfg2.N, (cfg2.win 3).flush t = true ∧ i ∈ ((cfg2.win 3).blk t).view.set := by
  have hi0 : (i 0).val < 8192 := (i 0).isLt
  have hi1 : (i 1).val < 128 := (i 1).isLt
  obtain ⟨t, ht⟩ : ∃ t : Fin cfg2.N, t.val = (i 0).val / 512 :=
    ⟨⟨(i 0).val / 512, by rw [show cfg2.N = 16 from N_2]; omega⟩, rfl⟩
  obtain ⟨-, -, -, -, -, -, e0, e1⟩ := index_facts t
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 128 ≤ (i 1).val ∧ (i 1).val < win2_3.index t (1 : Fin 2) * 128 + 128; omega

/-- THE OUTPUT ARRAY after the region's sixteen points is the head's first layer of the input arrays as the region
    finds them. -/
theorem final : (dat2 (F := Ideal) V c).arrAt 3 cfg2.N
    = Cert.Spec.head2 (V c main_v67) (V c main_arg7) (V c main_v68) :=
  (dat2 (F := Ideal) V c).arrAt_eq_of_cover 3 _ (fun t _ => flushed_eq V c t) cover

end Cert.KernelIdeal.Region2
end
-- ==== Proof.Region3.lean ====
import proofs.«116987_j64750926955165_1_alg».proof.Proof.Gen.KernelIdeal.Frame
import proofs.«116987_j64750926955165_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region3

open Idealize.ShloMosaic Idealize.ShloMosaic.TcCoe Idealize.SL.Sem Cert.KernelIdeal Cert.KernelIdeal.Gen
open Idealize.ShloMosaic.ValueIdx

/-! ## The leaky rectifier on one extended real, as each program writes it -/

/-- The slope, as the same float word in both programs; it is never evaluated. -/
abbrev slope : EReal := Ideal.ofBits .f32 0x3C23D70A#32

/-- The reference's form: `a` where `a ≥ 0`, else `slope * a`. -/
def leaky (a : EReal) : EReal := Scalar.select (Ideal.cmp .oge a 0) a (slope * a)

/-- The kernel's form, `a` where `a > 0`, else `a * slope`, is the same function: at `0` both are `0`,
    elsewhere the two tests agree and the product commutes. -/
theorem leaky_kernel (a : EReal) : Scalar.select (Ideal.cmp .ogt a 0) a (a * slope) = leaky a := by
  unfold leaky Scalar.select Ideal.cmp
  rcases lt_trichotomy a 0 with h | h | h
  · have h1 : ¬ (0 < a) := not_lt.mpr h.le
    have h2 : ¬ (0 ≤ a) := not_le.mpr h
    simp [h1, h2, mul_comm]
  · subst h; simp
  · have h2 : (0 : EReal) ≤ a := h.le
    simp [h, h2]

/-! ## The kernel's matrix product at an index -/

theorem klhs_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem klhs_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem krhs_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem krhs_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The block product into a zero accumulator, entry `(r, j)`: row `r` of the left block against column `j` of the
    right one, summed over the 128 contracted positions. -/
theorem kmatmul_apply (x : FVec Ideal S1024x128 .bf16) (w : FVec Ideal S128x128 .bf16) (r : Fin 1024) (j : Fin 128) :
    matmul (F := Ideal) dot_S1024x128_S128x128_S1024x128_1_0_0_1_n_n none x w (constant (F := Ideal) S1024x128 .f32 0x00000000#32) (ix2 r j)
      = ∑ k : Fin 128, x (ix2 r k) * w (ix2 k j) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r j) ((contrEquiv1 dot_S1024x128_S128x128_S1024x128_1_0_0_1_n_n 128 rfl rfl).symm k) = ix2 r k := funext fun a => Fin.ext (by
    match a with
    | ⟨0, _⟩ => exact klhs_0 _ _
    | ⟨1, _⟩ => exact (klhs_1 _ _).trans hk)
  have er : dot_S1024x128_S128x128_S1024x128_1_0_0_1_n_n.rhsIdx (ix2 r j) ((contrEquiv1 dot_S1024x128_S128x128_S1024x128_1_0_0_1_n_n 128 rfl rfl).symm k) = ix2 k j := funext fun a => Fin.ext (by
    match a with
    | ⟨0, _⟩ => exact (krhs_0 _ _).trans hk
    | ⟨1, _⟩ => exact krhs_1 _ _)
  rw [el, er]

/-! ## The body's payload at an index -/

/-- Entry `(r, j)` of what the body stores: the rectifier of row `r` of the first block against column `j` of the
    second, plus the bias row's entry `j`. -/
theorem pay_apply (x0 : FVec Ideal S1024x128 .f32) (x1 : FVec Ideal S128x128 .f32) (x2 : FVec Ideal S1x128 .f32)
    (r : Fin 1024) (j : Fin 128) :
    Gen.k3_pay1 (F := Ideal) x0 x1 x2 (ix2 r j)
      = leaky ((∑ k : Fin 128, x0 (ix2 r k) * x1 (ix2 k j)) + x2 (ix2 (0 : Fin 1) j)) := by
  unfold Gen.k3_pay1
  simp only [shapeCast_self]
  rw [select_apply, cmpf_apply, mulf_apply, addf_apply, broadcast_apply, broadcast_apply, kmatmul_apply,
    broadcastTo_1b_ab_apply]
  simp only [truncf_apply]
  show Scalar.select (Ideal.cmp .ogt _ (Ideal.ofBits .f32 0x00000000#32)) _ (_ * slope) = _
  rw [Ideal.ofBits_zero_f32]
  exact leaky_kernel _

/-! ## The reference's stage at an index -/

theorem rlhs_0 (i : Cert.ReferenceIdeal.S8192x128.Idx) (q : Cert.ReferenceIdeal.dot_S8192x128_S128x128_S8192x128_1_0_0_1_n_n.contr.Idx) :
    (Cert.ReferenceIdeal.dot_S8192x128_S128x128_S8192x128_1_0_0_1_n_n.lhsIdx i q 0).val = (i 0).val := by
  unfold DotDims.lhsIdx
  rw [dif_neg (show ¬(0 : Fin Cert.ReferenceIdeal.S8192x128.rank) ∈ Cert.ReferenceIdeal.dot_S8192x128_S128x128_S8192x128_1_0_0_1_n_n.lhsBatch by decide), dif_pos (show (0 : Fin Cert.ReferenceIdeal.S8192x128.rank) ∈ Cert.ReferenceIdeal.dot_S8192x128_S128x128_S8192x128_1_0_0_1_n_n.lhsNonContracting by decide)]
  rfl
theorem rlhs_1 (i : Cert.ReferenceIdeal.S8192x128.Idx) (q : Cert.ReferenceIdeal.dot_S8192x128_S128x128_S8192x128_1_0_0_1_n_n.contr.Idx) :
    (Cert.ReferenceIdeal.dot_S8192x128_S128x128_S8192x128_1_0_0_1_n_n.lhsIdx i q 1).val = (q ⟨0, by decide⟩).val :=
  Cert.ReferenceIdeal.dot_S8192x128_S128x128_S8192x128_1_0_0_1_n_n.lhsIdx_val_of_single rfl i q
theorem rrhs_0 (i : Cert.ReferenceIdeal.S8192x128.Idx) (q : Cert.ReferenceIdeal.dot_S8192x128_S128x128_S8192x128_1_0_0_1_n_n.contr.Idx) :
    (Cert.ReferenceIdeal.dot_S8192x128_S128x128_S8192x128_1_0_0_1_n_n.rhsIdx i q 0).val = (q ⟨0, by decide⟩).val :=
  Cert.ReferenceIdeal.dot_S8192x128_S128x128_S8192x128_1_0_0_1_n_n.rhsIdx_val_of_single rfl i q
theorem rrhs_1 (i : Cert.ReferenceIdeal.S8192x128.Idx) (q : Cert.ReferenceIdeal.dot_S8192x128_S128x128_S8192x128_1_0_0_1_n_n.contr.Idx) :
    (Cert.ReferenceIdeal.dot_S8192x128_S128x128_S8192x128_1_0_0_1_n_n.rhsIdx i q 1).val = (i 1).val := by
  unfold DotDims.rhsIdx
  rw [dif_neg (show ¬(1 : Fin Cert.ReferenceIdeal.S128x128.rank) ∈ Cert.ReferenceIdeal.dot_S8192x128_S128x128_S8192x128_1_0_0_1_n_n.rhsBatch by decide), dif_pos (show (1 : Fin Cert.ReferenceIdeal.S128x128.rank) ∈ Cert.ReferenceIdeal.dot_S8192x128_S128x128_S8192x128_1_0_0_1_n_n.rhsNonContracting by decide)]
  rfl

/-- The host's product, entry `(r, j)`: the same sum over the 128 contracted positions, at the global row. -/
theorem rdot_apply (z : FVec Ideal Cert.ReferenceIdeal.S8192x128 .f32) (w : FVec Ideal Cert.ReferenceIdeal.S128x128 .f32) (r : Fin 8192) (j : Fin 128) :
    Host.dotGeneral (F := Ideal) Cert.ReferenceIdeal.dot_S8192x128_S128x128_S8192x128_1_0_0_1_n_n none z w (ix2 r j) = ∑ k : Fin 128, z (ix2 r k) * w (ix2 k j) := by
  simp only [Host.dotGeneral]
  rw [Ideal.dotGeneral_apply, ← Equiv.sum_comp (contrEquiv1 Cert.ReferenceIdeal.dot_S8192x128_S128x128_S8192x128_1_0_0_1_n_n 128 rfl rfl).symm]
  refine Finset.sum_congr rfl fun k _ => ?_
  have hk := contrEquiv1_symm_val Cert.ReferenceIdeal.dot_S8192x128_S128x128_S8192x128_1_0_0_1_n_n 128 rfl rfl k
  have el : Cert.ReferenceIdeal.dot_S8192x128_S128x128_S8192x128_1_0_0_1_n_n.lhsIdx (ix2 r j) ((contrEquiv1 Cert.ReferenceIdeal.dot_S8192x128_S128x128_S8192x128_1_0_0_1_n_n 128 rfl rfl).symm k) = ix2 r k := funext fun a => Fin.ext (by
    match a with
    | ⟨0, _⟩ => exact rlhs_0 _ _
    | ⟨1, _⟩ => exact (rlhs_1 _ _).trans hk)
  have er : Cert.ReferenceIdeal.dot_S8192x128_S128x128_S8192x128_1_0_0_1_n_n.rhsIdx (ix2 r j) ((contrEquiv1 Cert.ReferenceIdeal.dot_S8192x128_S128x128_S8192x128_1_0_0_1_n_n 128 rfl rfl).symm k) = ix2 k j := funext fun a => Fin.ext (by
    match a with
    | ⟨0, _⟩ => exact (rrhs_0 _ _).trans hk
    | ⟨1, _⟩ => exact rrhs_1 _ _)
  rw [el, er]

/-- A scalar constant spread over the whole array reads that constant everywhere. -/
theorem splat_apply (b : BitVec 32) (i : Cert.ReferenceIdeal.S8192x128.Idx) :
    broadcastInDim Cert.ReferenceIdeal.S8192x128 ![] Cert.ReferenceIdeal.Facts₀.bcast_S_S8192x128 (constant (F := Ideal) Cert.ReferenceIdeal.S_ .f32 b) i = Ideal.ofBits .f32 b :=
  broadcastInDim_apply _ _ _ i ix0 fun a => a.elim0

/-- The bias row spread down the rows reads its entry `j` in every row. -/
theorem biasRows_apply (b : FVec Ideal Cert.ReferenceIdeal.S1x128 .f32) (r : Fin 8192) (j : Fin 128) :
    broadcastInDim Cert.ReferenceIdeal.S8192x128 ![0, 1] Cert.ReferenceIdeal.Facts₀.bcast_S1x128_S8192x128_0_1 b (ix2 r j) = b (ix2 (0 : Fin 1) j) := by
  refine broadcastInDim_apply _ _ b (ix2 r j) (ix2 (0 : Fin 1) j) fun a => ?_
  match a with
  | ⟨0, _⟩ => rfl
  | ⟨1, _⟩ => rfl

/-- The head's second layer, entry `(r, j)`. -/
theorem head3_apply (z : FVec Ideal Cert.ReferenceIdeal.S8192x128 .f32) (w : FVec Ideal Cert.ReferenceIdeal.S128x128 .f32) (b : FVec Ideal Cert.ReferenceIdeal.S1x128 .f32)
    (r : Fin 8192) (j : Fin 128) :
    Cert.Spec.head3 z w b (ix2 r j)
      = leaky ((∑ k : Fin 128, z (ix2 r k) * w (ix2 k j)) + b (ix2 (0 : Fin 1) j)) := by
  unfold Cert.Spec.head3 Cert.Spec.leakyG
  rw [select_apply, cmpf_apply, mulf_apply, addf_apply, rdot_apply, biasRows_apply, splat_apply]
  simp only [id]
  rw [splat_apply, Ideal.ofBits_zero_f32]
  rfl

/-! ## From blocks to the array -/

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the grid: the first input and the output move one row block per point, the
    second input and the bias stay whole. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of the first input's block at point `t` is row `1024 t + p` of the array. -/
theorem read0 (t : Fin cfg3.N) (p : Fin 1024) (k : Fin 128) (h : 1024 * t.val + p.val < 8192) :
    iblk3 (F := Ideal) V c 0 t (ix2 p k) = V c main_v69 (ix2 ⟨1024 * t.val + p.val, h⟩ k) := by
  show V c main_v69 (((cfg3.win 0).blk t).view.emb (ix2 p k)) = V c main_v69 _
  obtain ⟨e0, e1, -⟩ := index_facts t
  refine congrArg _ (funext fun a => Fin.ext ?_)
  match a with
  | ⟨0, _⟩ => show win3_0.index t (0 : Fin 2) * 1024 + 1 * p.val = 1024 * t.val + p.val; omega
  | ⟨1, _⟩ => show win3_0.index t (1 : Fin 2) * 128 + 1 * k.val = k.val; omega

/-- The second input's block is the whole array at every point. -/
theorem read1 (t : Fin cfg3.N) (k : Fin 128) (q : Fin 128) :
    iblk3 (F := Ideal) V c 1 t (ix2 k q) = V c main_arg9 (ix2 k q) := by
  show V c main_arg9 (((cfg3.win 1).blk t).view.emb (ix2 k q)) = V c main_arg9 _
  obtain ⟨-, -, e0, e1, -⟩ := index_facts t
  refine congrArg _ (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

/-- The bias row's block is the whole row at every point. -/
theorem read2 (t : Fin cfg3.N) (q : Fin 128) :
    iblk3 (F := Ideal) V c 2 t (ix2 (0 : Fin 1) q) = V c main_v70 (ix2 (0 : Fin 1) q) := by
  show V c main_v70 (((cfg3.win 2).blk t).view.emb (ix2 (0 : Fin 1) q)) = V c main_v70 _
  obtain ⟨-, -, -, -, e0, e1, -⟩ := index_facts t
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

/-- Entry `(p, q)` of the output's block at point `t` sits at row `1024 t + p`, column `q` of the array. -/
theorem emb3 (t : Fin cfg3.N) (p : Fin 1024) (q : Fin 128) (h : 1024 * t.val + p.val < 8192) :
    ((cfg3.win 3).blk t).view.emb (ix2 p q) = ix2 ⟨1024 * t.val + p.val, h⟩ q := by
  obtain ⟨-, -, -, -, -, -, e0, e1⟩ := index_facts t
  refine funext fun a => Fin.ext ?_
  match a with
  | ⟨0, _⟩ => show win3_3.index t (0 : Fin 2) * 1024 + 1 * p.val = 1024 * t.val + p.val; omega
  | ⟨1, _⟩ => show win3_3.index t (1 : Fin 2) * 128 + 1 * q.val = q.val; omega

/-- WHAT POINT `t` WRITES BACK is block `t` of the head's second layer of the whole input arrays. -/
theorem flushed_eq (t : Fin cfg3.N) :
    (dat3 (F := Ideal) V c).flushed 3 t
      = ((cfg3.win 3).blk t).view.read (Elt Ideal) (Cert.Spec.head3 (V c main_v69) (V c main_arg9) (V c main_v70)) := by
  show (cfg3.win 3).cut (grid3.coords t) ((dat3 (F := Ideal) V c).after 3 t) = _
  rw [after3_3]
  unfold out3_3
  rw [View.canon_unit_zero hz]
  simp only [View.ld_unit_zero (S := S1024x128) hz, View.ld_unit_zero (S := S128x128) hz, View.ld_unit_zero (S := S1x128) hz]
  funext y
  obtain ⟨p, q, rfl⟩ : ∃ (p : Fin 1024) (q : Fin 128), y = ix2 p q := ⟨y 0, y 1, eq_ix2 y⟩
  have hN : t.val < 8 := by have h := t.isLt; have e : cfg3.N = 8 := N_3; omega
  have hp : 1024 * t.val + p.val < 8192 := by have := p.isLt; omega
  show Gen.k3_pay1 (F := Ideal) (iblk3 V c 0 t) (iblk3 V c 1 t) (iblk3 V c 2 t) (ix2 p q)
    = Cert.Spec.head3 (V c main_v69) (V c main_arg9) (V c main_v70) (((cfg3.win 3).blk t).view.emb (ix2 p q))
  rw [emb3 t p q hp, head3_apply, pay_apply (iblk3 V c 0 t) (iblk3 V c 1 t) (iblk3 V c 2 t) p q]
  refine congrArg leaky (congrArg₂ (· + ·) (Finset.sum_congr rfl fun k _ => ?_) (read2 V c t q))
  rw [read0 V c t p k hp, read1 V c t k q]

/-- An index of the array is in point `t`'s block iff each coordinate is in the block's range on its axis. -/
theorem mem_blk (t : Fin cfg3.N) (i : S8192x128.Idx) :
    i ∈ ((cfg3.win 3).blk t).view.set ↔ ∀ a : Fin 2, win3_3.index t a * S1024x128.size a ≤ (i a).val ∧ (i a).val < win3_3.index t a * S1024x128.size a + S1024x128.size a := by
  show i ∈ ((View.whole main_v71).slice (win3_3.rect t)).set ↔ _
  rw [View.set_slice_whole, Rect.mem_set_unit]
  exact Iff.rfl

/-- Every index of the output array is in some point's block: row `r` in point `r / 1024`'s. -/
theorem cover (i : S8192x128.Idx) :
    ∃ t : Fin cfg3.N, (cfg3.win 3).flush t = true ∧ i ∈ ((cfg3.win 3).blk t).view.set := by
  have hi0 : (i 0).val < 8192 := (i 0).isLt
  have hi1 : (i 1).val < 128 := (i 1).isLt
  obtain ⟨t, ht⟩ : ∃ t : Fin cfg3.N, t.val = (i 0).val / 1024 :=
    ⟨⟨(i 0).val / 1024, by rw [show cfg3.N = 8 from N_3]; omega⟩, rfl⟩
  obtain ⟨-, -, -, -, -, -, e0, e1⟩ := index_facts t
  refine ⟨t, flush3_3 t, ?_⟩
  rw [mem_blk]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 128 ≤ (i 1).val ∧ (i 1).val < win3_3.index t (1 : Fin 2) * 128 + 128; omega

/-- THE OUTPUT ARRAY after the region's eight points is the head's second layer of the input arrays as the region
    finds them. -/
theorem final : (dat3 (F := Ideal) V c).arrAt 3 cfg3.N
    = Cert.Spec.head3 (V c main_v69) (V c main_arg9) (V c main_v70) :=
  (dat3 (F := Ideal) V c).arrAt_eq_of_cover 3 _ (fun t _ => flushed_eq V c t) cover

end Cert.KernelIdeal.Region3
end
-- ==== Proof.Region4.lean ====
/-
  The last region of the kernel program: the head's output layer.

  The grid has 8 points; point t reads rows [1024 t, 1024 t + 1024) of the [8192, 128] activations, the whole
  [128, 1] weight column and the [1, 1] bias, and writes back rows [1024 t, 1024 t + 1024) of the [8192, 1] result:
      out[R, 0] = tanh (sum_k z[R, k] * w[k, 0] + b[0, 0]) * 90 + 150.
  The matrix unit's product into a zero accumulator is the plain sum over the contracted axis, which is what the
  host's dot_general is on the extended reals; the two hyperbolic tangents are one function there; the two
  literals 90 and 150 are the same words on both sides and are never evaluated. So after the 8 points the result
  array is the specification's last layer of the arrays the region found.
-/
import proofs.«116987_j64750926955165_1_alg».proof.Proof.Gen.KernelIdeal.Frame
import proofs.«116987_j64750926955165_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Region4

open Idealize.ShloMosaic Idealize.ShloMosaic.TcCoe Idealize.SL.Sem Idealize.ShloMosaic.ValueIdx
open Cert.KernelIdeal Cert.KernelIdeal.Gen

/-! ## The two contractions read at an index -/

/-- The kernel's product: output (r, j), contraction position q: the left operand is read at (r, q) … -/
theorem klhs_0 (i : S1024x1.Idx) (q : dot_S1024x128_S128x1_S1024x1_1_0_0_1_n_n.contr.Idx) :
    (dot_S1024x128_S128x1_S1024x1_1_0_0_1_n_n.lhsIdx i q 0).val = (i 0).val := by
  unfold DotDims.lhsIdx
  rw [dif_neg (show ¬(0 : Fin S1024x128.rank) ∈ dot_S1024x128_S128x1_S1024x1_1_0_0_1_n_n.lhsBatch by decide),
    dif_pos (show (0 : Fin S1024x128.rank) ∈ dot_S1024x128_S128x1_S1024x1_1_0_0_1_n_n.lhsNonContracting by decide)]
  rfl
theorem klhs_1 (i : S1024x1.Idx) (q : dot_S1024x128_S128x1_S1024x1_1_0_0_1_n_n.contr.Idx) :
    (dot_S1024x128_S128x1_S1024x1_1_0_0_1_n_n.lhsIdx i q 1).val = (q ⟨0, by decide⟩).val :=
  dot_S1024x128_S128x1_S1024x1_1_0_0_1_n_n.lhsIdx_val_of_single rfl i q
/-- … and the right operand at (q, j). -/
theorem krhs_0 (i : S1024x1.Idx) (q : dot_S1024x128_S128x1_S1024x1_1_0_0_1_n_n.contr.Idx) :
    (dot_S1024x128_S128x1_S1024x1_1_0_0_1_n_n.rhsIdx i q 0).val = (q ⟨0, by decide⟩).val :=
  dot_S1024x128_S128x1_S1024x1_1_0_0_1_n_n.rhsIdx_val_of_single rfl i q
theorem krhs_1 (i : S1024x1.Idx) (q : dot_S1024x128_S128x1_S1024x1_1_0_0_1_n_n.contr.Idx) :
    (dot_S1024x128_S128x1_S1024x1_1_0_0_1_n_n.rhsIdx i q 1).val = (i 1).val := by
  unfold DotDims.rhsIdx
  rw [dif_neg (show ¬(1 : Fin S128x1.rank) ∈ dot_S1024x128_S128x1_S1024x1_1_0_0_1_n_n.rhsBatch by decide),
    dif_pos (show (1 : Fin S128x1.rank) ∈ dot_S1024x128_S128x1_S1024x1_1_0_0_1_n_n.rhsNonContracting by decide)]
  rfl

/-- The kernel's product into a zero accumulator, at (r, j): the sum over the 128 contracted positions. -/
theorem kmatmul_apply {φ₁ φ₂ : FTy} (x0 : FVec Ideal S1024x128 φ₁) (x1 : FVec Ideal S128x1 φ₂) (r : Fin 1024) (j : Fin 1) :
    matmul (F := Ideal) dot_S1024x128_S128x1_S1024x1_1_0_0_1_n_n none x0 x1 (constant (F := Ideal) S1024x1 .f32 0x00000000#32) (ix2 r j)
      = ∑ k : Fin 128, x0 (ix2 r k) * x1 (ix2 k j) := by
  simp only [matmul]
  rw [Ideal.matmul_constant_zero_apply, ← Equiv.sum_comp (contrEquiv1 dot_S1024x128_S128x1_S1024x1_1_0_0_1_n_n 128 rfl rfl).symm]
  refine Finset.sum_congr rfl fun k _ => ?_
  have hk := contrEquiv1_symm_val dot_S1024x128_S128x1_S1024x1_1_0_0_1_n_n 128 rfl rfl k
  have el : dot_S1024x128_S128x1_S1024x1_1_0_0_1_n_n.lhsIdx (ix2 r j) ((contrEquiv1 dot_S1024x128_S128x1_S1024x1_1_0_0_1_n_n 128 rfl rfl).symm k) = ix2 r k :=
    funext fun a => Fin.ext (by
      match a with
      | ⟨0, _⟩ => exact klhs_0 _ _
      | ⟨1, _⟩ => exact (klhs_1 _ _).trans hk)
  have er : dot_S1024x128_S128x1_S1024x1_1_0_0_1_n_n.rhsIdx (ix2 r j) ((contrEquiv1 dot_S1024x128_S128x1_S1024x1_1_0_0_1_n_n 128 rfl rfl).symm k) = ix2 k j :=
    funext fun a => Fin.ext (by
      match a with
      | ⟨0, _⟩ => exact (krhs_0 _ _).trans hk
      | ⟨1, _⟩ => exact krhs_1 _ _)
  rw [el, er]

/-- The host's product: the same reading of its dimension numbers, over the 8192 rows. -/
theorem rlhs_0 (i : Cert.ReferenceIdeal.S8192x1.Idx) (q : Cert.ReferenceIdeal.dot_S8192x128_S128x1_S8192x1_1_0_0_1_n_n.contr.Idx) :
    (Cert.ReferenceIdeal.dot_S8192x128_S128x1_S8192x1_1_0_0_1_n_n.lhsIdx i q 0).val = (i 0).val := by
  unfold DotDims.lhsIdx
  rw [dif_neg (show ¬(0 : Fin Cert.ReferenceIdeal.S8192x128.rank) ∈ Cert.ReferenceIdeal.dot_S8192x128_S128x1_S8192x1_1_0_0_1_n_n.lhsBatch by decide),
    dif_pos (show (0 : Fin Cert.ReferenceIdeal.S8192x128.rank) ∈ Cert.ReferenceIdeal.dot_S8192x128_S128x1_S8192x1_1_0_0_1_n_n.lhsNonContracting by decide)]
  rfl
theorem rlhs_1 (i : Cert.ReferenceIdeal.S8192x1.Idx) (q : Cert.ReferenceIdeal.dot_S8192x128_S128x1_S8192x1_1_0_0_1_n_n.contr.Idx) :
    (Cert.ReferenceIdeal.dot_S8192x128_S128x1_S8192x1_1_0_0_1_n_n.lhsIdx i q 1).val = (q ⟨0, by decide⟩).val :=
  Cert.ReferenceIdeal.dot_S8192x128_S128x1_S8192x1_1_0_0_1_n_n.lhsIdx_val_of_single rfl i q
theorem rrhs_0 (i : Cert.ReferenceIdeal.S8192x1.Idx) (q : Cert.ReferenceIdeal.dot_S8192x128_S128x1_S8192x1_1_0_0_1_n_n.contr.Idx) :
    (Cert.ReferenceIdeal.dot_S8192x128_S128x1_S8192x1_1_0_0_1_n_n.rhsIdx i q 0).val = (q ⟨0, by decide⟩).val :=
  Cert.ReferenceIdeal.dot_S8192x128_S128x1_S8192x1_1_0_0_1_n_n.rhsIdx_val_of_single rfl i q
theorem rrhs_1 (i : Cert.ReferenceIdeal.S8192x1.Idx) (q : Cert.ReferenceIdeal.dot_S8192x128_S128x1_S8192x1_1_0_0_1_n_n.contr.Idx) :
    (Cert.ReferenceIdeal.dot_S8192x128_S128x1_S8192x1_1_0_0_1_n_n.rhsIdx i q 1).val = (i 1).val := by
  unfold DotDims.rhsIdx
  rw [dif_neg (show ¬(1 : Fin Cert.ReferenceIdeal.S128x1.rank) ∈ Cert.ReferenceIdeal.dot_S8192x128_S128x1_S8192x1_1_0_0_1_n_n.rhsBatch by decide),
    dif_pos (show (1 : Fin Cert.ReferenceIdeal.S128x1.rank) ∈ Cert.ReferenceIdeal.dot_S8192x128_S128x1_S8192x1_1_0_0_1_n_n.rhsNonContracting by decide)]
  rfl

/-- The host's product at (R, j): the sum over the 128 contracted positions. -/
theorem rdot_apply (z : FVec Ideal Cert.ReferenceIdeal.S8192x128 .f32) (w : FVec Ideal Cert.ReferenceIdeal.S128x1 .f32) (R : Fin 8192) (j : Fin 1) :
    Host.dotGeneral (F := Ideal) Cert.ReferenceIdeal.dot_S8192x128_S128x1_S8192x1_1_0_0_1_n_n none z w (ix2 R j)
      = ∑ k : Fin 128, z (ix2 R k) * w (ix2 k j) := by
  simp only [Host.dotGeneral]
  rw [Ideal.dotGeneral_apply, ← Equiv.sum_comp (contrEquiv1 Cert.ReferenceIdeal.dot_S8192x128_S128x1_S8192x1_1_0_0_1_n_n 128 rfl rfl).symm]
  refine Finset.sum_congr rfl fun k _ => ?_
  have hk := contrEquiv1_symm_val Cert.ReferenceIdeal.dot_S8192x128_S128x1_S8192x1_1_0_0_1_n_n 128 rfl rfl k
  have el : Cert.ReferenceIdeal.dot_S8192x128_S128x1_S8192x1_1_0_0_1_n_n.lhsIdx (ix2 R j) ((contrEquiv1 Cert.ReferenceIdeal.dot_S8192x128_S128x1_S8192x1_1_0_0_1_n_n 128 rfl rfl).symm k) = ix2 R k :=
    funext fun a => Fin.ext (by
      match a with
      | ⟨0, _⟩ => exact rlhs_0 _ _
      | ⟨1, _⟩ => exact (rlhs_1 _ _).trans hk)
  have er : Cert.ReferenceIdeal.dot_S8192x128_S128x1_S8192x1_1_0_0_1_n_n.rhsIdx (ix2 R j) ((contrEquiv1 Cert.ReferenceIdeal.dot_S8192x128_S128x1_S8192x1_1_0_0_1_n_n 128 rfl rfl).symm k) = ix2 k j :=
    funext fun a => Fin.ext (by
      match a with
      | ⟨0, _⟩ => exact (rrhs_0 _ _).trans hk
      | ⟨1, _⟩ => exact rrhs_1 _ _)
  rw [el, er]

/-! ## The body's payload and the specification's last layer, entry by entry -/

/-- The payload at (r, j): tanh of (row r of the block times the weight column, plus the bias), times 90, plus 150.
    The two format changes are the identity on extended reals; the two literals stay words. -/
theorem pay_apply (x0 : FVec Ideal S1024x128 .f32) (x1 : FVec Ideal S128x1 .f32) (x2 : FVec Ideal S1x1 .f32) (r : Fin 1024) (j : Fin 1) :
    k4_pay1 (F := Ideal) x0 x1 x2 (ix2 r j)
      = Ideal.tanh ((∑ k : Fin 128, x0 (ix2 r k) * x1 (ix2 k j)) + x2 (ix2 (0 : Fin 1) (0 : Fin 1)))
          * Ideal.ofBits .f32 0x42B40000#32 + Ideal.ofBits .f32 0x43160000#32 := by
  obtain rfl : j = 0 := Subsingleton.elim _ _
  unfold k4_pay1
  simp only [shapeCast_self]
  show Ideal.tanh (matmul (F := Ideal) dot_S1024x128_S128x1_S1024x1_1_0_0_1_n_n none (truncf .bf16 x0 _) (truncf .bf16 x1 _)
        (constant (F := Ideal) S1024x1 .f32 0x00000000#32) (ix2 r (0 : Fin 1)) + broadcastTo S1024x1 x2 _ (ix2 r (0 : Fin 1)))
      * Ideal.ofBits .f32 0x42B40000#32 + Ideal.ofBits .f32 0x43160000#32 = _
  rw [kmatmul_apply, broadcastTo_1b_ab_apply]
  rfl

/-- The specification's last layer at (R, j): the same expression of row R of the whole activations. -/
theorem head4_apply (z : FVec Ideal Cert.ReferenceIdeal.S8192x128 .f32) (w : FVec Ideal Cert.ReferenceIdeal.S128x1 .f32)
    (b : FVec Ideal Cert.ReferenceIdeal.S1x1 .f32) (R : Fin 8192) (j : Fin 1) :
    Cert.Spec.head4 z w b (ix2 R j)
      = Ideal.tanh ((∑ k : Fin 128, z (ix2 R k) * w (ix2 k j)) + b (ix2 (0 : Fin 1) (0 : Fin 1)))
          * Ideal.ofBits .f32 0x42B40000#32 + Ideal.ofBits .f32 0x43160000#32 := by
  unfold Cert.Spec.head4
  show Ideal.tanh (Host.dotGeneral (F := Ideal) Cert.ReferenceIdeal.dot_S8192x128_S128x1_S8192x1_1_0_0_1_n_n none z w (ix2 R j)
        + broadcastInDim Cert.ReferenceIdeal.S8192x1 ![0, 1] _ b (ix2 R j))
      * Ideal.ofBits .f32 0x42B40000#32 + Ideal.ofBits .f32 0x43160000#32 = _
  rw [rdot_apply, broadcastInDim_apply _ _ b (ix2 R j) (ix2 (0 : Fin 1) (0 : Fin 1))
    (fun a => by match a with | ⟨0, _⟩ => rfl | ⟨1, _⟩ => rfl)]

/-! ## From the blocks to the array -/

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided once over the 8 grid points: the activations' and the result's block index is
    (t, 0); the weight column's and the bias's is (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row r of the activations' block at point t is row 1024 t + r of the array. -/
theorem iblk0_apply (t : Fin cfg4.N) (r : Fin 1024) (k : Fin 128) (h : 1024 * t.val + r.val < 8192) :
    (iblk4 (F := Ideal) V c 0 t : FVec Ideal S1024x128 .f32) (ix2 r k)
      = (V c main_v71 : S8192x128.Idx → Elt Ideal .f32) (ix2 (⟨1024 * t.val + r.val, h⟩ : Fin 8192) k) := by
  obtain ⟨e0, e1, -⟩ := idx_facts t
  unfold iblk4
  rw [View.read_apply]
  show V c main_v71 _ = V c main_v71 _
  congr 1
  funext a
  apply Fin.ext
  match a with
  | ⟨0, _⟩ => show win4_0.index t (0 : Fin 2) * 1024 + 1 * r.val = 1024 * t.val + r.val; rw [e0]; omega
  | ⟨1, _⟩ => show win4_0.index t (1 : Fin 2) * 128 + 1 * k.val = k.val; rw [e1]; omega

/-- The weight column's block at every point is the whole column. -/
theorem iblk1_apply (t : Fin cfg4.N) (k : Fin 128) (j : Fin 1) :
    (iblk4 (F := Ideal) V c 1 t : FVec Ideal S128x1 .f32) (ix2 k j)
      = (V c main_arg11 : S128x1.Idx → Elt Ideal .f32) (ix2 k j) := by
  obtain ⟨-, -, e2, e3, -⟩ := idx_facts t
  unfold iblk4
  rw [View.read_apply]
  show V c main_arg11 _ = V c main_arg11 _
  congr 1
  funext a
  apply Fin.ext
  match a with
  | ⟨0, _⟩ => show win4_1.index t (0 : Fin 2) * 128 + 1 * k.val = k.val; rw [e2]; omega
  | ⟨1, _⟩ => show win4_1.index t (1 : Fin 2) * 1 + 1 * j.val = j.val; rw [e3]; omega

/-- The bias's block at every point is the bias. -/
theorem iblk2_apply (t : Fin cfg4.N) (u j : Fin 1) :
    (iblk4 (F := Ideal) V c 2 t : FVec Ideal S1x1 .f32) (ix2 u j)
      = (V c main_v72 : S1x1.Idx → Elt Ideal .f32) (ix2 u j) := by
  obtain ⟨-, -, -, -, e4, e5, -⟩ := idx_facts t
  unfold iblk4
  rw [View.read_apply]
  show V c main_v72 _ = V c main_v72 _
  congr 1
  funext a
  apply Fin.ext
  match a with
  | ⟨0, _⟩ => show win4_2.index t (0 : Fin 2) * 1 + 1 * u.val = u.val; rw [e4]; omega
  | ⟨1, _⟩ => show win4_2.index t (1 : Fin 2) * 1 + 1 * j.val = j.val; rw [e5]; omega

/-- WHAT POINT t WRITES BACK is block t of the specification's last layer of the arrays the region found. -/
theorem flushed_eq (t : Fin cfg4.N) :
    (dat4 (F := Ideal) V c).flushed 3 t
      = ((cfg4.win 3).blk t).view.read (Elt Ideal) (Cert.Spec.head4 (V c main_v71) (V c main_arg11) (V c main_v72)) := by
  show (cfg4.win 3).cut (grid4.coords t) ((dat4 V c).after 3 t) = _
  rw [after4_3]
  unfold out4_3
  rw [View.canon_unit_zero hz]
  simp only [View.ld_unit_zero (S := S1024x128) hz, View.ld_unit_zero (S := S128x1) hz, View.ld_unit_zero (S := S1x1) hz]
  obtain ⟨-, -, -, -, -, -, e6, e7⟩ := idx_facts t
  have hN : cfg4.N = 8 := N_4
  have ht : t.val < 8 := by have := t.isLt; omega
  funext y
  obtain ⟨r, j, rfl⟩ : ∃ (r : Fin 1024) (j : Fin 1), (y : S1024x1.Idx) = ix2 r j := ⟨y 0, y 1, eq_ix2 y⟩
  have hR : 1024 * t.val + r.val < 8192 := by have := r.isLt; omega
  have hemb : ((cfg4.win 3).blk t).view.emb (ix2 r j) = (ix2 (⟨1024 * t.val + r.val, hR⟩ : Fin 8192) j : S8192x1.Idx) := by
    funext a
    apply Fin.ext
    match a with
    | ⟨0, _⟩ => show win4_3.index t (0 : Fin 2) * 1024 + 1 * r.val = 1024 * t.val + r.val; rw [e6]; omega
    | ⟨1, _⟩ => show win4_3.index t (1 : Fin 2) * 1 + 1 * j.val = j.val; rw [e7]; omega
  have hp := pay_apply (iblk4 (F := Ideal) V c 0 t) (iblk4 (F := Ideal) V c 1 t) (iblk4 (F := Ideal) V c 2 t) r j
  refine hp.trans ?_
  show _ = Cert.Spec.head4 (V c main_v71) (V c main_arg11) (V c main_v72) (((cfg4.win 3).blk t).view.emb (ix2 r j))
  rw [hemb, head4_apply]
  have h0 : ∀ k : Fin 128, iblk4 (F := Ideal) V c 0 t (ix2 r k)
      = (V c main_v71 : S8192x128.Idx → Elt Ideal .f32) (ix2 (⟨1024 * t.val + r.val, hR⟩ : Fin 8192) k) :=
    fun k => iblk0_apply V c t r k hR
  have h1 : ∀ k : Fin 128, iblk4 (F := Ideal) V c 1 t (ix2 k j) = (V c main_arg11 : S128x1.Idx → Elt Ideal .f32) (ix2 k j) :=
    fun k => iblk1_apply V c t k j
  have h2 : iblk4 (F := Ideal) V c 2 t (ix2 (0 : Fin 1) (0 : Fin 1)) = (V c main_v72 : S1x1.Idx → Elt Ideal .f32) (ix2 (0 : Fin 1) (0 : Fin 1)) :=
    iblk2_apply V c t 0 0
  simp only [h0, h1, h2]

/-- An index of the result is in point t's block iff its row is in [1024 t, 1024 t + 1024). -/
theorem mem_blk (t : Fin cfg4.N) (i : S8192x1.Idx) :
    i ∈ ((cfg4.win 3).blk t).view.set ↔ ∀ a : Fin 2, win4_3.index t a * S1024x1.size a ≤ (i a).val
      ∧ (i a).val < win4_3.index t a * S1024x1.size a + S1024x1.size a := by
  show i ∈ ((View.whole main_v73).slice (win4_3.rect t)).set ↔ _
  rw [View.set_slice_whole, Rect.mem_set_unit]
  exact Iff.rfl

/-- Row R of the result is written back by point R / 1024. -/
theorem cover (i : S8192x1.Idx) : ∃ t : Fin cfg4.N, (cfg4.win 3).flush t = true ∧ i ∈ ((cfg4.win 3).blk t).view.set := by
  have hi0 : (i 0).val < 8192 := (i 0).isLt
  have hi1 : (i 1).val < 1 := (i 1).isLt
  have hN : cfg4.N = 8 := N_4
  obtain ⟨t, ht⟩ : ∃ t : Fin cfg4.N, t.val = (i 0).val / 1024 := ⟨⟨(i 0).val / 1024, by rw [hN]; omega⟩, rfl⟩
  obtain ⟨-, -, -, -, -, -, e6, e7⟩ := idx_facts t
  refine ⟨t, flush4_3 t, ?_⟩
  rw [mem_blk]
  intro a
  match a with
  | ⟨0, _⟩ =>
    show win4_3.index t (0 : Fin 2) * 1024 ≤ (i 0).val ∧ (i 0).val < win4_3.index t (0 : Fin 2) * 1024 + 1024
    rw [e6]; omega
  | ⟨1, _⟩ =>
    show win4_3.index t (1 : Fin 2) * 1 ≤ (i 1).val ∧ (i 1).val < win4_3.index t (1 : Fin 2) * 1 + 1
    rw [e7]; omega

/-- THE RESULT ARRAY after the 8 points: the specification's last layer of the arrays the region found. -/
theorem final : (dat4 (F := Ideal) V c).arrAt 3 cfg4.N
    = Cert.Spec.head4 (V c main_v71) (V c main_arg11) (V c main_v72) :=
  (dat4 (F := Ideal) V c).arrAt_eq_of_cover 3 _ (fun t _ => flushed_eq V c t) (cover)

end Cert.KernelIdeal.Region4

end
-- ==== Proof.KHost0.lean ====
/-
  The idealized kernel program's first host stretches, read back: the edge lists and the normalisation.

  Before its first kernel region the kernel program computes, exactly as the reference does: `row` and `col`, the edge
  endpoints followed by one self loop per node; `ew`, the edge weights followed by ones; `deg`, the weights summed at
  their targets; `dinv = deg^(-1/2)` where `deg > 0` and `0` elsewhere; and `norm = dinv[row] * ew * dinv[col]`. The
  stretch is read here from ANY entry contents `W`: each of these buffers holds the named stage function of what `W`
  holds at the two argument buffers, and every other argument buffer is left alone.
-/
import proofs.«116987_j64750926955165_1_alg».proof.Proof.Gen.KernelIdeal.Launch
import proofs.«116987_j64750926955165_1_alg».proof.Proof.Spec
import Idealize.ShloMosaic.Lib.StableHlo.Run

noncomputable section

namespace Cert.KernelIdeal.KHost

open Idealize.ShloMosaic Idealize.ShloMosaic.TcCoe Idealize.SL.Sem Idealize.ShloMosaic.StableHlo
open Cert.KernelIdeal Cert.KernelIdeal.Gen

/-- Operation results left standing under the operands of a concatenation, rewritten one at a time: each operation's
    result at its own buffer is its function's value, at any other buffer what was there. -/
macro "results_rw" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

variable (W : Valuation τ sig (Elt Ideal))

/-! ## The first stretch: the edge lists, the degree, its sign test and its inverse square root -/

theorem first_row : after (hostOps0 (F := Ideal)) W (Proc.devRef .tc main_v3) = Cert.Spec.rowOf (W (Proc.devRef .tc main_arg1)) := by
  after_results <;> rfl

theorem first_col : after (hostOps0 (F := Ideal)) W (Proc.devRef .tc main_v6) = Cert.Spec.colOf (W (Proc.devRef .tc main_arg1)) := by
  after_results <;> rfl

theorem first_ew : after (hostOps0 (F := Ideal)) W (Proc.devRef .tc main_v8) = Cert.Spec.ewOf (W (Proc.devRef .tc main_arg2)) := by
  after_results <;> rfl

/-- The weighted in-degree. -/
theorem first_deg : after (hostOps0 (F := Ideal)) W (Proc.devRef .tc main_v11)
    = Cert.Spec.degOf (Cert.Spec.colOf (W (Proc.devRef .tc main_arg1))) (Cert.Spec.ewOf (W (Proc.devRef .tc main_arg2))) := by
  after_results_simp <;> results_rw <;> rfl

/-- Where the degree is positive. -/
theorem first_pos : after (hostOps0 (F := Ideal)) W (Proc.devRef .tc main_v13)
    = cmpf .ogt (Cert.Spec.degOf (Cert.Spec.colOf (W (Proc.devRef .tc main_arg1))) (Cert.Spec.ewOf (W (Proc.devRef .tc main_arg2))))
        (broadcastInDim Cert.ReferenceIdeal.S180224 ![] Cert.ReferenceIdeal.Facts₀.bcast_S_S180224 (constant (F := Ideal) Cert.ReferenceIdeal.S_ .f32 0x00000000#32)) := by
  after_results_simp <;> results_rw
  refine congrArg₂ (cmpf .ogt) ?_ ?_ <;> rfl

/-- The degree's inverse square root, everywhere. -/
theorem first_rsqrt : after (hostOps0 (F := Ideal)) W (Proc.devRef .tc main_v14)
    = Host.rsqrt (F := Ideal) (Cert.Spec.degOf (Cert.Spec.colOf (W (Proc.devRef .tc main_arg1))) (Cert.Spec.ewOf (W (Proc.devRef .tc main_arg2)))) := by
  after_results_simp <;> results_rw
  refine congrArg (Host.rsqrt (F := Ideal)) ?_; rfl

/-- The zero the selection falls back to. -/
theorem first_zero : after (hostOps0 (F := Ideal)) W (Proc.devRef .tc main_cst_2)
    = constant (F := Ideal) Cert.ReferenceIdeal.S_ .f32 0x00000000#32 := by
  after_results <;> rfl

/-! ## The second stretch: the selection -/

/-- The selection alone, from any contents. -/
theorem second_select (W' : Valuation τ sig (Elt Ideal)) : after (hostOps0_1 (F := Ideal)) W' (Proc.devRef .tc main_v15)
    = select (W' (Proc.devRef .tc main_v13)) (W' (Proc.devRef .tc main_v14))
        (broadcastInDim S180224 ![] Cert.KernelIdeal.Facts₀.bcast_S_S180224 (id (W' (Proc.devRef .tc main_cst_2)))) := by
  after_results_simp <;> rfl

/-- The selection writes none of the edge lists. -/
theorem second_keep {b : Ref sig .tc} (hb : b ∈ [main_v3, main_v6, main_v8]) (W' : Valuation τ sig (Elt Ideal)) :
    after (hostOps0_1 (F := Ideal)) W' (Proc.devRef .tc b) = W' (Proc.devRef .tc b) := by
  simp only [List.mem_cons, List.mem_singleton, List.not_mem_nil, or_false] at hb
  rcases hb with rfl | rfl | rfl <;> after_results

/-- `dinv = deg^(-1/2)` where `deg > 0`, else `0`, after the first two stretches. -/
theorem second_dinv : after (hostOps0_1 (F := Ideal)) (after (hostOps0 (F := Ideal)) W) (Proc.devRef .tc main_v15)
    = Cert.Spec.dinvOf (Cert.Spec.degOf (Cert.Spec.colOf (W (Proc.devRef .tc main_arg1))) (Cert.Spec.ewOf (W (Proc.devRef .tc main_arg2)))) := by
  rw [second_select, first_pos, first_rsqrt, first_zero]; rfl

/-! ## The third stretch: the normalisation -/

/-- The normalisation alone, from any contents. -/
theorem third_norm (W' : Valuation τ sig (Elt Ideal)) : after (hostOps0_2 (F := Ideal)) W' (Proc.devRef .tc main_v31)
    = Cert.Spec.normOf (W' (Proc.devRef .tc main_v3)) (W' (Proc.devRef .tc main_v6)) (W' (Proc.devRef .tc main_v8)) (W' (Proc.devRef .tc main_v15)) := by
  after_results_simp <;> rfl

/-! ## The three stretches together -/

/-- The contents after the three stretches before the first region. -/
abbrev stage0 : Valuation τ sig (Elt Ideal) := after (hostOps0_2 (F := Ideal)) (after (hostOps0_1 (F := Ideal)) (after (hostOps0 (F := Ideal)) W))

theorem stage0_row : stage0 W (Proc.devRef .tc main_v3) = Cert.Spec.rowOf (W (Proc.devRef .tc main_arg1)) := by
  after_results <;> rfl

theorem stage0_col : stage0 W (Proc.devRef .tc main_v6) = Cert.Spec.colOf (W (Proc.devRef .tc main_arg1)) := by
  after_results <;> rfl

theorem stage0_norm : stage0 W (Proc.devRef .tc main_v31)
    = Cert.Spec.normOf (Cert.Spec.rowOf (W (Proc.devRef .tc main_arg1))) (Cert.Spec.colOf (W (Proc.devRef .tc main_arg1))) (Cert.Spec.ewOf (W (Proc.devRef .tc main_arg2)))
        (Cert.Spec.dinvOf (Cert.Spec.degOf (Cert.Spec.colOf (W (Proc.devRef .tc main_arg1))) (Cert.Spec.ewOf (W (Proc.devRef .tc main_arg2))))) := by
  show after (hostOps0_2 (F := Ideal)) (after (hostOps0_1 (F := Ideal)) (after (hostOps0 (F := Ideal)) W)) (Proc.devRef .tc main_v31) = _
  rw [third_norm, second_keep (b := main_v3) (by decide), second_keep (b := main_v6) (by decide), second_keep (b := main_v8) (by decide),
    first_row, first_col, first_ew, second_dinv]

set_option maxHeartbeats 4000000 in  -- eleven buffers, each carried past forty-two operations
/-- No operation before the first region writes an argument. -/
theorem stage0_keep {b : Ref sig .tc}
    (hb : b ∈ [main_arg0, main_arg3, main_arg4, main_arg5, main_arg6, main_arg7, main_arg8, main_arg9, main_arg10, main_arg11, main_arg12]) :
    stage0 W (Proc.devRef .tc b) = W (Proc.devRef .tc b) := by
  simp only [List.mem_cons, List.mem_singleton, List.not_mem_nil, or_false] at hb
  rcases hb with rfl | rfl | rfl | rfl | rfl | rfl | rfl | rfl | rfl | rfl | rfl <;> after_results_simp

end Cert.KernelIdeal.KHost

end
-- ==== Proof.BiasLayout.lean ====
/-
  A bias vector laid out as a one-row matrix, two ways.

  One program reshapes the vector b : [n] to [1, n]; the other broadcasts it along axis 1 of [1, n].
  Both arrays hold b[j] at position (0, j), so they are equal.
-/
import proofs.«116987_j64750926955165_1_alg».proof.Proof.Gen.KernelIdeal
import proofs.«116987_j64750926955165_1_alg».proof.Proof.Spec
import Idealize.ShloMosaic.Lib.ValueLayout

noncomputable section

namespace Cert.KernelIdeal.BiasLayout

open Idealize.ShloMosaic Idealize.ShloMosaic.ValueIdx

/-- A vector [a] broadcast along axis 1 into [1, a] reads, at (u, i), the vector at i. -/
theorem broadcastInDim_a_1a_apply {α : Type} {a : ℕ} (x : (⟨1, ![a]⟩ : Shape).Idx → α)
    (h : (⟨1, ![a]⟩ : Shape).BroadcastsInDim ⟨2, ![1, a]⟩ (![1] : Fin 1 → Fin 2)) (u : Fin 1) (i : Fin a) :
    broadcastInDim ⟨2, ![1, a]⟩ (![1] : Fin 1 → Fin 2) h x (ix2 u i) = x (ix1 i) := by
  unfold broadcastInDim
  congr 1
  funext d
  match d with
  | ⟨0, _⟩ =>
    apply Fin.ext
    split
    · next h1 =>
      have h1' : a = 1 := h1
      have hi := i.isLt
      show 0 = i.val
      omega
    · rfl

/-- The [128] bias reshaped to [1, 128] is the bias broadcast along axis 1. -/
theorem biasRow_eq (b : FVec Ideal Cert.KernelIdeal.S128 .f32) :
    shapeCast Cert.KernelIdeal.S1x128 b Cert.KernelIdeal.Facts₀.shapeCasts_S128_S1x128 = Cert.Spec.biasRow b := by
  funext j
  obtain ⟨u, i, rfl⟩ : ∃ (u : Fin 1) (i : Fin 128), j = ix2 u i := ⟨j 0, j 1, eq_ix2 j⟩
  unfold Cert.Spec.biasRow
  rw [shapeCast_a_1a_apply]
  exact (broadcastInDim_a_1a_apply b _ u i).symm

/-- The [1] bias reshaped to [1, 1] is the bias broadcast along axis 1. -/
theorem biasOne_eq (b : FVec Ideal Cert.KernelIdeal.S1 .f32) :
    shapeCast Cert.KernelIdeal.S1x1 b Cert.KernelIdeal.Facts₀.shapeCasts_S1_S1x1 = Cert.Spec.biasOne b := by
  funext j
  obtain ⟨u, i, rfl⟩ : ∃ (u : Fin 1) (i : Fin 1), j = ix2 u i := ⟨j 0, j 1, eq_ix2 j⟩
  unfold Cert.Spec.biasOne
  rw [shapeCast_a_1a_apply]
  exact (broadcastInDim_a_1a_apply b _ u i).symm

end Cert.KernelIdeal.BiasLayout

end
-- ==== Proof.KHostB.lean ====
/- The idealized kernel program's host stretches after its first region, read back: what each stretch leaves in the
   buffers the next region reads, as the network's stage functions of what the stretch found; and the buffers a
   stretch does not write, unchanged. -/
import proofs.«116987_j64750926955165_1_alg».proof.Proof.Gen.KernelIdeal.Launch
import proofs.«116987_j64750926955165_1_alg».proof.Proof.Spec
import proofs.«116987_j64750926955165_1_alg».proof.Proof.BiasLayout
import Idealize.ShloMosaic.Lib.StableHlo.Run

noncomputable section

namespace Cert.KernelIdeal.KHostB

open Idealize.ShloMosaic Idealize.ShloMosaic.TcCoe Idealize.SL.Sem Idealize.ShloMosaic.StableHlo Cert.KernelIdeal Cert.KernelIdeal.Gen

variable (W : Valuation τ sig (Elt Ideal))

/-- The first stretch leaves the convolution of the features found, bias added. -/
theorem stage1_conv : after (hostOps1 (F := Ideal)) W (Proc.devRef .tc main_v48) = Cert.Spec.convOf (W (Proc.devRef .tc main_v32)) (W (Proc.devRef .tc main_v3)) (W (Proc.devRef .tc main_v6)) (W (Proc.devRef .tc main_v31)) (W (Proc.devRef .tc main_arg4)) := by
  after_results_simp
  rfl

/-- … and the rectifier's slope, the constant 0.01. -/
theorem stage1_slope : after (hostOps1 (F := Ideal)) W (Proc.devRef .tc main_cst_9) = constant (F := Ideal) Cert.ReferenceIdeal.S_ .f32 0x3C23D70A#32 := by
  after_results_simp

/-- The rectifier's seven operations alone, from any contents holding `x` at their operand and the slope 0.01 at
    their constant: the leaky rectifier of `x`. With `x` a variable the two sides differ only by the typed
    references' transports, which are along equations that hold by computation. -/
theorem stage1_leaky (W' : Valuation τ sig (Elt Ideal)) (x : FVec Ideal Cert.ReferenceIdeal.S180224x128 .f32)
    (hx : W' (Proc.devRef .tc main_v48) = x)
    (hc : W' (Proc.devRef .tc main_cst_9) = constant (F := Ideal) Cert.ReferenceIdeal.S_ .f32 0x3C23D70A#32) :
    after (hostOps1_1 (F := Ideal)) W' (Proc.devRef .tc main_v49) = Cert.Spec.leakyN x := by
  after_results_simp
  rw [hx, hc]
  rfl

end Cert.KernelIdeal.KHostB

namespace Cert.KernelIdeal.KHost

open Idealize.ShloMosaic Idealize.ShloMosaic.TcCoe Idealize.SL.Sem Idealize.ShloMosaic.StableHlo Cert.KernelIdeal Cert.KernelIdeal.Gen

variable (W : Valuation τ sig (Elt Ideal))

/-! ## Stage 1: the first convolution and its rectifier -/

/-- The buffers after the first convolution's stretch and the rectifier's. -/
abbrev stage1 : Valuation τ sig (Elt Ideal) := after (hostOps1_1 (F := Ideal)) (after (hostOps1 (F := Ideal)) W)

/-- The rectifier's result is the leaky rectifier of the convolution of the features found: the rectifier reads the
    convolution and the slope that the first stretch left. -/
theorem stage1_h : stage1 W (Proc.devRef .tc main_v49) = Cert.Spec.leakyN (Cert.Spec.convOf (W (Proc.devRef .tc main_v32)) (W (Proc.devRef .tc main_v3)) (W (Proc.devRef .tc main_v6)) (W (Proc.devRef .tc main_v31)) (W (Proc.devRef .tc main_arg4))) :=
  KHostB.stage1_leaky _ _ (KHostB.stage1_conv W) (KHostB.stage1_slope W)

/-- Neither stretch writes the edge lists, the normalisation or the later layers' parameters. -/
theorem stage1_keep {b : Ref sig .tc} (hb : b ∈ [main_v3, main_v6, main_v31, main_arg5, main_arg6, main_arg7, main_arg8, main_arg9, main_arg10, main_arg11, main_arg12]) : stage1 W (Proc.devRef .tc b) = W (Proc.devRef .tc b) := by
  simp only [List.mem_cons, List.mem_singleton, List.not_mem_nil, or_false] at hb
  rcases hb with rfl | rfl | rfl | rfl | rfl | rfl | rfl | rfl | rfl | rfl | rfl <;>
    (show after (hostOps1_1 (F := Ideal)) (after (hostOps1 (F := Ideal)) W) _ = _; after_results_simp)

/-! ## Stage 2: the second convolution, laid out per graph, and the head's first bias -/

/-- The second convolution of the features found, every graph's rows side by side. -/
theorem stage2_z : after (hostOps2 (F := Ideal)) W (Proc.devRef .tc main_v67) = Cert.Spec.flat (Cert.Spec.convOf (W (Proc.devRef .tc main_v50)) (W (Proc.devRef .tc main_v3)) (W (Proc.devRef .tc main_v6)) (W (Proc.devRef .tc main_v31)) (W (Proc.devRef .tc main_arg6))) := by
  after_results_simp
  rfl

/-- The head's first bias as a one-row matrix: reshaped here, broadcast in the reference. -/
theorem stage2_b : after (hostOps2 (F := Ideal)) W (Proc.devRef .tc main_v68) = Cert.Spec.biasRow (W (Proc.devRef .tc main_arg8)) := by
  after_results_simp
  exact Cert.KernelIdeal.BiasLayout.biasRow_eq _

/-- The stretch does not write the head's parameters. -/
theorem stage2_keep {b : Ref sig .tc} (hb : b ∈ [main_arg7, main_arg9, main_arg10, main_arg11, main_arg12]) : after (hostOps2 (F := Ideal)) W (Proc.devRef .tc b) = W (Proc.devRef .tc b) := by
  simp only [List.mem_cons, List.mem_singleton, List.not_mem_nil, or_false] at hb
  rcases hb with rfl | rfl | rfl | rfl | rfl <;> after_results_simp

/-! ## Stages 3 and 4: the head's other biases -/

/-- The head's second bias as a one-row matrix. -/
theorem stage3_b : after (hostOps3 (F := Ideal)) W (Proc.devRef .tc main_v70) = Cert.Spec.biasRow (W (Proc.devRef .tc main_arg10)) := by
  after_results
  exact Cert.KernelIdeal.BiasLayout.biasRow_eq _

/-- The stretch writes that bias only. -/
theorem stage3_keep {b : Ref sig .tc} (hb : b ∈ [main_v69, main_arg9, main_arg11, main_arg12]) : after (hostOps3 (F := Ideal)) W (Proc.devRef .tc b) = W (Proc.devRef .tc b) := by
  simp only [List.mem_cons, List.mem_singleton, List.not_mem_nil, or_false] at hb
  rcases hb with rfl | rfl | rfl | rfl <;> after_results

/-- The head's last bias as a one-by-one matrix. -/
theorem stage4_b : after (hostOps4 (F := Ideal)) W (Proc.devRef .tc main_v72) = Cert.Spec.biasOne (W (Proc.devRef .tc main_arg12)) := by
  after_results
  exact Cert.KernelIdeal.BiasLayout.biasOne_eq _

/-- The stretch writes that bias only. -/
theorem stage4_keep {b : Ref sig .tc} (hb : b ∈ [main_v71, main_arg11]) : after (hostOps4 (F := Ideal)) W (Proc.devRef .tc b) = W (Proc.devRef .tc b) := by
  simp only [List.mem_cons, List.mem_singleton, List.not_mem_nil, or_false] at hb
  rcases hb with rfl | rfl <;> after_results

end Cert.KernelIdeal.KHost

end
-- ==== Proof.KValue.lean ====
/-
  The idealized kernel program's value, threaded through its thirteen segments.

  The program alternates stretches of host operations with five kernel regions. Each stretch, read from any entry
  contents, leaves named stage functions of what it found; each region leaves its output array at the stage function
  of its input arrays as it found them, and every other buffer alone. Here the buffer contents at each segment boundary
  are followed from the launch to the return: at each boundary the few buffers that matter later hold a named function
  of the thirteen argument arrays as launched, and at the end the result buffer holds the whole network of them.
-/
import proofs.«116987_j64750926955165_1_alg».proof.Proof.Gen.KernelIdeal.Frame
import proofs.«116987_j64750926955165_1_alg».proof.Proof.Spec
import proofs.«116987_j64750926955165_1_alg».proof.Proof.Region0
import proofs.«116987_j64750926955165_1_alg».proof.Proof.Region1
import proofs.«116987_j64750926955165_1_alg».proof.Proof.Region2
import proofs.«116987_j64750926955165_1_alg».proof.Proof.Region3
import proofs.«116987_j64750926955165_1_alg».proof.Proof.Region4
import proofs.«116987_j64750926955165_1_alg».proof.Proof.KHost0
import proofs.«116987_j64750926955165_1_alg».proof.Proof.KHostB
import Idealize.ShloMosaic.Lib.StableHlo.Run

noncomputable section

namespace Cert.KernelIdeal.KValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The values along the way, as functions of the thirteen arguments at launch -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)
abbrev A11 := m ((c : Thread nD τ).loc main_arg11)
abbrev A12 := m ((c : Thread nD τ).loc main_arg12)

/-- Edge sources and targets with the self loops, and the symmetric normalisation of every edge. -/
abbrev row := Cert.Spec.rowOf (A1 m c)
abbrev col := Cert.Spec.colOf (A1 m c)
abbrev nrm := Cert.Spec.normOf (row m c) (col m c) (Cert.Spec.ewOf (A2 m c))
  (Cert.Spec.dinvOf (Cert.Spec.degOf (col m c) (Cert.Spec.ewOf (A2 m c))))
/-- The first layer: the features times the weights, convolved, rectified. -/
abbrev x1 := Cert.Spec.mm0 (A0 m c) (A3 m c)
abbrev h1 := Cert.Spec.leakyN (Cert.Spec.convOf (x1 m c) (row m c) (col m c) (nrm m c) (A4 m c))
/-- The second layer, re-laid one graph per row. -/
abbrev x2 := Cert.Spec.mm1 (h1 m c) (A5 m c)
abbrev z := Cert.Spec.flat (Cert.Spec.convOf (x2 m c) (row m c) (col m c) (nrm m c) (A6 m c))
/-- The head's three layers. -/
abbrev y2 := Cert.Spec.head2 (z m c) (A7 m c) (Cert.Spec.biasRow (A8 m c))
abbrev y3 := Cert.Spec.head3 (y2 m c) (A9 m c) (Cert.Spec.biasRow (A10 m c))
abbrev y4 := Cert.Spec.head4 (y3 m c) (A11 m c) (Cert.Spec.biasOne (A12 m c))

/-- That composition is the network. -/
theorem y4_eq : y4 m c = Cert.Spec.net (A0 m c) (A1 m c) (A2 m c) (A3 m c) (A4 m c) (A5 m c) (A6 m c) (A7 m c) (A8 m c) (A9 m c) (A10 m c) (A11 m c) (A12 m c) := rfl

/-! ## Before the first region: the edge lists and the normalisation; the arguments untouched -/
theorem W3_v3 : W3 (F := Ideal) m ρ c (Proc.devRef .tc main_v3) = (row m c) :=
  KHost.stage0_row (W0 m ρ c)
theorem W3_v6 : W3 (F := Ideal) m ρ c (Proc.devRef .tc main_v6) = (col m c) :=
  KHost.stage0_col (W0 m ρ c)
theorem W3_v31 : W3 (F := Ideal) m ρ c (Proc.devRef .tc main_v31) = (nrm m c) :=
  KHost.stage0_norm (W0 m ρ c)
theorem W3_arg0 : W3 (F := Ideal) m ρ c (Proc.devRef .tc main_arg0) = (A0 m c) :=
  KHost.stage0_keep (W0 m ρ c) (b := main_arg0) (by decide)
theorem W3_arg3 : W3 (F := Ideal) m ρ c (Proc.devRef .tc main_arg3) = (A3 m c) :=
  KHost.stage0_keep (W0 m ρ c) (b := main_arg3) (by decide)
theorem W3_arg4 : W3 (F := Ideal) m ρ c (Proc.devRef .tc main_arg4) = (A4 m c) :=
  KHost.stage0_keep (W0 m ρ c) (b := main_arg4) (by decide)
theorem W3_arg5 : W3 (F := Ideal) m ρ c (Proc.devRef .tc main_arg5) = (A5 m c) :=
  KHost.stage0_keep (W0 m ρ c) (b := main_arg5) (by decide)
theorem W3_arg6 : W3 (F := Ideal) m ρ c (Proc.devRef .tc main_arg6) = (A6 m c) :=
  KHost.stage0_keep (W0 m ρ c) (b := main_arg6) (by decide)
theorem W3_arg7 : W3 (F := Ideal) m ρ c (Proc.devRef .tc main_arg7) = (A7 m c) :=
  KHost.stage0_keep (W0 m ρ c) (b := main_arg7) (by decide)
theorem W3_arg8 : W3 (F := Ideal) m ρ c (Proc.devRef .tc main_arg8) = (A8 m c) :=
  KHost.stage0_keep (W0 m ρ c) (b := main_arg8) (by decide)
theorem W3_arg9 : W3 (F := Ideal) m ρ c (Proc.devRef .tc main_arg9) = (A9 m c) :=
  KHost.stage0_keep (W0 m ρ c) (b := main_arg9) (by decide)
theorem W3_arg10 : W3 (F := Ideal) m ρ c (Proc.devRef .tc main_arg10) = (A10 m c) :=
  KHost.stage0_keep (W0 m ρ c) (b := main_arg10) (by decide)
theorem W3_arg11 : W3 (F := Ideal) m ρ c (Proc.devRef .tc main_arg11) = (A11 m c) :=
  KHost.stage0_keep (W0 m ρ c) (b := main_arg11) (by decide)
theorem W3_arg12 : W3 (F := Ideal) m ρ c (Proc.devRef .tc main_arg12) = (A12 m c) :=
  KHost.stage0_keep (W0 m ρ c) (b := main_arg12) (by decide)

/-! ## The first region: the features times the first weights -/
theorem W4_v32 : W4 (F := Ideal) m ρ c (Proc.devRef .tc main_v32) = (x1 m c) := by
  refine (W4_arr m ρ c 2).trans ((Region0.final (V3 m ρ) c).trans ?_)
  show Cert.Spec.mm0 (W3 (F := Ideal) m ρ c (Proc.devRef .tc main_arg0)) (W3 (F := Ideal) m ρ c (Proc.devRef .tc main_arg3)) = _
  rw [W3_arg0, W3_arg3]
theorem W4_v3 : W4 (F := Ideal) m ρ c (Proc.devRef .tc main_v3) = (row m c) :=
  (W4_of_ne m ρ c main_v3 (by decide)).trans (W3_v3 m ρ c)
theorem W4_v6 : W4 (F := Ideal) m ρ c (Proc.devRef .tc main_v6) = (col m c) :=
  (W4_of_ne m ρ c main_v6 (by decide)).trans (W3_v6 m ρ c)
theorem W4_v31 : W4 (F := Ideal) m ρ c (Proc.devRef .tc main_v31) = (nrm m c) :=
  (W4_of_ne m ρ c main_v31 (by decide)).trans (W3_v31 m ρ c)
theorem W4_arg4 : W4 (F := Ideal) m ρ c (Proc.devRef .tc main_arg4) = (A4 m c) :=
  (W4_of_ne m ρ c main_arg4 (by decide)).trans (W3_arg4 m ρ c)
theorem W4_arg5 : W4 (F := Ideal) m ρ c (Proc.devRef .tc main_arg5) = (A5 m c) :=
  (W4_of_ne m ρ c main_arg5 (by decide)).trans (W3_arg5 m ρ c)
theorem W4_arg6 : W4 (F := Ideal) m ρ c (Proc.devRef .tc main_arg6) = (A6 m c) :=
  (W4_of_ne m ρ c main_arg6 (by decide)).trans (W3_arg6 m ρ c)
theorem W4_arg7 : W4 (F := Ideal) m ρ c (Proc.devRef .tc main_arg7) = (A7 m c) :=
  (W4_of_ne m ρ c main_arg7 (by decide)).trans (W3_arg7 m ρ c)
theorem W4_arg8 : W4 (F := Ideal) m ρ c (Proc.devRef .tc main_arg8) = (A8 m c) :=
  (W4_of_ne m ρ c main_arg8 (by decide)).trans (W3_arg8 m ρ c)
theorem W4_arg9 : W4 (F := Ideal) m ρ c (Proc.devRef .tc main_arg9) = (A9 m c) :=
  (W4_of_ne m ρ c main_arg9 (by decide)).trans (W3_arg9 m ρ c)
theorem W4_arg10 : W4 (F := Ideal) m ρ c (Proc.devRef .tc main_arg10) = (A10 m c) :=
  (W4_of_ne m ρ c main_arg10 (by decide)).trans (W3_arg10 m ρ c)
theorem W4_arg11 : W4 (F := Ideal) m ρ c (Proc.devRef .tc main_arg11) = (A11 m c) :=
  (W4_of_ne m ρ c main_arg11 (by decide)).trans (W3_arg11 m ρ c)
theorem W4_arg12 : W4 (F := Ideal) m ρ c (Proc.devRef .tc main_arg12) = (A12 m c) :=
  (W4_of_ne m ρ c main_arg12 (by decide)).trans (W3_arg12 m ρ c)

/-! ## The first convolution and its rectifier -/
theorem W6_v49 : W6 (F := Ideal) m ρ c (Proc.devRef .tc main_v49) = (h1 m c) := by
  refine (KHost.stage1_h (W4 m ρ c)).trans ?_
  rw [W4_v32, W4_v3, W4_v6, W4_v31, W4_arg4]
theorem W6_v3 : W6 (F := Ideal) m ρ c (Proc.devRef .tc main_v3) = (row m c) :=
  (KHost.stage1_keep (W4 m ρ c) (b := main_v3) (by decide)).trans (W4_v3 m ρ c)
theorem W6_v6 : W6 (F := Ideal) m ρ c (Proc.devRef .tc main_v6) = (col m c) :=
  (KHost.stage1_keep (W4 m ρ c) (b := main_v6) (by decide)).trans (W4_v6 m ρ c)
theorem W6_v31 : W6 (F := Ideal) m ρ c (Proc.devRef .tc main_v31) = (nrm m c) :=
  (KHost.stage1_keep (W4 m ρ c) (b := main_v31) (by decide)).trans (W4_v31 m ρ c)
theorem W6_arg5 : W6 (F := Ideal) m ρ c (Proc.devRef .tc main_arg5) = (A5 m c) :=
  (KHost.stage1_keep (W4 m ρ c) (b := main_arg5) (by decide)).trans (W4_arg5 m ρ c)
theorem W6_arg6 : W6 (F := Ideal) m ρ c (Proc.devRef .tc main_arg6) = (A6 m c) :=
  (KHost.stage1_keep (W4 m ρ c) (b := main_arg6) (by decide)).trans (W4_arg6 m ρ c)
theorem W6_arg7 : W6 (F := Ideal) m ρ c (Proc.devRef .tc main_arg7) = (A7 m c) :=
  (KHost.stage1_keep (W4 m ρ c) (b := main_arg7) (by decide)).trans (W4_arg7 m ρ c)
theorem W6_arg8 : W6 (F := Ideal) m ρ c (Proc.devRef .tc main_arg8) = (A8 m c) :=
  (KHost.stage1_keep (W4 m ρ c) (b := main_arg8) (by decide)).trans (W4_arg8 m ρ c)
theorem W6_arg9 : W6 (F := Ideal) m ρ c (Proc.devRef .tc main_arg9) = (A9 m c) :=
  (KHost.stage1_keep (W4 m ρ c) (b := main_arg9) (by decide)).trans (W4_arg9 m ρ c)
theorem W6_arg10 : W6 (F := Ideal) m ρ c (Proc.devRef .tc main_arg10) = (A10 m c) :=
  (KHost.stage1_keep (W4 m ρ c) (b := main_arg10) (by decide)).trans (W4_arg10 m ρ c)
theorem W6_arg11 : W6 (F := Ideal) m ρ c (Proc.devRef .tc main_arg11) = (A11 m c) :=
  (KHost.stage1_keep (W4 m ρ c) (b := main_arg11) (by decide)).trans (W4_arg11 m ρ c)
theorem W6_arg12 : W6 (F := Ideal) m ρ c (Proc.devRef .tc main_arg12) = (A12 m c) :=
  (KHost.stage1_keep (W4 m ρ c) (b := main_arg12) (by decide)).trans (W4_arg12 m ρ c)

/-! ## The second region: the hidden features times the second weights -/
theorem W7_v50 : W7 (F := Ideal) m ρ c (Proc.devRef .tc main_v50) = (x2 m c) := by
  refine (W7_arr m ρ c 2).trans ((Region1.final (V6 m ρ) c).trans ?_)
  show Cert.Spec.mm1 (W6 (F := Ideal) m ρ c (Proc.devRef .tc main_v49)) (W6 (F := Ideal) m ρ c (Proc.devRef .tc main_arg5)) = _
  rw [W6_v49, W6_arg5]
theorem W7_v3 : W7 (F := Ideal) m ρ c (Proc.devRef .tc main_v3) = (row m c) :=
  (W7_of_ne m ρ c main_v3 (by decide)).trans (W6_v3 m ρ c)
theorem W7_v6 : W7 (F := Ideal) m ρ c (Proc.devRef .tc main_v6) = (col m c) :=
  (W7_of_ne m ρ c main_v6 (by decide)).trans (W6_v6 m ρ c)
theorem W7_v31 : W7 (F := Ideal) m ρ c (Proc.devRef .tc main_v31) = (nrm m c) :=
  (W7_of_ne m ρ c main_v31 (by decide)).trans (W6_v31 m ρ c)
theorem W7_arg6 : W7 (F := Ideal) m ρ c (Proc.devRef .tc main_arg6) = (A6 m c) :=
  (W7_of_ne m ρ c main_arg6 (by decide)).trans (W6_arg6 m ρ c)
theorem W7_arg7 : W7 (F := Ideal) m ρ c (Proc.devRef .tc main_arg7) = (A7 m c) :=
  (W7_of_ne m ρ c main_arg7 (by decide)).trans (W6_arg7 m ρ c)
theorem W7_arg8 : W7 (F := Ideal) m ρ c (Proc.devRef .tc main_arg8) = (A8 m c) :=
  (W7_of_ne m ρ c main_arg8 (by decide)).trans (W6_arg8 m ρ c)
theorem W7_arg9 : W7 (F := Ideal) m ρ c (Proc.devRef .tc main_arg9) = (A9 m c) :=
  (W7_of_ne m ρ c main_arg9 (by decide)).trans (W6_arg9 m ρ c)
theorem W7_arg10 : W7 (F := Ideal) m ρ c (Proc.devRef .tc main_arg10) = (A10 m c) :=
  (W7_of_ne m ρ c main_arg10 (by decide)).trans (W6_arg10 m ρ c)
theorem W7_arg11 : W7 (F := Ideal) m ρ c (Proc.devRef .tc main_arg11) = (A11 m c) :=
  (W7_of_ne m ρ c main_arg11 (by decide)).trans (W6_arg11 m ρ c)
theorem W7_arg12 : W7 (F := Ideal) m ρ c (Proc.devRef .tc main_arg12) = (A12 m c) :=
  (W7_of_ne m ρ c main_arg12 (by decide)).trans (W6_arg12 m ρ c)

/-! ## The second convolution, re-laid; the head's first bias as a row -/
theorem W8_v67 : W8 (F := Ideal) m ρ c (Proc.devRef .tc main_v67) = (z m c) := by
  refine (KHost.stage2_z (W7 m ρ c)).trans ?_
  rw [W7_v50, W7_v3, W7_v6, W7_v31, W7_arg6]
theorem W8_v68 : W8 (F := Ideal) m ρ c (Proc.devRef .tc main_v68) = (Cert.Spec.biasRow (A8 m c)) := by
  refine (KHost.stage2_b (W7 m ρ c)).trans ?_
  rw [W7_arg8]
theorem W8_arg7 : W8 (F := Ideal) m ρ c (Proc.devRef .tc main_arg7) = (A7 m c) :=
  (KHost.stage2_keep (W7 m ρ c) (b := main_arg7) (by decide)).trans (W7_arg7 m ρ c)
theorem W8_arg9 : W8 (F := Ideal) m ρ c (Proc.devRef .tc main_arg9) = (A9 m c) :=
  (KHost.stage2_keep (W7 m ρ c) (b := main_arg9) (by decide)).trans (W7_arg9 m ρ c)
theorem W8_arg10 : W8 (F := Ideal) m ρ c (Proc.devRef .tc main_arg10) = (A10 m c) :=
  (KHost.stage2_keep (W7 m ρ c) (b := main_arg10) (by decide)).trans (W7_arg10 m ρ c)
theorem W8_arg11 : W8 (F := Ideal) m ρ c (Proc.devRef .tc main_arg11) = (A11 m c) :=
  (KHost.stage2_keep (W7 m ρ c) (b := main_arg11) (by decide)).trans (W7_arg11 m ρ c)
theorem W8_arg12 : W8 (F := Ideal) m ρ c (Proc.devRef .tc main_arg12) = (A12 m c) :=
  (KHost.stage2_keep (W7 m ρ c) (b := main_arg12) (by decide)).trans (W7_arg12 m ρ c)

/-! ## The third region: the head's first layer -/
theorem W9_v69 : W9 (F := Ideal) m ρ c (Proc.devRef .tc main_v69) = (y2 m c) := by
  refine (W9_arr m ρ c 3).trans ((Region2.final (V8 m ρ) c).trans ?_)
  show Cert.Spec.head2 (W8 (F := Ideal) m ρ c (Proc.devRef .tc main_v67)) (W8 (F := Ideal) m ρ c (Proc.devRef .tc main_arg7)) (W8 (F := Ideal) m ρ c (Proc.devRef .tc main_v68)) = _
  rw [W8_v67, W8_arg7, W8_v68]
theorem W9_arg9 : W9 (F := Ideal) m ρ c (Proc.devRef .tc main_arg9) = (A9 m c) :=
  (W9_of_ne m ρ c main_arg9 (by decide)).trans (W8_arg9 m ρ c)
theorem W9_arg10 : W9 (F := Ideal) m ρ c (Proc.devRef .tc main_arg10) = (A10 m c) :=
  (W9_of_ne m ρ c main_arg10 (by decide)).trans (W8_arg10 m ρ c)
theorem W9_arg11 : W9 (F := Ideal) m ρ c (Proc.devRef .tc main_arg11) = (A11 m c) :=
  (W9_of_ne m ρ c main_arg11 (by decide)).trans (W8_arg11 m ρ c)
theorem W9_arg12 : W9 (F := Ideal) m ρ c (Proc.devRef .tc main_arg12) = (A12 m c) :=
  (W9_of_ne m ρ c main_arg12 (by decide)).trans (W8_arg12 m ρ c)

/-! ## The head's second bias as a row -/
theorem W10_v70 : W10 (F := Ideal) m ρ c (Proc.devRef .tc main_v70) = (Cert.Spec.biasRow (A10 m c)) := by
  refine (KHost.stage3_b (W9 m ρ c)).trans ?_
  rw [W9_arg10]
theorem W10_v69 : W10 (F := Ideal) m ρ c (Proc.devRef .tc main_v69) = (y2 m c) :=
  (KHost.stage3_keep (W9 m ρ c) (b := main_v69) (by decide)).trans (W9_v69 m ρ c)
theorem W10_arg9 : W10 (F := Ideal) m ρ c (Proc.devRef .tc main_arg9) = (A9 m c) :=
  (KHost.stage3_keep (W9 m ρ c) (b := main_arg9) (by decide)).trans (W9_arg9 m ρ c)
theorem W10_arg11 : W10 (F := Ideal) m ρ c (Proc.devRef .tc main_arg11) = (A11 m c) :=
  (KHost.stage3_keep (W9 m ρ c) (b := main_arg11) (by decide)).trans (W9_arg11 m ρ c)
theorem W10_arg12 : W10 (F := Ideal) m ρ c (Proc.devRef .tc main_arg12) = (A12 m c) :=
  (KHost.stage3_keep (W9 m ρ c) (b := main_arg12) (by decide)).trans (W9_arg12 m ρ c)

/-! ## The fourth region: the head's second layer -/
theorem W11_v71 : W11 (F := Ideal) m ρ c (Proc.devRef .tc main_v71) = (y3 m c) := by
  refine (W11_arr m ρ c 3).trans ((Region3.final (V10 m ρ) c).trans ?_)
  show Cert.Spec.head3 (W10 (F := Ideal) m ρ c (Proc.devRef .tc main_v69)) (W10 (F := Ideal) m ρ c (Proc.devRef .tc main_arg9)) (W10 (F := Ideal) m ρ c (Proc.devRef .tc main_v70)) = _
  rw [W10_v69, W10_arg9, W10_v70]
theorem W11_arg11 : W11 (F := Ideal) m ρ c (Proc.devRef .tc main_arg11) = (A11 m c) :=
  (W11_of_ne m ρ c main_arg11 (by decide)).trans (W10_arg11 m ρ c)
theorem W11_arg12 : W11 (F := Ideal) m ρ c (Proc.devRef .tc main_arg12) = (A12 m c) :=
  (W11_of_ne m ρ c main_arg12 (by decide)).trans (W10_arg12 m ρ c)

/-! ## The last bias as a one-by-one matrix -/
theorem W12_v72 : W12 (F := Ideal) m ρ c (Proc.devRef .tc main_v72) = (Cert.Spec.biasOne (A12 m c)) := by
  refine (KHost.stage4_b (W11 m ρ c)).trans ?_
  rw [W11_arg12]
theorem W12_v71 : W12 (F := Ideal) m ρ c (Proc.devRef .tc main_v71) = (y3 m c) :=
  (KHost.stage4_keep (W11 m ρ c) (b := main_v71) (by decide)).trans (W11_v71 m ρ c)
theorem W12_arg11 : W12 (F := Ideal) m ρ c (Proc.devRef .tc main_arg11) = (A11 m c) :=
  (KHost.stage4_keep (W11 m ρ c) (b := main_arg11) (by decide)).trans (W11_arg11 m ρ c)

/-! ## The fifth region: the head's last layer; the result is the network of the arguments -/
theorem W13_v73 : W13 (F := Ideal) m ρ c (Proc.devRef .tc main_v73) = (y4 m c) := by
  refine (W13_arr m ρ c 3).trans ((Region4.final (V12 m ρ) c).trans ?_)
  show Cert.Spec.head4 (W12 (F := Ideal) m ρ c (Proc.devRef .tc main_v71)) (W12 (F := Ideal) m ρ c (Proc.devRef .tc main_arg11)) (W12 (F := Ideal) m ρ c (Proc.devRef .tc main_v72)) = _
  rw [W12_v71, W12_arg11, W12_v72]

/-- THE KERNEL PROGRAM'S RESULT: after its thirteen segments the result buffer holds the network of the thirteen
    argument arrays as launched. -/
theorem value : Gen.W13 (F := Ideal) m ρ c (Proc.devRef .tc main_v73)
    = Cert.Spec.net (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12)) :=
  (W13_v73 m ρ c).trans (y4_eq m c)

end Cert.KernelIdeal.KValue

end
-- ==== Proof.RefOps.lean ====
/- The reference program's @main as literal lists of its host operations, in order: each statement's operation as printed,
   each call of a module-local function replaced by that function's operations over the call's own buffers
   (what executing the call does); cut into thirteen consecutive stretches, one per stage of the network. -/
import proofs.«116987_j64750926955165_1_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem

variable {F : FTy → Type} [FloatOps F]

/-- 10 operations: the edge endpoints with the self loops (row, col) and the weights with the ones (ew). -/
abbrev opsA : List (HloOp τ sig (Elt F)) :=
  [ StableHlo.nullary main_v0 (iotaInDim S180224 32 0),
    StableHlo.unary main_arg1 main_v1 ((extractStridedSlice S1x1441792 ![0, 0] · slices_S2x1441792_S1x1441792_0_0) : (⟨S2x1441792, .i32⟩ : BufTy).Contents (Elt F) → (⟨S1x1441792, .i32⟩ : BufTy).Contents (Elt F)),
    StableHlo.reshape main_v1 main_v2 rfl shapeCasts_S1x1441792_S1441792,
    StableHlo.binary main_v2 main_v0 main_v3 ((fun a b => concatenate S1622016 0 [⟨S1441792, a⟩, ⟨S180224, b⟩] concatenates_S1441792_S180224_S1622016_d0) : (⟨S1441792, .i32⟩ : BufTy).Contents (Elt F) → (⟨S180224, .i32⟩ : BufTy).Contents (Elt F) → (⟨S1622016, .i32⟩ : BufTy).Contents (Elt F)),
    StableHlo.unary main_arg1 main_v4 ((extractStridedSlice S1x1441792 ![1, 0] · slices_S2x1441792_S1x1441792_1_0) : (⟨S2x1441792, .i32⟩ : BufTy).Contents (Elt F) → (⟨S1x1441792, .i32⟩ : BufTy).Contents (Elt F)),
    StableHlo.reshape main_v4 main_v5 rfl shapeCasts_S1x1441792_S1441792,
    StableHlo.binary main_v5 main_v0 main_v6 ((fun a b => concatenate S1622016 0 [⟨S1441792, a⟩, ⟨S180224, b⟩] concatenates_S1441792_S180224_S1622016_d0) : (⟨S1441792, .i32⟩ : BufTy).Contents (Elt F) → (⟨S180224, .i32⟩ : BufTy).Contents (Elt F) → (⟨S1622016, .i32⟩ : BufTy).Contents (Elt F)),
    StableHlo.nullary main_cst (constant S_ .f32 0x3F800000#32),
    StableHlo.unary main_cst main_v7 (broadcastInDim S180224 ![] bcast_S_S180224 : (⟨S_, .f32⟩ : BufTy).Contents (Elt F) → (⟨S180224, .f32⟩ : BufTy).Contents (Elt F)),
    StableHlo.binary main_arg2 main_v7 main_v8 ((fun a b => concatenate S1622016 0 [⟨S1441792, a⟩, ⟨S180224, b⟩] concatenates_S1441792_S180224_S1622016_d0) : (⟨S1441792, .f32⟩ : BufTy).Contents (Elt F) → (⟨S180224, .f32⟩ : BufTy).Contents (Elt F) → (⟨S1622016, .f32⟩ : BufTy).Contents (Elt F)) ]

/-- 1 operation: the node features times the first layer's weights. -/
abbrev opsB : List (HloOp τ sig (Elt F)) :=
  [ StableHlo.binary main_arg0 main_arg3 main_v9 ((fun l r => Host.dotGeneral dot_S180224x3_S3x128_S180224x128_1_0_0_1_n_n none l r) : (⟨S180224x3, .f32⟩ : BufTy).Contents (Elt F) → (⟨S3x128, .f32⟩ : BufTy).Contents (Elt F) → (⟨S180224x128, .f32⟩ : BufTy).Contents (Elt F)) ]

/-- 12 operations: the weighted in-degree and its inverse square root where positive. -/
abbrev opsC : List (HloOp τ sig (Elt F)) :=
  [ StableHlo.nullary main_cst_0 (constant S_ .f32 0x00000000#32),
    StableHlo.unary main_cst_0 main_v10 (broadcastInDim S180224 ![] bcast_S_S180224 : (⟨S_, .f32⟩ : BufTy).Contents (Elt F) → (⟨S180224, .f32⟩ : BufTy).Contents (Elt F)),
    StableHlo.unary main_v6 main_v11 (broadcastInDim S1622016x1 ![0] bcast_S1622016_S1622016x1_0 : (⟨S1622016, .i32⟩ : BufTy).Contents (Elt F) → (⟨S1622016x1, .i32⟩ : BufTy).Contents (Elt F)),
    StableHlo.ternary main_v10 main_v11 main_v8 main_v12 ((fun x i u => Host.scatterAdd scatter_S180224_S1622016x1_S1622016_n_0_0_1 x i u) : (⟨S180224, .f32⟩ : BufTy).Contents (Elt F) → (⟨S1622016x1, .i32⟩ : BufTy).Contents (Elt F) → (⟨S1622016, .f32⟩ : BufTy).Contents (Elt F) → (⟨S180224, .f32⟩ : BufTy).Contents (Elt F)),
    StableHlo.nullary main_cst_1 (constant S_ .f32 0x00000000#32),
    StableHlo.unary main_cst_1 main_v13 (broadcastInDim S180224 ![] bcast_S_S180224 : (⟨S_, .f32⟩ : BufTy).Contents (Elt F) → (⟨S180224, .f32⟩ : BufTy).Contents (Elt F)),
    StableHlo.binary main_v12 main_v13 main_v14 (cmpf .ogt : (⟨S180224, .f32⟩ : BufTy).Contents (Elt F) → (⟨S180224, .f32⟩ : BufTy).Contents (Elt F) → (⟨S180224, .i1⟩ : BufTy).Contents (Elt F)),
    StableHlo.unary main_v12 main_v15 (Host.rsqrt : (⟨S180224, .f32⟩ : BufTy).Contents (Elt F) → (⟨S180224, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S180224, .f32⟩) (broadcastInDim S180224 ![] bcast_S_S180224),
    StableHlo.TRef.ternary (.of main_v14 : StableHlo.TRef sig ⟨S180224, .i1⟩) (.of main_v15 : StableHlo.TRef sig ⟨S180224, .f32⟩) (.of main_call0_v1 : StableHlo.TRef sig ⟨S180224, .f32⟩) (.of main_v16 : StableHlo.TRef sig ⟨S180224, .f32⟩) select ]

/-- 20 operations: the edges' normalisation dinv[row] * ew * dinv[col]. -/
abbrev opsD : List (HloOp τ sig (Elt F)) :=
  [ StableHlo.nullary main_c (constantI S_ 32 0#32),
    StableHlo.unary main_c main_v17 (broadcastInDim S1622016 ![] bcast_S_S1622016 : (⟨S_, .i32⟩ : BufTy).Contents (Elt F) → (⟨S1622016, .i32⟩ : BufTy).Contents (Elt F)),
    StableHlo.binary main_v3 main_v17 main_v18 (cmpi .slt : (⟨S1622016, .i32⟩ : BufTy).Contents (Elt F) → (⟨S1622016, .i32⟩ : BufTy).Contents (Elt F) → (⟨S1622016, .i1⟩ : BufTy).Contents (Elt F)),
    StableHlo.nullary main_c_3 (constantI S_ 32 180224#32),
    StableHlo.unary main_c_3 main_v19 (broadcastInDim S1622016 ![] bcast_S_S1622016 : (⟨S_, .i32⟩ : BufTy).Contents (Elt F) → (⟨S1622016, .i32⟩ : BufTy).Contents (Elt F)),
    StableHlo.binary main_v3 main_v19 main_v20 (addi : (⟨S1622016, .i32⟩ : BufTy).Contents (Elt F) → (⟨S1622016, .i32⟩ : BufTy).Contents (Elt F) → (⟨S1622016, .i32⟩ : BufTy).Contents (Elt F)),
    StableHlo.ternary main_v18 main_v20 main_v3 main_v21 (select : (⟨S1622016, .i1⟩ : BufTy).Contents (Elt F) → (⟨S1622016, .i32⟩ : BufTy).Contents (Elt F) → (⟨S1622016, .i32⟩ : BufTy).Contents (Elt F) → (⟨S1622016, .i32⟩ : BufTy).Contents (Elt F)),
    StableHlo.unary main_v21 main_v22 (broadcastInDim S1622016x1 ![0] bcast_S1622016_S1622016x1_0 : (⟨S1622016, .i32⟩ : BufTy).Contents (Elt F) → (⟨S1622016x1, .i32⟩ : BufTy).Contents (Elt F)),
    StableHlo.binary main_v16 main_v22 main_v23 ((fun x i => Host.gather gather_S180224_S1622016x1_S1622016_n_0_n_n_0_1_1 x i) : (⟨S180224, .f32⟩ : BufTy).Contents (Elt F) → (⟨S1622016x1, .i32⟩ : BufTy).Contents (Elt F) → (⟨S1622016, .f32⟩ : BufTy).Contents (Elt F)),
    StableHlo.binary main_v23 main_v8 main_v24 (mulf : (⟨S1622016, .f32⟩ : BufTy).Contents (Elt F) → (⟨S1622016, .f32⟩ : BufTy).Contents (Elt F) → (⟨S1622016, .f32⟩ : BufTy).Contents (Elt F)),
    StableHlo.nullary main_c_4 (constantI S_ 32 0#32),
    StableHlo.unary main_c_4 main_v25 (broadcastInDim S1622016 ![] bcast_S_S1622016 : (⟨S_, .i32⟩ : BufTy).Contents (Elt F) → (⟨S1622016, .i32⟩ : BufTy).Contents (Elt F)),
    StableHlo.binary main_v6 main_v25 main_v26 (cmpi .slt : (⟨S1622016, .i32⟩ : BufTy).Contents (Elt F) → (⟨S1622016, .i32⟩ : BufTy).Contents (Elt F) → (⟨S1622016, .i1⟩ : BufTy).Contents (Elt F)),
    StableHlo.nullary main_c_5 (constantI S_ 32 180224#32),
    StableHlo.unary main_c_5 main_v27 (broadcastInDim S1622016 ![] bcast_S_S1622016 : (⟨S_, .i32⟩ : BufTy).Contents (Elt F) → (⟨S1622016, .i32⟩ : BufTy).Contents (Elt F)),
    StableHlo.binary main_v6 main_v27 main_v28 (addi : (⟨S1622016, .i32⟩ : BufTy).Contents (Elt F) → (⟨S1622016, .i32⟩ : BufTy).Contents (Elt F) → (⟨S1622016, .i32⟩ : BufTy).Contents (Elt F)),
    StableHlo.ternary main_v26 main_v28 main_v6 main_v29 (select : (⟨S1622016, .i1⟩ : BufTy).Contents (Elt F) → (⟨S1622016, .i32⟩ : BufTy).Contents (Elt F) → (⟨S1622016, .i32⟩ : BufTy).Contents (Elt F) → (⟨S1622016, .i32⟩ : BufTy).Contents (Elt F)),
    StableHlo.unary main_v29 main_v30 (broadcastInDim S1622016x1 ![0] bcast_S1622016_S1622016x1_0 : (⟨S1622016, .i32⟩ : BufTy).Contents (Elt F) → (⟨S1622016x1, .i32⟩ : BufTy).Contents (Elt F)),
    StableHlo.binary main_v16 main_v30 main_v31 ((fun x i => Host.gather gather_S180224_S1622016x1_S1622016_n_0_n_n_0_1_1 x i) : (⟨S180224, .f32⟩ : BufTy).Contents (Elt F) → (⟨S1622016x1, .i32⟩ : BufTy).Contents (Elt F) → (⟨S1622016, .f32⟩ : BufTy).Contents (Elt F)),
    StableHlo.binary main_v24 main_v31 main_v32 (mulf : (⟨S1622016, .f32⟩ : BufTy).Contents (Elt F) → (⟨S1622016, .f32⟩ : BufTy).Contents (Elt F) → (⟨S1622016, .f32⟩ : BufTy).Contents (Elt F)) ]

/-- 19 operations: the first convolution: the normalised source rows summed at their targets, plus the bias. -/
abbrev opsE : List (HloOp τ sig (Elt F)) :=
  [ StableHlo.unary main_v32 main_v33 (broadcastInDim S1622016x1 ![0] bcast_S1622016_S1622016x1_0 : (⟨S1622016, .f32⟩ : BufTy).Contents (Elt F) → (⟨S1622016x1, .f32⟩ : BufTy).Contents (Elt F)),
    StableHlo.nullary main_c_6 (constantI S_ 32 0#32),
    StableHlo.unary main_c_6 main_v34 (broadcastInDim S1622016 ![] bcast_S_S1622016 : (⟨S_, .i32⟩ : BufTy).Contents (Elt F) → (⟨S1622016, .i32⟩ : BufTy).Contents (Elt F)),
    StableHlo.binary main_v3 main_v34 main_v35 (cmpi .slt : (⟨S1622016, .i32⟩ : BufTy).Contents (Elt F) → (⟨S1622016, .i32⟩ : BufTy).Contents (Elt F) → (⟨S1622016, .i1⟩ : BufTy).Contents (Elt F)),
    StableHlo.nullary main_c_7 (constantI S_ 32 180224#32),
    StableHlo.unary main_c_7 main_v36 (broadcastInDim S1622016 ![] bcast_S_S1622016 : (⟨S_, .i32⟩ : BufTy).Contents (Elt F) → (⟨S1622016, .i32⟩ : BufTy).Contents (Elt F)),
    StableHlo.binary main_v3 main_v36 main_v37 (addi : (⟨S1622016, .i32⟩ : BufTy).Contents (Elt F) → (⟨S1622016, .i32⟩ : BufTy).Contents (Elt F) → (⟨S1622016, .i32⟩ : BufTy).Contents (Elt F)),
    StableHlo.ternary main_v35 main_v37 main_v3 main_v38 (select : (⟨S1622016, .i1⟩ : BufTy).Contents (Elt F) → (⟨S1622016, .i32⟩ : BufTy).Contents (Elt F) → (⟨S1622016, .i32⟩ : BufTy).Contents (Elt F) → (⟨S1622016, .i32⟩ : BufTy).Contents (Elt F)),
    StableHlo.unary main_v38 main_v39 (broadcastInDim S1622016x1 ![0] bcast_S1622016_S1622016x1_0 : (⟨S1622016, .i32⟩ : BufTy).Contents (Elt F) → (⟨S1622016x1, .i32⟩ : BufTy).Contents (Elt F)),
    StableHlo.binary main_v9 main_v39 main_v40 ((fun x i => Host.gather gather_S180224x128_S1622016x1_S1622016x128_1_0_n_n_0_1_1128 x i) : (⟨S180224x128, .f32⟩ : BufTy).Contents (Elt F) → (⟨S1622016x1, .i32⟩ : BufTy).Contents (Elt F) → (⟨S1622016x128, .f32⟩ : BufTy).Contents (Elt F)),
    StableHlo.unary main_v33 main_v41 (broadcastInDim S1622016x128 ![0, 1] bcast_S1622016x1_S1622016x128_0_1 : (⟨S1622016x1, .f32⟩ : BufTy).Contents (Elt F) → (⟨S1622016x128, .f32⟩ : BufTy).Contents (Elt F)),
    StableHlo.binary main_v41 main_v40 main_v42 (mulf : (⟨S1622016x128, .f32⟩ : BufTy).Contents (Elt F) → (⟨S1622016x128, .f32⟩ : BufTy).Contents (Elt F) → (⟨S1622016x128, .f32⟩ : BufTy).Contents (Elt F)),
    StableHlo.nullary main_cst_8 (constant S_ .f32 0x00000000#32),
    StableHlo.unary main_cst_8 main_v43 (broadcastInDim S180224x128 ![] bcast_S_S180224x128 : (⟨S_, .f32⟩ : BufTy).Contents (Elt F) → (⟨S180224x128, .f32⟩ : BufTy).Contents (Elt F)),
    StableHlo.unary main_v6 main_v44 (broadcastInDim S1622016x1 ![0] bcast_S1622016_S1622016x1_0 : (⟨S1622016, .i32⟩ : BufTy).Contents (Elt F) → (⟨S1622016x1, .i32⟩ : BufTy).Contents (Elt F)),
    StableHlo.ternary main_v43 main_v44 main_v42 main_v45 ((fun x i u => Host.scatterAdd scatter_S180224x128_S1622016x1_S1622016x128_1_0_0_1 x i u) : (⟨S180224x128, .f32⟩ : BufTy).Contents (Elt F) → (⟨S1622016x1, .i32⟩ : BufTy).Contents (Elt F) → (⟨S1622016x128, .f32⟩ : BufTy).Contents (Elt F) → (⟨S180224x128, .f32⟩ : BufTy).Contents (Elt F)),
    StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S180224x128 ![0, 1] bcast_S1x128_S180224x128_0_1 : (⟨S1x128, .f32⟩ : BufTy).Contents (Elt F) → (⟨S180224x128, .f32⟩ : BufTy).Contents (Elt F)),
    StableHlo.binary main_v45 main_v47 main_v48 (addf : (⟨S180224x128, .f32⟩ : BufTy).Contents (Elt F) → (⟨S180224x128, .f32⟩ : BufTy).Contents (Elt F) → (⟨S180224x128, .f32⟩ : BufTy).Contents (Elt F)) ]

/-- 8 operations: the leaky rectifier on the node features. -/
abbrev opsF : List (HloOp τ sig (Elt F)) :=
  [ StableHlo.nullary main_cst_9 (constant S_ .f32 0x3C23D70A#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S180224x128, .f32⟩) (broadcastInDim S180224x128 ![] bcast_S_S180224x128),
    StableHlo.TRef.binary (.of main_v48 : StableHlo.TRef sig ⟨S180224x128, .f32⟩) (.of main_call1_v0 : StableHlo.TRef sig ⟨S180224x128, .f32⟩) (.of main_call1_v1 : StableHlo.TRef sig ⟨S180224x128, .i1⟩) (cmpf .oge),
    StableHlo.TRef.unary (.of main_cst_9 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S180224x128, .f32⟩) (broadcastInDim S180224x128 ![] bcast_S_S180224x128),
    StableHlo.TRef.binary (.of main_call1_v3 : StableHlo.TRef sig ⟨S180224x128, .f32⟩) (.of main_v48 : StableHlo.TRef sig ⟨S180224x128, .f32⟩) (.of main_call1_v4 : StableHlo.TRef sig ⟨S180224x128, .f32⟩) mulf,
    StableHlo.TRef.ternary (.of main_call1_v1 : StableHlo.TRef sig ⟨S180224x128, .i1⟩) (.of main_v48 : StableHlo.TRef sig ⟨S180224x128, .f32⟩) (.of main_call1_v4 : StableHlo.TRef sig ⟨S180224x128, .f32⟩) (.of main_v49 : StableHlo.TRef sig ⟨S180224x128, .f32⟩) select ]

/-- 1 operation: the hidden node features times the second layer's weights. -/
abbrev opsG : List (HloOp τ sig (Elt F)) :=
  [ StableHlo.binary main_v49 main_arg5 main_v50 ((fun l r => Host.dotGeneral dot_S180224x128_S128x128_S180224x128_1_0_0_1_n_n none l r) : (⟨S180224x128, .f32⟩ : BufTy).Contents (Elt F) → (⟨S128x128, .f32⟩ : BufTy).Contents (Elt F) → (⟨S180224x128, .f32⟩ : BufTy).Contents (Elt F)) ]

/-- 12 operations: the in-degree and its inverse square root, computed again. -/
abbrev opsH : List (HloOp τ sig (Elt F)) :=
  [ StableHlo.nullary main_cst_10 (constant S_ .f32 0x00000000#32),
    StableHlo.unary main_cst_10 main_v51 (broadcastInDim S180224 ![] bcast_S_S180224 : (⟨S_, .f32⟩ : BufTy).Contents (Elt F) → (⟨S180224, .f32⟩ : BufTy).Contents (Elt F)),
    StableHlo.unary main_v6 main_v52 (broadcastInDim S1622016x1 ![0] bcast_S1622016_S1622016x1_0 : (⟨S1622016, .i32⟩ : BufTy).Contents (Elt F) → (⟨S1622016x1, .i32⟩ : BufTy).Contents (Elt F)),
    StableHlo.ternary main_v51 main_v52 main_v8 main_v53 ((fun x i u => Host.scatterAdd scatter_S180224_S1622016x1_S1622016_n_0_0_1 x i u) : (⟨S180224, .f32⟩ : BufTy).Contents (Elt F) → (⟨S1622016x1, .i32⟩ : BufTy).Contents (Elt F) → (⟨S1622016, .f32⟩ : BufTy).Contents (Elt F) → (⟨S180224, .f32⟩ : BufTy).Contents (Elt F)),
    StableHlo.nullary main_cst_11 (constant S_ .f32 0x00000000#32),
    StableHlo.unary main_cst_11 main_v54 (broadcastInDim S180224 ![] bcast_S_S180224 : (⟨S_, .f32⟩ : BufTy).Contents (Elt F) → (⟨S180224, .f32⟩ : BufTy).Contents (Elt F)),
    StableHlo.binary main_v53 main_v54 main_v55 (cmpf .ogt : (⟨S180224, .f32⟩ : BufTy).Contents (Elt F) → (⟨S180224, .f32⟩ : BufTy).Contents (Elt F) → (⟨S180224, .i1⟩ : BufTy).Contents (Elt F)),
    StableHlo.unary main_v53 main_v56 (Host.rsqrt : (⟨S180224, .f32⟩ : BufTy).Contents (Elt F) → (⟨S180224, .f32⟩ : BufTy).Contents (Elt F)),
    StableHlo.nullary main_cst_12 (constant S_ .f32 0x00000000#32),
    StableHlo.TRef.unary (.of main_cst_12 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S180224, .f32⟩) (broadcastInDim S180224 ![] bcast_S_S180224),
    StableHlo.TRef.ternary (.of main_v55 : StableHlo.TRef sig ⟨S180224, .i1⟩) (.of main_v56 : StableHlo.TRef sig ⟨S180224, .f32⟩) (.of main_call2_v1 : StableHlo.TRef sig ⟨S180224, .f32⟩) (.of main_v57 : StableHlo.TRef sig ⟨S180224, .f32⟩) select ]

/-- 20 operations: the normalisation, computed again. -/
abbrev opsI : List (HloOp τ sig (Elt F)) :=
  [ StableHlo.nullary main_c_13 (constantI S_ 32 0#32),
    StableHlo.unary main_c_13 main_v58 (broadcastInDim S1622016 ![] bcast_S_S1622016 : (⟨S_, .i32⟩ : BufTy).Contents (Elt F) → (⟨S1622016, .i32⟩ : BufTy).Contents (Elt F)),
    StableHlo.binary main_v3 main_v58 main_v59 (cmpi .slt : (⟨S1622016, .i32⟩ : BufTy).Contents (Elt F) → (⟨S1622016, .i32⟩ : BufTy).Contents (Elt F) → (⟨S1622016, .i1⟩ : BufTy).Contents (Elt F)),
    StableHlo.nullary main_c_14 (constantI S_ 32 180224#32),
    StableHlo.unary main_c_14 main_v60 (broadcastInDim S1622016 ![] bcast_S_S1622016 : (⟨S_, .i32⟩ : BufTy).Contents (Elt F) → (⟨S1622016, .i32⟩ : BufTy).Contents (Elt F)),
    StableHlo.binary main_v3 main_v60 main_v61 (addi : (⟨S1622016, .i32⟩ : BufTy).Contents (Elt F) → (⟨S1622016, .i32⟩ : BufTy).Contents (Elt F) → (⟨S1622016, .i32⟩ : BufTy).Contents (Elt F)),
    StableHlo.ternary main_v59 main_v61 main_v3 main_v62 (select : (⟨S1622016, .i1⟩ : BufTy).Contents (Elt F) → (⟨S1622016, .i32⟩ : BufTy).Contents (Elt F) → (⟨S1622016, .i32⟩ : BufTy).Contents (Elt F) → (⟨S1622016, .i32⟩ : BufTy).Contents (Elt F)),
    StableHlo.unary main_v62 main_v63 (broadcastInDim S1622016x1 ![0] bcast_S1622016_S1622016x1_0 : (⟨S1622016, .i32⟩ : BufTy).Contents (Elt F) → (⟨S1622016x1, .i32⟩ : BufTy).Contents (Elt F)),
    StableHlo.binary main_v57 main_v63 main_v64 ((fun x i => Host.gather gather_S180224_S1622016x1_S1622016_n_0_n_n_0_1_1 x i) : (⟨S180224, .f32⟩ : BufTy).Contents (Elt F) → (⟨S1622016x1, .i32⟩ : BufTy).Contents (Elt F) → (⟨S1622016, .f32⟩ : BufTy).Contents (Elt F)),
    StableHlo.binary main_v64 main_v8 main_v65 (mulf : (⟨S1622016, .f32⟩ : BufTy).Contents (Elt F) → (⟨S1622016, .f32⟩ : BufTy).Contents (Elt F) → (⟨S1622016, .f32⟩ : BufTy).Contents (Elt F)),
    StableHlo.nullary main_c_15 (constantI S_ 32 0#32),
    StableHlo.unary main_c_15 main_v66 (broadcastInDim S1622016 ![] bcast_S_S1622016 : (⟨S_, .i32⟩ : BufTy).Contents (Elt F) → (⟨S1622016, .i32⟩ : BufTy).Contents (Elt F)),
    StableHlo.binary main_v6 main_v66 main_v67 (cmpi .slt : (⟨S1622016, .i32⟩ : BufTy).Contents (Elt F) → (⟨S1622016, .i32⟩ : BufTy).Contents (Elt F) → (⟨S1622016, .i1⟩ : BufTy).Contents (Elt F)),
    StableHlo.nullary main_c_16 (constantI S_ 32 180224#32),
    StableHlo.unary main_c_16 main_v68 (broadcastInDim S1622016 ![] bcast_S_S1622016 : (⟨S_, .i32⟩ : BufTy).Contents (Elt F) → (⟨S1622016, .i32⟩ : BufTy).Contents (Elt F)),
    StableHlo.binary main_v6 main_v68 main_v69 (addi : (⟨S1622016, .i32⟩ : BufTy).Contents (Elt F) → (⟨S1622016, .i32⟩ : BufTy).Contents (Elt F) → (⟨S1622016, .i32⟩ : BufTy).Contents (Elt F)),
    StableHlo.ternary main_v67 main_v69 main_v6 main_v70 (select : (⟨S1622016, .i1⟩ : BufTy).Contents (Elt F) → (⟨S1622016, .i32⟩ : BufTy).Contents (Elt F) → (⟨S1622016, .i32⟩ : BufTy).Contents (Elt F) → (⟨S1622016, .i32⟩ : BufTy).Contents (Elt F)),
    StableHlo.unary main_v70 main_v71 (broadcastInDim S1622016x1 ![0] bcast_S1622016_S1622016x1_0 : (⟨S1622016, .i32⟩ : BufTy).Contents (Elt F) → (⟨S1622016x1, .i32⟩ : BufTy).Contents (Elt F)),
    StableHlo.binary main_v57 main_v71 main_v72 ((fun x i => Host.gather gather_S180224_S1622016x1_S1622016_n_0_n_n_0_1_1 x i) : (⟨S180224, .f32⟩ : BufTy).Contents (Elt F) → (⟨S1622016x1, .i32⟩ : BufTy).Contents (Elt F) → (⟨S1622016, .f32⟩ : BufTy).Contents (Elt F)),
    StableHlo.binary main_v65 main_v72 main_v73 (mulf : (⟨S1622016, .f32⟩ : BufTy).Contents (Elt F) → (⟨S1622016, .f32⟩ : BufTy).Contents (Elt F) → (⟨S1622016, .f32⟩ : BufTy).Contents (Elt F)) ]

/-- 19 operations: the second convolution. -/
abbrev opsJ : List (HloOp τ sig (Elt F)) :=
  [ StableHlo.unary main_v73 main_v74 (broadcastInDim S1622016x1 ![0] bcast_S1622016_S1622016x1_0 : (⟨S1622016, .f32⟩ : BufTy).Contents (Elt F) → (⟨S1622016x1, .f32⟩ : BufTy).Contents (Elt F)),
    StableHlo.nullary main_c_17 (constantI S_ 32 0#32),
    StableHlo.unary main_c_17 main_v75 (broadcastInDim S1622016 ![] bcast_S_S1622016 : (⟨S_, .i32⟩ : BufTy).Contents (Elt F) → (⟨S1622016, .i32⟩ : BufTy).Contents (Elt F)),
    StableHlo.binary main_v3 main_v75 main_v76 (cmpi .slt : (⟨S1622016, .i32⟩ : BufTy).Contents (Elt F) → (⟨S1622016, .i32⟩ : BufTy).Contents (Elt F) → (⟨S1622016, .i1⟩ : BufTy).Contents (Elt F)),
    StableHlo.nullary main_c_18 (constantI S_ 32 180224#32),
    StableHlo.unary main_c_18 main_v77 (broadcastInDim S1622016 ![] bcast_S_S1622016 : (⟨S_, .i32⟩ : BufTy).Contents (Elt F) → (⟨S1622016, .i32⟩ : BufTy).Contents (Elt F)),
    StableHlo.binary main_v3 main_v77 main_v78 (addi : (⟨S1622016, .i32⟩ : BufTy).Contents (Elt F) → (⟨S1622016, .i32⟩ : BufTy).Contents (Elt F) → (⟨S1622016, .i32⟩ : BufTy).Contents (Elt F)),
    StableHlo.ternary main_v76 main_v78 main_v3 main_v79 (select : (⟨S1622016, .i1⟩ : BufTy).Contents (Elt F) → (⟨S1622016, .i32⟩ : BufTy).Contents (Elt F) → (⟨S1622016, .i32⟩ : BufTy).Contents (Elt F) → (⟨S1622016, .i32⟩ : BufTy).Contents (Elt F)),
    StableHlo.unary main_v79 main_v80 (broadcastInDim S1622016x1 ![0] bcast_S1622016_S1622016x1_0 : (⟨S1622016, .i32⟩ : BufTy).Contents (Elt F) → (⟨S1622016x1, .i32⟩ : BufTy).Contents (Elt F)),
    StableHlo.binary main_v50 main_v80 main_v81 ((fun x i => Host.gather gather_S180224x128_S1622016x1_S1622016x128_1_0_n_n_0_1_1128 x i) : (⟨S180224x128, .f32⟩ : BufTy).Contents (Elt F) → (⟨S1622016x1, .i32⟩ : BufTy).Contents (Elt F) → (⟨S1622016x128, .f32⟩ : BufTy).Contents (Elt F)),
    StableHlo.unary main_v74 main_v82 (broadcastInDim S1622016x128 ![0, 1] bcast_S1622016x1_S1622016x128_0_1 : (⟨S1622016x1, .f32⟩ : BufTy).Contents (Elt F) → (⟨S1622016x128, .f32⟩ : BufTy).Contents (Elt F)),
    StableHlo.binary main_v82 main_v81 main_v83 (mulf : (⟨S1622016x128, .f32⟩ : BufTy).Contents (Elt F) → (⟨S1622016x128, .f32⟩ : BufTy).Contents (Elt F) → (⟨S1622016x128, .f32⟩ : BufTy).Contents (Elt F)),
    StableHlo.nullary main_cst_19 (constant S_ .f32 0x00000000#32),
    StableHlo.unary main_cst_19 main_v84 (broadcastInDim S180224x128 ![] bcast_S_S180224x128 : (⟨S_, .f32⟩ : BufTy).Contents (Elt F) → (⟨S180224x128, .f32⟩ : BufTy).Contents (Elt F)),
    StableHlo.unary main_v6 main_v85 (broadcastInDim S1622016x1 ![0] bcast_S1622016_S1622016x1_0 : (⟨S1622016, .i32⟩ : BufTy).Contents (Elt F) → (⟨S1622016x1, .i32⟩ : BufTy).Contents (Elt F)),
    StableHlo.ternary main_v84 main_v85 main_v83 main_v86 ((fun x i u => Host.scatterAdd scatter_S180224x128_S1622016x1_S1622016x128_1_0_0_1 x i u) : (⟨S180224x128, .f32⟩ : BufTy).Contents (Elt F) → (⟨S1622016x1, .i32⟩ : BufTy).Contents (Elt F) → (⟨S1622016x128, .f32⟩ : BufTy).Contents (Elt F) → (⟨S180224x128, .f32⟩ : BufTy).Contents (Elt F)),
    StableHlo.unary main_arg6 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S180224x128 ![0, 1] bcast_S1x128_S180224x128_0_1 : (⟨S1x128, .f32⟩ : BufTy).Contents (Elt F) → (⟨S180224x128, .f32⟩ : BufTy).Contents (Elt F)),
    StableHlo.binary main_v86 main_v88 main_v89 (addf : (⟨S180224x128, .f32⟩ : BufTy).Contents (Elt F) → (⟨S180224x128, .f32⟩ : BufTy).Contents (Elt F) → (⟨S180224x128, .f32⟩ : BufTy).Contents (Elt F)) ]

/-- 13 operations: the graphs' rows laid side by side, the head's first layer with its rectifier. -/
abbrev opsK : List (HloOp τ sig (Elt F)) :=
  [ StableHlo.reshape main_v89 main_v90 rfl shapeCasts_S180224x128_S8192x2816,
    StableHlo.binary main_v90 main_arg7 main_v91 ((fun l r => Host.dotGeneral dot_S8192x2816_S2816x128_S8192x128_1_0_0_1_n_n none l r) : (⟨S8192x2816, .f32⟩ : BufTy).Contents (Elt F) → (⟨S2816x128, .f32⟩ : BufTy).Contents (Elt F) → (⟨S8192x128, .f32⟩ : BufTy).Contents (Elt F)),
    StableHlo.unary main_arg8 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S8192x128 ![0, 1] bcast_S1x128_S8192x128_0_1 : (⟨S1x128, .f32⟩ : BufTy).Contents (Elt F) → (⟨S8192x128, .f32⟩ : BufTy).Contents (Elt F)),
    StableHlo.binary main_v91 main_v93 main_v94 (addf : (⟨S8192x128, .f32⟩ : BufTy).Contents (Elt F) → (⟨S8192x128, .f32⟩ : BufTy).Contents (Elt F) → (⟨S8192x128, .f32⟩ : BufTy).Contents (Elt F)),
    StableHlo.nullary main_cst_20 (constant S_ .f32 0x3C23D70A#32),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S8192x128, .f32⟩) (broadcastInDim S8192x128 ![] bcast_S_S8192x128),
    StableHlo.TRef.binary (.of main_v94 : StableHlo.TRef sig ⟨S8192x128, .f32⟩) (.of main_call3_v0 : StableHlo.TRef sig ⟨S8192x128, .f32⟩) (.of main_call3_v1 : StableHlo.TRef sig ⟨S8192x128, .i1⟩) (cmpf .oge),
    StableHlo.TRef.unary (.of main_cst_20 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S8192x128, .f32⟩) (broadcastInDim S8192x128 ![] bcast_S_S8192x128),
    StableHlo.TRef.binary (.of main_call3_v3 : StableHlo.TRef sig ⟨S8192x128, .f32⟩) (.of main_v94 : StableHlo.TRef sig ⟨S8192x128, .f32⟩) (.of main_call3_v4 : StableHlo.TRef sig ⟨S8192x128, .f32⟩) mulf,
    StableHlo.TRef.ternary (.of main_call3_v1 : StableHlo.TRef sig ⟨S8192x128, .i1⟩) (.of main_v94 : StableHlo.TRef sig ⟨S8192x128, .f32⟩) (.of main_call3_v4 : StableHlo.TRef sig ⟨S8192x128, .f32⟩) (.of main_v95 : StableHlo.TRef sig ⟨S8192x128, .f32⟩) select ]

/-- 12 operations: the head's second layer with its rectifier. -/
abbrev opsL : List (HloOp τ sig (Elt F)) :=
  [ StableHlo.binary main_v95 main_arg9 main_v96 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.unary main_arg10 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S8192x128 ![0, 1] bcast_S1x128_S8192x128_0_1 : (⟨S1x128, .f32⟩ : BufTy).Contents (Elt F) → (⟨S8192x128, .f32⟩ : BufTy).Contents (Elt F)),
    StableHlo.binary main_v96 main_v98 main_v99 (addf : (⟨S8192x128, .f32⟩ : BufTy).Contents (Elt F) → (⟨S8192x128, .f32⟩ : BufTy).Contents (Elt F) → (⟨S8192x128, .f32⟩ : BufTy).Contents (Elt F)),
    StableHlo.nullary main_cst_21 (constant S_ .f32 0x3C23D70A#32),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S8192x128, .f32⟩) (broadcastInDim S8192x128 ![] bcast_S_S8192x128),
    StableHlo.TRef.binary (.of main_v99 : StableHlo.TRef sig ⟨S8192x128, .f32⟩) (.of main_call4_v0 : StableHlo.TRef sig ⟨S8192x128, .f32⟩) (.of main_call4_v1 : StableHlo.TRef sig ⟨S8192x128, .i1⟩) (cmpf .oge),
    StableHlo.TRef.unary (.of main_cst_21 : StableHlo.TRef sig ⟨S_, .f32⟩) (.of main_call4_v2 : StableHlo.TRef sig ⟨S_, .f32⟩) id,
    StableHlo.TRef.unary (.of main_call4_v2 : StableHlo.TRef sig ⟨S_, .f32⟩) (.of main_call4_v3 : StableHlo.TRef sig ⟨S8192x128, .f32⟩) (broadcastInDim S8192x128 ![] bcast_S_S8192x128),
    StableHlo.TRef.binary (.of main_call4_v3 : StableHlo.TRef sig ⟨S8192x128, .f32⟩) (.of main_v99 : StableHlo.TRef sig ⟨S8192x128, .f32⟩) (.of main_call4_v4 : StableHlo.TRef sig ⟨S8192x128, .f32⟩) mulf,
    StableHlo.TRef.ternary (.of main_call4_v1 : StableHlo.TRef sig ⟨S8192x128, .i1⟩) (.of main_v99 : StableHlo.TRef sig ⟨S8192x128, .f32⟩) (.of main_call4_v4 : StableHlo.TRef sig ⟨S8192x128, .f32⟩) (.of main_v100 : StableHlo.TRef sig ⟨S8192x128, .f32⟩) select ]

/-- 11 operations: the head's last layer: tanh (z Wout + bout) * 90 + 150. -/
abbrev opsM : List (HloOp τ sig (Elt F)) :=
  [ StableHlo.binary main_v100 main_arg11 main_v101 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    StableHlo.unary main_arg12 main_v102 (broadcastInDim S1x1 ![1] bcast_S1_S1x1_1 : (⟨S1, .f32⟩ : BufTy).Contents (Elt F) → (⟨S1x1, .f32⟩ : BufTy).Contents (Elt F)),
    StableHlo.unary main_v102 main_v103 (broadcastInDim S8192x1 ![0, 1] bcast_S1x1_S8192x1_0_1 : (⟨S1x1, .f32⟩ : BufTy).Contents (Elt F) → (⟨S8192x1, .f32⟩ : BufTy).Contents (Elt F)),
    StableHlo.binary main_v101 main_v103 main_v104 (addf : (⟨S8192x1, .f32⟩ : BufTy).Contents (Elt F) → (⟨S8192x1, .f32⟩ : BufTy).Contents (Elt F) → (⟨S8192x1, .f32⟩ : BufTy).Contents (Elt F)),
    StableHlo.unary main_v104 main_v105 (Host.tanh : (⟨S8192x1, .f32⟩ : BufTy).Contents (Elt F) → (⟨S8192x1, .f32⟩ : BufTy).Contents (Elt F)),
    StableHlo.nullary main_cst_22 (constant S_ .f32 0x42B40000#32),
    StableHlo.unary main_cst_22 main_v106 (broadcastInDim S8192x1 ![] bcast_S_S8192x1 : (⟨S_, .f32⟩ : BufTy).Contents (Elt F) → (⟨S8192x1, .f32⟩ : BufTy).Contents (Elt F)),
    StableHlo.binary main_v105 main_v106 main_v107 (mulf : (⟨S8192x1, .f32⟩ : BufTy).Contents (Elt F) → (⟨S8192x1, .f32⟩ : BufTy).Contents (Elt F) → (⟨S8192x1, .f32⟩ : BufTy).Contents (Elt F)),
    StableHlo.nullary main_cst_23 (constant S_ .f32 0x43160000#32),
    StableHlo.unary main_cst_23 main_v108 (broadcastInDim S8192x1 ![] bcast_S_S8192x1 : (⟨S_, .f32⟩ : BufTy).Contents (Elt F) → (⟨S8192x1, .f32⟩ : BufTy).Contents (Elt F)),
    StableHlo.binary main_v107 main_v108 main_v109 (addf : (⟨S8192x1, .f32⟩ : BufTy).Contents (Elt F) → (⟨S8192x1, .f32⟩ : BufTy).Contents (Elt F) → (⟨S8192x1, .f32⟩ : BufTy).Contents (Elt F)) ]

/-- @main's 158 operations, in order. -/
abbrev ops : List (HloOp τ sig (Elt F)) :=
  opsA ++ opsB ++ opsC ++ opsD ++ opsE ++ opsF ++ opsG ++ opsH ++ opsI ++ opsJ ++ opsK ++ opsL ++ opsM

end Cert.ReferenceIdeal.RefRun

end
-- ==== Proof.RefRun.lean ====
/- The reference program's run, read back: @main is the straight line of its 158 host operations (the module-local
   functions' bodies standing at their calls), so every weakly fair execution terminates with each TensorCore buffer
   at the fold of the operations' results over the launch contents. -/
import proofs.«116987_j64750926955165_1_alg».proof.Proof.RefOps
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem

variable {F : FTy → Type} [FloatOps F]

/-! ## A property of every element of two lists holds of every element of their concatenation -/

theorem forall_append {α : Type*} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-! ## @main is the line of its operations

@main is printed in three windows of sixty statements. The second window ends one operation into the head's second
layer, so that stretch is cut there: its first operation, and the other eleven. -/

/-- The first operation of the head's second layer: the product with its weights. -/
abbrev opsL0 : List (HloOp τ sig (Elt F)) :=
  [ StableHlo.binary main_v95 main_arg9 main_v96 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)) ]

/-- The other eleven operations of the head's second layer: the bias and the rectifier. -/
abbrev opsL1 : List (HloOp τ sig (Elt F)) :=
  [ StableHlo.unary main_arg10 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S8192x128 ![0, 1] bcast_S1x128_S8192x128_0_1 : (⟨S1x128, .f32⟩ : BufTy).Contents (Elt F) → (⟨S8192x128, .f32⟩ : BufTy).Contents (Elt F)),
    StableHlo.binary main_v96 main_v98 main_v99 (addf : (⟨S8192x128, .f32⟩ : BufTy).Contents (Elt F) → (⟨S8192x128, .f32⟩ : BufTy).Contents (Elt F) → (⟨S8192x128, .f32⟩ : BufTy).Contents (Elt F)),
    StableHlo.nullary main_cst_21 (constant S_ .f32 0x3C23D70A#32),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S8192x128, .f32⟩) (broadcastInDim S8192x128 ![] bcast_S_S8192x128),
    StableHlo.TRef.binary (.of main_v99 : StableHlo.TRef sig ⟨S8192x128, .f32⟩) (.of main_call4_v0 : StableHlo.TRef sig ⟨S8192x128, .f32⟩) (.of main_call4_v1 : StableHlo.TRef sig ⟨S8192x128, .i1⟩) (cmpf .oge),
    StableHlo.TRef.unary (.of main_cst_21 : StableHlo.TRef sig ⟨S_, .f32⟩) (.of main_call4_v2 : StableHlo.TRef sig ⟨S_, .f32⟩) id,
    StableHlo.TRef.unary (.of main_call4_v2 : StableHlo.TRef sig ⟨S_, .f32⟩) (.of main_call4_v3 : StableHlo.TRef sig ⟨S8192x128, .f32⟩) (broadcastInDim S8192x128 ![] bcast_S_S8192x128),
    StableHlo.TRef.binary (.of main_call4_v3 : StableHlo.TRef sig ⟨S8192x128, .f32⟩) (.of main_v99 : StableHlo.TRef sig ⟨S8192x128, .f32⟩) (.of main_call4_v4 : StableHlo.TRef sig ⟨S8192x128, .f32⟩) mulf,
    StableHlo.TRef.ternary (.of main_call4_v1 : StableHlo.TRef sig ⟨S8192x128, .i1⟩) (.of main_v99 : StableHlo.TRef sig ⟨S8192x128, .f32⟩) (.of main_call4_v4 : StableHlo.TRef sig ⟨S8192x128, .f32⟩) (.of main_v100 : StableHlo.TRef sig ⟨S8192x128, .f32⟩) select ]

theorem opsL_eq : (opsL : List (HloOp τ sig (Elt F))) = opsL0 ++ opsL1 := rfl

set_option maxRecDepth 8192 in
set_option maxHeartbeats 4000000 in
/-- The first window (statements 1 … 60): the called function's definition unfolds at its call and sequencing
    reassociates by computation, leaving the same chain of steps on both sides. -/
theorem part0_eq (d : Dev nD) : main_part0 (F := F) d = StableHlo.seq (opsA ++ opsB ++ opsC ++ opsD ++ opsE) := rfl

set_option maxRecDepth 8192 in
set_option maxHeartbeats 4000000 in
/-- The second window (statements 61 … 120), likewise. -/
theorem part1_eq (d : Dev nD) : main_part1 (F := F) d = StableHlo.seq (opsF ++ opsG ++ opsH ++ opsI ++ opsJ ++ opsK ++ opsL0) := rfl

set_option maxRecDepth 8192 in
set_option maxHeartbeats 4000000 in
/-- The third window (statements 121 … 137), likewise. -/
theorem part2_eq (d : Dev nD) : main_part2 (F := F) d = StableHlo.seq (opsL1 ++ opsM) := rfl

/-- The thirteen stretches, regrouped window by window: concatenation is associative. -/
theorem ops_eq : (ops : List (HloOp τ sig (Elt F))) = (opsA ++ opsB ++ opsC ++ opsD ++ opsE) ++ ((opsF ++ opsG ++ opsH ++ opsI ++ opsJ ++ opsK ++ opsL0) ++ (opsL1 ++ opsM)) := by
  show opsA ++ opsB ++ opsC ++ opsD ++ opsE ++ opsF ++ opsG ++ opsH ++ opsI ++ opsJ ++ opsK ++ (opsL0 ++ opsL1) ++ opsM = _
  simp only [List.append_assoc]

/-- @main runs its three windows in order, each the line of its operations; lines run one after the other are
    their concatenation run as one (`seq_append`). -/
theorem main_eq (d : Dev nD) : main (F := F) d = StableHlo.seq (ops (F := F)) := by
  rw [ops_eq, StableHlo.seq_append (opsA ++ opsB ++ opsC ++ opsD ++ opsE) ((opsF ++ opsG ++ opsH ++ opsI ++ opsJ ++ opsK ++ opsL0) ++ (opsL1 ++ opsM)),
    StableHlo.seq_append (opsF ++ opsG ++ opsH ++ opsI ++ opsJ ++ opsK ++ opsL0) (opsL1 ++ opsM),
    ← part0_eq d, ← part1_eq d, ← part2_eq d]
  rfl

theorem scopedRefs_eq : (Finset.univ.filter fun b : Ref sig .tc => b.isScoped) = ∅ := by decide
theorem scopedSems_eq : (Finset.univ.filter fun sm : SemLoc sig => sm.isScoped .tc) = ∅ := by decide

/-! ## What the operations touch, stretch by stretch -/

/-- Every operation of the endpoints and weights touches TensorCore references only. -/
theorem opsA_sub : (opsA : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub ..,
    StableHlo.reshape_bufs_sub .., StableHlo.binary_bufs_sub .., StableHlo.nullary_bufs_sub .., StableHlo.unary_bufs_sub .., StableHlo.binary_bufs_sub ..⟩
/-- No operation of the endpoints and weights allocates a buffer. -/
theorem opsA_fresh : (opsA : List (HloOp τ sig (Elt F))).Forall fun op => op.fresh = ∅ := by
  simp only [List.Forall]; repeat' constructor

/-- Every operation of the first product touches TensorCore references only. -/
theorem opsB_sub : (opsB : List (HloOp τ sig (Elt F))).Forall fun op => op.bufs ⊆ StableHlo.tcRefs τ sig :=
  StableHlo.binary_bufs_sub ..
/-- No operation of the first product allocates a buffer. -/
theorem opsB_fresh : (opsB : List (HloOp τ sig (Elt F))).Forall fun op => op.fresh = ∅ := by
  simp only [List.Forall]; repeat' constructor

/-- Every operation of the in-degree stage touches TensorCore references only. -/
theorem opsC_sub : (opsC : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub ..,
    StableHlo.unary_bufs_sub .., StableHlo.binary_bufs_sub .., StableHlo.unary_bufs_sub .., StableHlo.nullary_bufs_sub .., StableHlo.unary_bufs_sub ..,
    StableHlo.unary_bufs_sub .., StableHlo.ternary_bufs_sub ..⟩
/-- No operation of the in-degree stage allocates a buffer. -/
theorem opsC_fresh : (opsC : List (HloOp τ sig (Elt F))).Forall fun op => op.fresh = ∅ := by
  simp only [List.Forall]; repeat' constructor

/-- Every operation of the normalisation touches TensorCore references only. -/
theorem opsD_sub : (opsD : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.binary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.binary_bufs_sub ..⟩
/-- No operation of the normalisation allocates a buffer. -/
theorem opsD_fresh : (opsD : List (HloOp τ sig (Elt F))).Forall fun op => op.fresh = ∅ := by
  simp only [List.Forall]; repeat' constructor

/-- Every operation of the first convolution touches TensorCore references only. -/
theorem opsE_sub : (opsE : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub ..,
    StableHlo.unary_bufs_sub .., StableHlo.binary_bufs_sub .., StableHlo.nullary_bufs_sub .., StableHlo.unary_bufs_sub .., StableHlo.unary_bufs_sub ..,
    StableHlo.ternary_bufs_sub .., StableHlo.unary_bufs_sub .., StableHlo.unary_bufs_sub .., StableHlo.binary_bufs_sub ..⟩
/-- No operation of the first convolution allocates a buffer. -/
theorem opsE_fresh : (opsE : List (HloOp τ sig (Elt F))).Forall fun op => op.fresh = ∅ := by
  simp only [List.Forall]; repeat' constructor

/-- Every operation of the first rectifier touches TensorCore references only. -/
theorem opsF_sub : (opsF : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub ..,
    StableHlo.unary_bufs_sub .., StableHlo.binary_bufs_sub .., StableHlo.ternary_bufs_sub ..⟩
/-- No operation of the first rectifier allocates a buffer. -/
theorem opsF_fresh : (opsF : List (HloOp τ sig (Elt F))).Forall fun op => op.fresh = ∅ := by
  simp only [List.Forall]; repeat' constructor

/-- Every operation of the second product touches TensorCore references only. -/
theorem opsG_sub : (opsG : List (HloOp τ sig (Elt F))).Forall fun op => op.bufs ⊆ StableHlo.tcRefs τ sig :=
  StableHlo.binary_bufs_sub ..
/-- No operation of the second product allocates a buffer. -/
theorem opsG_fresh : (opsG : List (HloOp τ sig (Elt F))).Forall fun op => op.fresh = ∅ := by
  simp only [List.Forall]; repeat' constructor

/-- Every operation of the second in-degree stage touches TensorCore references only. -/
theorem opsH_sub : (opsH : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub ..,
    StableHlo.unary_bufs_sub .., StableHlo.binary_bufs_sub .., StableHlo.unary_bufs_sub .., StableHlo.nullary_bufs_sub .., StableHlo.unary_bufs_sub ..,
    StableHlo.unary_bufs_sub .., StableHlo.ternary_bufs_sub ..⟩
/-- No operation of the second in-degree stage allocates a buffer. -/
theorem opsH_fresh : (opsH : List (HloOp τ sig (Elt F))).Forall fun op => op.fresh = ∅ := by
  simp only [List.Forall]; repeat' constructor

/-- Every operation of the second normalisation touches TensorCore references only. -/
theorem opsI_sub : (opsI : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.binary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.binary_bufs_sub ..⟩
/-- No operation of the second normalisation allocates a buffer. -/
theorem opsI_fresh : (opsI : List (HloOp τ sig (Elt F))).Forall fun op => op.fresh = ∅ := by
  simp only [List.Forall]; repeat' constructor

/-- Every operation of the second convolution touches TensorCore references only. -/
theorem opsJ_sub : (opsJ : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub ..,
    StableHlo.unary_bufs_sub .., StableHlo.binary_bufs_sub .., StableHlo.nullary_bufs_sub .., StableHlo.unary_bufs_sub .., StableHlo.unary_bufs_sub ..,
    StableHlo.ternary_bufs_sub .., StableHlo.unary_bufs_sub .., StableHlo.unary_bufs_sub .., StableHlo.binary_bufs_sub ..⟩
/-- No operation of the second convolution allocates a buffer. -/
theorem opsJ_fresh : (opsJ : List (HloOp τ sig (Elt F))).Forall fun op => op.fresh = ∅ := by
  simp only [List.Forall]; repeat' constructor

/-- Every operation of the head's first layer touches TensorCore references only. -/
theorem opsK_sub : (opsK : List (HloOp τ sig (Elt F))).Forall fun op => op.bufs ⊆ StableHlo.tcRefs τ sig :=
  ⟨StableHlo.reshape_bufs_sub .., StableHlo.binary_bufs_sub .., StableHlo.unary_bufs_sub .., StableHlo.unary_bufs_sub .., StableHlo.binary_bufs_sub ..,
    StableHlo.nullary_bufs_sub .., StableHlo.nullary_bufs_sub .., StableHlo.unary_bufs_sub .., StableHlo.binary_bufs_sub .., StableHlo.unary_bufs_sub ..,
    StableHlo.unary_bufs_sub .., StableHlo.binary_bufs_sub .., StableHlo.ternary_bufs_sub ..⟩
/-- No operation of the head's first layer allocates a buffer. -/
theorem opsK_fresh : (opsK : List (HloOp τ sig (Elt F))).Forall fun op => op.fresh = ∅ := by
  simp only [List.Forall]; repeat' constructor

/-- Every operation of the head's second layer touches TensorCore references only. -/
theorem opsL_sub : (opsL : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub ..,
    StableHlo.nullary_bufs_sub .., StableHlo.unary_bufs_sub .., StableHlo.binary_bufs_sub .., StableHlo.unary_bufs_sub .., StableHlo.unary_bufs_sub ..,
    StableHlo.binary_bufs_sub .., StableHlo.ternary_bufs_sub ..⟩
/-- No operation of the head's second layer allocates a buffer. -/
theorem opsL_fresh : (opsL : List (HloOp τ sig (Elt F))).Forall fun op => op.fresh = ∅ := by
  simp only [List.Forall]; repeat' constructor

/-- Every operation of the head's last layer touches TensorCore references only. -/
theorem opsM_sub : (opsM : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub ..,
    StableHlo.nullary_bufs_sub .., StableHlo.unary_bufs_sub .., StableHlo.binary_bufs_sub .., StableHlo.nullary_bufs_sub .., StableHlo.unary_bufs_sub ..,
    StableHlo.binary_bufs_sub ..⟩
/-- No operation of the head's last layer allocates a buffer. -/
theorem opsM_fresh : (opsM : List (HloOp τ sig (Elt F))).Forall fun op => op.fresh = ∅ := by
  simp only [List.Forall]; repeat' constructor

/-- Every operation of @main touches TensorCore references only. -/
theorem ops_sub : (ops : List (HloOp τ sig (Elt F))).Forall fun op => op.bufs ⊆ StableHlo.tcRefs τ sig :=
  (forall_append (forall_append (forall_append (forall_append (forall_append (forall_append (forall_append (forall_append (forall_append (forall_append (forall_append (forall_append opsA_sub opsB_sub) opsC_sub) opsD_sub) opsE_sub) opsF_sub) opsG_sub) opsH_sub) opsI_sub) opsJ_sub) opsK_sub) opsL_sub) opsM_sub)

/-- No operation of @main allocates a buffer. -/
theorem ops_fresh : (ops : List (HloOp τ sig (Elt F))).Forall fun op => op.fresh = ∅ :=
  (forall_append (forall_append (forall_append (forall_append (forall_append (forall_append (forall_append (forall_append (forall_append (forall_append (forall_append (forall_append opsA_fresh opsB_fresh) opsC_fresh) opsD_fresh) opsE_fresh) opsF_fresh) opsG_fresh) opsH_fresh) opsI_fresh) opsJ_fresh) opsK_fresh) opsL_fresh) opsM_fresh)

/-! ## The run -/

/-- On every device, for any float values, from any memory with zero counters: every weakly fair execution of @main on
    the TensorCores terminates, and every final state has each TensorCore buffer at the operations' fold over the
    launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after (ops (F := F)) (StableHlo.launchContents m d) (Proc.devRef .tc b) :=
  StableHlo.run_seq scopedRefs_eq scopedSems_eq defs main (fun _ => ops) main_eq (fun _ => ops_sub) m ρ
    (fun _ => List.forall_iff_forall_mem.mp ops_fresh)

end Cert.ReferenceIdeal.RefRun

end
-- ==== Proof.RefValue.lean ====
/-
  The value of the reference program's operation list, read back stage by stage.

  The reference's @main is 158 host operations, cut into thirteen consecutive stretches, one per stage of the network
  (the edge lists with their self loops, the first product, the degree and its inverse square root, the normalisation,
  the first convolution, the rectifier, the second product, the degree and the normalisation again, the second
  convolution, and the three layers of the head). Each stretch leaves, at the one buffer later stretches read, the named
  stage function of what it found at the buffers it reads, and leaves every buffer it does not write as it was. Composed
  in order, the result buffer holds the network of the thirteen arguments, and the arguments are unchanged.
-/
import proofs.«116987_j64750926955165_1_alg».proof.Proof.RefOps
import proofs.«116987_j64750926955165_1_alg».proof.Proof.Spec
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem
open Idealize.ShloMosaic.StableHlo Cert.ReferenceIdeal.RefRun Cert.Spec

/-- Running two lists of operations one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-! ## Typed references at literal buffers

A module-local function's operation moves its function between the value's type and the buffer's own type; at a literal
buffer the two types are the same and the move is the identity. -/

theorem toBuf_lit (r : Ref sig .tc) (h1 h2) (v : r.ty.Contents (Elt Ideal)) :
    (⟨r, rfl, h1, h2⟩ : TRef sig r.ty).toBuf (Val := Elt Ideal) v = v := rfl
theorem ofBuf_lit (r : Ref sig .tc) (h1 h2) (v : r.ty.Contents (Elt Ideal)) :
    (⟨r, rfl, h1, h2⟩ : TRef sig r.ty).ofBuf (Val := Elt Ideal) v = v := rfl

variable (W : Valuation τ sig (Elt Ideal))

/-! ## Stretch A: the edge endpoints with the self loops and the weights with the ones -/

/-- The buffer contents after stretch A, from contents `W`. -/
def runA (W : Valuation τ sig (Elt Ideal)) : Valuation τ sig (Elt Ideal) := after (opsA (F := Ideal)) W

/-- The buffers stretch A writes. -/
abbrev A_W : List (Ref sig .tc) := [main_v0, main_v1, main_v2, main_v3, main_v4, main_v5, main_v6, main_cst, main_v7, main_v8]

theorem A_writes : (opsA (F := Ideal) : List (HloOp τ sig (Elt Ideal))).Forall fun op => op.writes ⊆ (A_W.map (Proc.devRef (τ := τ) .tc)).toFinset := by
  have one : ∀ y : Ref sig .tc, y ∈ A_W → ({Proc.devRef .tc y} : Finset (DevRef τ sig)) ⊆ (A_W.map (Proc.devRef (τ := τ) .tc)).toFinset :=
    fun y hy => Finset.singleton_subset_iff.mpr (List.mem_toFinset.mpr (List.mem_map_of_mem hy))
  simp only [List.Forall]
  exact ⟨one main_v0 (by decide), one main_v1 (by decide), one main_v2 (by decide), one main_v3 (by decide), one main_v4 (by decide), one main_v5 (by decide), one main_v6 (by decide), one main_cst (by decide), one main_v7 (by decide), one main_v8 (by decide)⟩

/-- A buffer stretch A does not write keeps its contents through it. -/
theorem A_keep (r : Ref sig .tc) (h : r ∉ A_W) : runA W (no_index (Proc.devRef .tc r)) = W (Proc.devRef .tc r) :=
  after_of_writes_sub _ _ A_writes h

theorem A_v3 : runA W (no_index (Proc.devRef .tc main_v3)) = rowOf (W (Proc.devRef .tc main_arg1)) := by
  show after (opsA (F := Ideal)) W (Proc.devRef .tc main_v3) = _
  after_results_simp
  rfl

theorem A_v6 : runA W (no_index (Proc.devRef .tc main_v6)) = colOf (W (Proc.devRef .tc main_arg1)) := by
  show after (opsA (F := Ideal)) W (Proc.devRef .tc main_v6) = _
  after_results_simp
  rfl

theorem A_v8 : runA W (no_index (Proc.devRef .tc main_v8)) = ewOf (W (Proc.devRef .tc main_arg2)) := by
  show after (opsA (F := Ideal)) W (Proc.devRef .tc main_v8) = _
  after_results_simp
  rfl

/-! ## Stretch B: the node features times the first layer's weights -/

/-- The buffer contents after stretch B, from contents `W`. -/
def runB (W : Valuation τ sig (Elt Ideal)) : Valuation τ sig (Elt Ideal) := after (opsB (F := Ideal)) W

/-- The buffers stretch B writes. -/
abbrev B_W : List (Ref sig .tc) := [main_v9]

theorem B_writes : (opsB (F := Ideal) : List (HloOp τ sig (Elt Ideal))).Forall fun op => op.writes ⊆ (B_W.map (Proc.devRef (τ := τ) .tc)).toFinset := by
  have one : ∀ y : Ref sig .tc, y ∈ B_W → ({Proc.devRef .tc y} : Finset (DevRef τ sig)) ⊆ (B_W.map (Proc.devRef (τ := τ) .tc)).toFinset :=
    fun y hy => Finset.singleton_subset_iff.mpr (List.mem_toFinset.mpr (List.mem_map_of_mem hy))
  simp only [List.Forall]
  exact (one main_v9 (by decide))

/-- A buffer stretch B does not write keeps its contents through it. -/
theorem B_keep (r : Ref sig .tc) (h : r ∉ B_W) : runB W (no_index (Proc.devRef .tc r)) = W (Proc.devRef .tc r) :=
  after_of_writes_sub _ _ B_writes h

theorem B_v9 : runB W (no_index (Proc.devRef .tc main_v9)) = mm0 (W (Proc.devRef .tc main_arg0)) (W (Proc.devRef .tc main_arg3)) := by
  show after (opsB (F := Ideal)) W (Proc.devRef .tc main_v9) = _
  after_results
  rfl

/-! ## Stretch C: the weighted in-degree and its inverse square root where positive -/

/-- The buffer contents after stretch C, from contents `W`. -/
def runC (W : Valuation τ sig (Elt Ideal)) : Valuation τ sig (Elt Ideal) := after (opsC (F := Ideal)) W

/-- The buffers stretch C writes. -/
abbrev C_W : List (Ref sig .tc) := [main_cst_0, main_v10, main_v11, main_v12, main_cst_1, main_v13, main_v14, main_v15, main_cst_2, main_call0_v0, main_call0_v1, main_v16]

theorem C_writes : (opsC (F := Ideal) : List (HloOp τ sig (Elt Ideal))).Forall fun op => op.writes ⊆ (C_W.map (Proc.devRef (τ := τ) .tc)).toFinset := by
  have one : ∀ y : Ref sig .tc, y ∈ C_W → ({Proc.devRef .tc y} : Finset (DevRef τ sig)) ⊆ (C_W.map (Proc.devRef (τ := τ) .tc)).toFinset :=
    fun y hy => Finset.singleton_subset_iff.mpr (List.mem_toFinset.mpr (List.mem_map_of_mem hy))
  simp only [List.Forall]
  exact ⟨one main_cst_0 (by decide), one main_v10 (by decide), one main_v11 (by decide), one main_v12 (by decide), one main_cst_1 (by decide), one main_v13 (by decide), one main_v14 (by decide), one main_v15 (by decide), one main_cst_2 (by decide), one main_call0_v0 (by decide), one main_call0_v1 (by decide), one main_v16 (by decide)⟩

/-- A buffer stretch C does not write keeps its contents through it. -/
theorem C_keep (r : Ref sig .tc) (h : r ∉ C_W) : runC W (no_index (Proc.devRef .tc r)) = W (Proc.devRef .tc r) :=
  after_of_writes_sub _ _ C_writes h

theorem C_v16 : runC W (no_index (Proc.devRef .tc main_v16)) = dinvOf (degOf (W (Proc.devRef .tc main_v6)) (W (Proc.devRef .tc main_v8))) := by
  show after (opsC (F := Ideal)) W (Proc.devRef .tc main_v16) = _
  after_results_simp
  try rw [ofBuf_lit main_cst_2 (by decide) rfl]
  try rw [toBuf_lit main_cst_2 (by decide) rfl]
  try rw [ofBuf_lit main_call0_v0 (by decide) rfl]
  try rw [toBuf_lit main_call0_v0 (by decide) rfl]
  try rw [ofBuf_lit main_call0_v1 (by decide) rfl]
  try rw [toBuf_lit main_call0_v1 (by decide) rfl]
  try rw [ofBuf_lit main_v14 (by decide) rfl]
  try rw [toBuf_lit main_v14 (by decide) rfl]
  try rw [ofBuf_lit main_v15 (by decide) rfl]
  try rw [toBuf_lit main_v15 (by decide) rfl]
  try rw [ofBuf_lit main_v16 (by decide) rfl]
  try rw [toBuf_lit main_v16 (by decide) rfl]
  rfl

/-! ## Stretch D: the edges' normalisation -/

/-- The buffer contents after stretch D, from contents `W`. -/
def runD (W : Valuation τ sig (Elt Ideal)) : Valuation τ sig (Elt Ideal) := after (opsD (F := Ideal)) W

/-- The buffers stretch D writes. -/
abbrev D_W : List (Ref sig .tc) := [main_c, main_v17, main_v18, main_c_3, main_v19, main_v20, main_v21, main_v22, main_v23, main_v24, main_c_4, main_v25, main_v26, main_c_5, main_v27, main_v28, main_v29, main_v30, main_v31, main_v32]

theorem D_writes : (opsD (F := Ideal) : List (HloOp τ sig (Elt Ideal))).Forall fun op => op.writes ⊆ (D_W.map (Proc.devRef (τ := τ) .tc)).toFinset := by
  have one : ∀ y : Ref sig .tc, y ∈ D_W → ({Proc.devRef .tc y} : Finset (DevRef τ sig)) ⊆ (D_W.map (Proc.devRef (τ := τ) .tc)).toFinset :=
    fun y hy => Finset.singleton_subset_iff.mpr (List.mem_toFinset.mpr (List.mem_map_of_mem hy))
  simp only [List.Forall]
  exact ⟨one main_c (by decide), one main_v17 (by decide), one main_v18 (by decide), one main_c_3 (by decide), one main_v19 (by decide), one main_v20 (by decide), one main_v21 (by decide), one main_v22 (by decide), one main_v23 (by decide), one main_v24 (by decide), one main_c_4 (by decide), one main_v25 (by decide), one main_v26 (by decide), one main_c_5 (by decide), one main_v27 (by decide), one main_v28 (by decide), one main_v29 (by decide), one main_v30 (by decide), one main_v31 (by decide), one main_v32 (by decide)⟩

/-- A buffer stretch D does not write keeps its contents through it. -/
theorem D_keep (r : Ref sig .tc) (h : r ∉ D_W) : runD W (no_index (Proc.devRef .tc r)) = W (Proc.devRef .tc r) :=
  after_of_writes_sub _ _ D_writes h

theorem D_v32 : runD W (no_index (Proc.devRef .tc main_v32)) = normOf (W (Proc.devRef .tc main_v3)) (W (Proc.devRef .tc main_v6)) (W (Proc.devRef .tc main_v8)) (W (Proc.devRef .tc main_v16)) := by
  show after (opsD (F := Ideal)) W (Proc.devRef .tc main_v32) = _
  after_results_simp
  rfl

/-! ## Stretch E: the first convolution -/

/-- The buffer contents after stretch E, from contents `W`. -/
def runE (W : Valuation τ sig (Elt Ideal)) : Valuation τ sig (Elt Ideal) := after (opsE (F := Ideal)) W

/-- The buffers stretch E writes. -/
abbrev E_W : List (Ref sig .tc) := [main_v33, main_c_6, main_v34, main_v35, main_c_7, main_v36, main_v37, main_v38, main_v39, main_v40, main_v41, main_v42, main_cst_8, main_v43, main_v44, main_v45, main_v46, main_v47, main_v48]

theorem E_writes : (opsE (F := Ideal) : List (HloOp τ sig (Elt Ideal))).Forall fun op => op.writes ⊆ (E_W.map (Proc.devRef (τ := τ) .tc)).toFinset := by
  have one : ∀ y : Ref sig .tc, y ∈ E_W → ({Proc.devRef .tc y} : Finset (DevRef τ sig)) ⊆ (E_W.map (Proc.devRef (τ := τ) .tc)).toFinset :=
    fun y hy => Finset.singleton_subset_iff.mpr (List.mem_toFinset.mpr (List.mem_map_of_mem hy))
  simp only [List.Forall]
  exact ⟨one main_v33 (by decide), one main_c_6 (by decide), one main_v34 (by decide), one main_v35 (by decide), one main_c_7 (by decide), one main_v36 (by decide), one main_v37 (by decide), one main_v38 (by decide), one main_v39 (by decide), one main_v40 (by decide), one main_v41 (by decide), one main_v42 (by decide), one main_cst_8 (by decide), one main_v43 (by decide), one main_v44 (by decide), one main_v45 (by decide), one main_v46 (by decide), one main_v47 (by decide), one main_v48 (by decide)⟩

/-- A buffer stretch E does not write keeps its contents through it. -/
theorem E_keep (r : Ref sig .tc) (h : r ∉ E_W) : runE W (no_index (Proc.devRef .tc r)) = W (Proc.devRef .tc r) :=
  after_of_writes_sub _ _ E_writes h

theorem E_v48 : runE W (no_index (Proc.devRef .tc main_v48)) = convOf (W (Proc.devRef .tc main_v9)) (W (Proc.devRef .tc main_v3)) (W (Proc.devRef .tc main_v6)) (W (Proc.devRef .tc main_v32)) (W (Proc.devRef .tc main_arg4)) := by
  show after (opsE (F := Ideal)) W (Proc.devRef .tc main_v48) = _
  after_results_simp
  rfl

/-! ## Stretch F: the leaky rectifier on the node features -/

/-- The buffer contents after stretch F, from contents `W`. -/
def runF (W : Valuation τ sig (Elt Ideal)) : Valuation τ sig (Elt Ideal) := after (opsF (F := Ideal)) W

/-- The buffers stretch F writes. -/
abbrev F_W : List (Ref sig .tc) := [main_cst_9, main_call1_cst, main_call1_v0, main_call1_v1, main_call1_v2, main_call1_v3, main_call1_v4, main_v49]

theorem F_writes : (opsF (F := Ideal) : List (HloOp τ sig (Elt Ideal))).Forall fun op => op.writes ⊆ (F_W.map (Proc.devRef (τ := τ) .tc)).toFinset := by
  have one : ∀ y : Ref sig .tc, y ∈ F_W → ({Proc.devRef .tc y} : Finset (DevRef τ sig)) ⊆ (F_W.map (Proc.devRef (τ := τ) .tc)).toFinset :=
    fun y hy => Finset.singleton_subset_iff.mpr (List.mem_toFinset.mpr (List.mem_map_of_mem hy))
  simp only [List.Forall]
  exact ⟨one main_cst_9 (by decide), one main_call1_cst (by decide), one main_call1_v0 (by decide), one main_call1_v1 (by decide), one main_call1_v2 (by decide), one main_call1_v3 (by decide), one main_call1_v4 (by decide), one main_v49 (by decide)⟩

/-- A buffer stretch F does not write keeps its contents through it. -/
theorem F_keep (r : Ref sig .tc) (h : r ∉ F_W) : runF W (no_index (Proc.devRef .tc r)) = W (Proc.devRef .tc r) :=
  after_of_writes_sub _ _ F_writes h

theorem F_v49 : runF W (no_index (Proc.devRef .tc main_v49)) = leakyN (W (Proc.devRef .tc main_v48)) := by
  show after (opsF (F := Ideal)) W (Proc.devRef .tc main_v49) = _
  after_results_simp
  try rw [ofBuf_lit main_call1_cst (by decide) rfl]
  try rw [toBuf_lit main_call1_cst (by decide) rfl]
  try rw [ofBuf_lit main_call1_v0 (by decide) rfl]
  try rw [toBuf_lit main_call1_v0 (by decide) rfl]
  try rw [ofBuf_lit main_v48 (by decide) rfl]
  try rw [toBuf_lit main_v48 (by decide) rfl]
  try rw [ofBuf_lit main_call1_v1 (by decide) rfl]
  try rw [toBuf_lit main_call1_v1 (by decide) rfl]
  try rw [ofBuf_lit main_cst_9 (by decide) rfl]
  try rw [toBuf_lit main_cst_9 (by decide) rfl]
  try rw [ofBuf_lit main_call1_v2 (by decide) rfl]
  try rw [toBuf_lit main_call1_v2 (by decide) rfl]
  try rw [ofBuf_lit main_call1_v3 (by decide) rfl]
  try rw [toBuf_lit main_call1_v3 (by decide) rfl]
  try rw [ofBuf_lit main_call1_v4 (by decide) rfl]
  try rw [toBuf_lit main_call1_v4 (by decide) rfl]
  try rw [ofBuf_lit main_v49 (by decide) rfl]
  try rw [toBuf_lit main_v49 (by decide) rfl]
  rfl

/-! ## Stretch G: the hidden node features times the second layer's weights -/

/-- The buffer contents after stretch G, from contents `W`. -/
def runG (W : Valuation τ sig (Elt Ideal)) : Valuation τ sig (Elt Ideal) := after (opsG (F := Ideal)) W

/-- The buffers stretch G writes. -/
abbrev G_W : List (Ref sig .tc) := [main_v50]

theorem G_writes : (opsG (F := Ideal) : List (HloOp τ sig (Elt Ideal))).Forall fun op => op.writes ⊆ (G_W.map (Proc.devRef (τ := τ) .tc)).toFinset := by
  have one : ∀ y : Ref sig .tc, y ∈ G_W → ({Proc.devRef .tc y} : Finset (DevRef τ sig)) ⊆ (G_W.map (Proc.devRef (τ := τ) .tc)).toFinset :=
    fun y hy => Finset.singleton_subset_iff.mpr (List.mem_toFinset.mpr (List.mem_map_of_mem hy))
  simp only [List.Forall]
  exact (one main_v50 (by decide))

/-- A buffer stretch G does not write keeps its contents through it. -/
theorem G_keep (r : Ref sig .tc) (h : r ∉ G_W) : runG W (no_index (Proc.devRef .tc r)) = W (Proc.devRef .tc r) :=
  after_of_writes_sub _ _ G_writes h

theorem G_v50 : runG W (no_index (Proc.devRef .tc main_v50)) = mm1 (W (Proc.devRef .tc main_v49)) (W (Proc.devRef .tc main_arg5)) := by
  show after (opsG (F := Ideal)) W (Proc.devRef .tc main_v50) = _
  after_results
  rfl

/-! ## Stretch H: the in-degree and its inverse square root, computed again -/

/-- The buffer contents after stretch H, from contents `W`. -/
def runH (W : Valuation τ sig (Elt Ideal)) : Valuation τ sig (Elt Ideal) := after (opsH (F := Ideal)) W

/-- The buffers stretch H writes. -/
abbrev H_W : List (Ref sig .tc) := [main_cst_10, main_v51, main_v52, main_v53, main_cst_11, main_v54, main_v55, main_v56, main_cst_12, main_call2_v0, main_call2_v1, main_v57]

theorem H_writes : (opsH (F := Ideal) : List (HloOp τ sig (Elt Ideal))).Forall fun op => op.writes ⊆ (H_W.map (Proc.devRef (τ := τ) .tc)).toFinset := by
  have one : ∀ y : Ref sig .tc, y ∈ H_W → ({Proc.devRef .tc y} : Finset (DevRef τ sig)) ⊆ (H_W.map (Proc.devRef (τ := τ) .tc)).toFinset :=
    fun y hy => Finset.singleton_subset_iff.mpr (List.mem_toFinset.mpr (List.mem_map_of_mem hy))
  simp only [List.Forall]
  exact ⟨one main_cst_10 (by decide), one main_v51 (by decide), one main_v52 (by decide), one main_v53 (by decide), one main_cst_11 (by decide), one main_v54 (by decide), one main_v55 (by decide), one main_v56 (by decide), one main_cst_12 (by decide), one main_call2_v0 (by decide), one main_call2_v1 (by decide), one main_v57 (by decide)⟩

/-- A buffer stretch H does not write keeps its contents through it. -/
theorem H_keep (r : Ref sig .tc) (h : r ∉ H_W) : runH W (no_index (Proc.devRef .tc r)) = W (Proc.devRef .tc r) :=
  after_of_writes_sub _ _ H_writes h

theorem H_v57 : runH W (no_index (Proc.devRef .tc main_v57)) = dinvOf (degOf (W (Proc.devRef .tc main_v6)) (W (Proc.devRef .tc main_v8))) := by
  show after (opsH (F := Ideal)) W (Proc.devRef .tc main_v57) = _
  after_results_simp
  try rw [ofBuf_lit main_cst_12 (by decide) rfl]
  try rw [toBuf_lit main_cst_12 (by decide) rfl]
  try rw [ofBuf_lit main_call2_v0 (by decide) rfl]
  try rw [toBuf_lit main_call2_v0 (by decide) rfl]
  try rw [ofBuf_lit main_call2_v1 (by decide) rfl]
  try rw [toBuf_lit main_call2_v1 (by decide) rfl]
  try rw [ofBuf_lit main_v55 (by decide) rfl]
  try rw [toBuf_lit main_v55 (by decide) rfl]
  try rw [ofBuf_lit main_v56 (by decide) rfl]
  try rw [toBuf_lit main_v56 (by decide) rfl]
  try rw [ofBuf_lit main_v57 (by decide) rfl]
  try rw [toBuf_lit main_v57 (by decide) rfl]
  rfl

/-! ## Stretch I: the normalisation, computed again -/

/-- The buffer contents after stretch I, from contents `W`. -/
def runI (W : Valuation τ sig (Elt Ideal)) : Valuation τ sig (Elt Ideal) := after (opsI (F := Ideal)) W

/-- The buffers stretch I writes. -/
abbrev I_W : List (Ref sig .tc) := [main_c_13, main_v58, main_v59, main_c_14, main_v60, main_v61, main_v62, main_v63, main_v64, main_v65, main_c_15, main_v66, main_v67, main_c_16, main_v68, main_v69, main_v70, main_v71, main_v72, main_v73]

theorem I_writes : (opsI (F := Ideal) : List (HloOp τ sig (Elt Ideal))).Forall fun op => op.writes ⊆ (I_W.map (Proc.devRef (τ := τ) .tc)).toFinset := by
  have one : ∀ y : Ref sig .tc, y ∈ I_W → ({Proc.devRef .tc y} : Finset (DevRef τ sig)) ⊆ (I_W.map (Proc.devRef (τ := τ) .tc)).toFinset :=
    fun y hy => Finset.singleton_subset_iff.mpr (List.mem_toFinset.mpr (List.mem_map_of_mem hy))
  simp only [List.Forall]
  exact ⟨one main_c_13 (by decide), one main_v58 (by decide), one main_v59 (by decide), one main_c_14 (by decide), one main_v60 (by decide), one main_v61 (by decide), one main_v62 (by decide), one main_v63 (by decide), one main_v64 (by decide), one main_v65 (by decide), one main_c_15 (by decide), one main_v66 (by decide), one main_v67 (by decide), one main_c_16 (by decide), one main_v68 (by decide), one main_v69 (by decide), one main_v70 (by decide), one main_v71 (by decide), one main_v72 (by decide), one main_v73 (by decide)⟩

/-- A buffer stretch I does not write keeps its contents through it. -/
theorem I_keep (r : Ref sig .tc) (h : r ∉ I_W) : runI W (no_index (Proc.devRef .tc r)) = W (Proc.devRef .tc r) :=
  after_of_writes_sub _ _ I_writes h

theorem I_v73 : runI W (no_index (Proc.devRef .tc main_v73)) = normOf (W (Proc.devRef .tc main_v3)) (W (Proc.devRef .tc main_v6)) (W (Proc.devRef .tc main_v8)) (W (Proc.devRef .tc main_v57)) := by
  show after (opsI (F := Ideal)) W (Proc.devRef .tc main_v73) = _
  after_results_simp
  rfl

/-! ## Stretch J: the second convolution -/

/-- The buffer contents after stretch J, from contents `W`. -/
def runJ (W : Valuation τ sig (Elt Ideal)) : Valuation τ sig (Elt Ideal) := after (opsJ (F := Ideal)) W

/-- The buffers stretch J writes. -/
abbrev J_W : List (Ref sig .tc) := [main_v74, main_c_17, main_v75, main_v76, main_c_18, main_v77, main_v78, main_v79, main_v80, main_v81, main_v82, main_v83, main_cst_19, main_v84, main_v85, main_v86, main_v87, main_v88, main_v89]

theorem J_writes : (opsJ (F := Ideal) : List (HloOp τ sig (Elt Ideal))).Forall fun op => op.writes ⊆ (J_W.map (Proc.devRef (τ := τ) .tc)).toFinset := by
  have one : ∀ y : Ref sig .tc, y ∈ J_W → ({Proc.devRef .tc y} : Finset (DevRef τ sig)) ⊆ (J_W.map (Proc.devRef (τ := τ) .tc)).toFinset :=
    fun y hy => Finset.singleton_subset_iff.mpr (List.mem_toFinset.mpr (List.mem_map_of_mem hy))
  simp only [List.Forall]
  exact ⟨one main_v74 (by decide), one main_c_17 (by decide), one main_v75 (by decide), one main_v76 (by decide), one main_c_18 (by decide), one main_v77 (by decide), one main_v78 (by decide), one main_v79 (by decide), one main_v80 (by decide), one main_v81 (by decide), one main_v82 (by decide), one main_v83 (by decide), one main_cst_19 (by decide), one main_v84 (by decide), one main_v85 (by decide), one main_v86 (by decide), one main_v87 (by decide), one main_v88 (by decide), one main_v89 (by decide)⟩

/-- A buffer stretch J does not write keeps its contents through it. -/
theorem J_keep (r : Ref sig .tc) (h : r ∉ J_W) : runJ W (no_index (Proc.devRef .tc r)) = W (Proc.devRef .tc r) :=
  after_of_writes_sub _ _ J_writes h

theorem J_v89 : runJ W (no_index (Proc.devRef .tc main_v89)) = convOf (W (Proc.devRef .tc main_v50)) (W (Proc.devRef .tc main_v3)) (W (Proc.devRef .tc main_v6)) (W (Proc.devRef .tc main_v73)) (W (Proc.devRef .tc main_arg6)) := by
  show after (opsJ (F := Ideal)) W (Proc.devRef .tc main_v89) = _
  after_results_simp
  rfl

/-! ## Stretch K: the graphs' rows laid side by side and the head's first layer -/

/-- The buffer contents after stretch K, from contents `W`. -/
def runK (W : Valuation τ sig (Elt Ideal)) : Valuation τ sig (Elt Ideal) := after (opsK (F := Ideal)) W

/-- The buffers stretch K writes. -/
abbrev K_W : List (Ref sig .tc) := [main_v90, main_v91, main_v92, main_v93, main_v94, main_cst_20, main_call3_cst, main_call3_v0, main_call3_v1, main_call3_v2, main_call3_v3, main_call3_v4, main_v95]

theorem K_writes : (opsK (F := Ideal) : List (HloOp τ sig (Elt Ideal))).Forall fun op => op.writes ⊆ (K_W.map (Proc.devRef (τ := τ) .tc)).toFinset := by
  have one : ∀ y : Ref sig .tc, y ∈ K_W → ({Proc.devRef .tc y} : Finset (DevRef τ sig)) ⊆ (K_W.map (Proc.devRef (τ := τ) .tc)).toFinset :=
    fun y hy => Finset.singleton_subset_iff.mpr (List.mem_toFinset.mpr (List.mem_map_of_mem hy))
  simp only [List.Forall]
  exact ⟨one main_v90 (by decide), one main_v91 (by decide), one main_v92 (by decide), one main_v93 (by decide), one main_v94 (by decide), one main_cst_20 (by decide), one main_call3_cst (by decide), one main_call3_v0 (by decide), one main_call3_v1 (by decide), one main_call3_v2 (by decide), one main_call3_v3 (by decide), one main_call3_v4 (by decide), one main_v95 (by decide)⟩

/-- A buffer stretch K does not write keeps its contents through it. -/
theorem K_keep (r : Ref sig .tc) (h : r ∉ K_W) : runK W (no_index (Proc.devRef .tc r)) = W (Proc.devRef .tc r) :=
  after_of_writes_sub _ _ K_writes h

theorem K_v95 : runK W (no_index (Proc.devRef .tc main_v95)) = head2 (flat (W (Proc.devRef .tc main_v89))) (W (Proc.devRef .tc main_arg7)) (biasRow (W (Proc.devRef .tc main_arg8))) := by
  show after (opsK (F := Ideal)) W (Proc.devRef .tc main_v95) = _
  after_results_simp
  try rw [ofBuf_lit main_call3_cst (by decide) rfl]
  try rw [toBuf_lit main_call3_cst (by decide) rfl]
  try rw [ofBuf_lit main_call3_v0 (by decide) rfl]
  try rw [toBuf_lit main_call3_v0 (by decide) rfl]
  try rw [ofBuf_lit main_v94 (by decide) rfl]
  try rw [toBuf_lit main_v94 (by decide) rfl]
  try rw [ofBuf_lit main_call3_v1 (by decide) rfl]
  try rw [toBuf_lit main_call3_v1 (by decide) rfl]
  try rw [ofBuf_lit main_cst_20 (by decide) rfl]
  try rw [toBuf_lit main_cst_20 (by decide) rfl]
  try rw [ofBuf_lit main_call3_v2 (by decide) rfl]
  try rw [toBuf_lit main_call3_v2 (by decide) rfl]
  try rw [ofBuf_lit main_call3_v3 (by decide) rfl]
  try rw [toBuf_lit main_call3_v3 (by decide) rfl]
  try rw [ofBuf_lit main_call3_v4 (by decide) rfl]
  try rw [toBuf_lit main_call3_v4 (by decide) rfl]
  try rw [ofBuf_lit main_v95 (by decide) rfl]
  try rw [toBuf_lit main_v95 (by decide) rfl]
  rfl

/-! ## Stretch L: the head's second layer -/

/-- The buffer contents after stretch L, from contents `W`. -/
def runL (W : Valuation τ sig (Elt Ideal)) : Valuation τ sig (Elt Ideal) := after (opsL (F := Ideal)) W

/-- The buffers stretch L writes. -/
abbrev L_W : List (Ref sig .tc) := [main_v96, main_v97, main_v98, main_v99, main_cst_21, main_call4_cst, main_call4_v0, main_call4_v1, main_call4_v2, main_call4_v3, main_call4_v4, main_v100]

theorem L_writes : (opsL (F := Ideal) : List (HloOp τ sig (Elt Ideal))).Forall fun op => op.writes ⊆ (L_W.map (Proc.devRef (τ := τ) .tc)).toFinset := by
  have one : ∀ y : Ref sig .tc, y ∈ L_W → ({Proc.devRef .tc y} : Finset (DevRef τ sig)) ⊆ (L_W.map (Proc.devRef (τ := τ) .tc)).toFinset :=
    fun y hy => Finset.singleton_subset_iff.mpr (List.mem_toFinset.mpr (List.mem_map_of_mem hy))
  simp only [List.Forall]
  exact ⟨one main_v96 (by decide), one main_v97 (by decide), one main_v98 (by decide), one main_v99 (by decide), one main_cst_21 (by decide), one main_call4_cst (by decide), one main_call4_v0 (by decide), one main_call4_v1 (by decide), one main_call4_v2 (by decide), one main_call4_v3 (by decide), one main_call4_v4 (by decide), one main_v100 (by decide)⟩

/-- A buffer stretch L does not write keeps its contents through it. -/
theorem L_keep (r : Ref sig .tc) (h : r ∉ L_W) : runL W (no_index (Proc.devRef .tc r)) = W (Proc.devRef .tc r) :=
  after_of_writes_sub _ _ L_writes h

theorem L_v100 : runL W (no_index (Proc.devRef .tc main_v100)) = head3 (W (Proc.devRef .tc main_v95)) (W (Proc.devRef .tc main_arg9)) (biasRow (W (Proc.devRef .tc main_arg10))) := by
  show after (opsL (F := Ideal)) W (Proc.devRef .tc main_v100) = _
  after_results_simp
  try rw [ofBuf_lit main_call4_cst (by decide) rfl]
  try rw [toBuf_lit main_call4_cst (by decide) rfl]
  try rw [ofBuf_lit main_call4_v0 (by decide) rfl]
  try rw [toBuf_lit main_call4_v0 (by decide) rfl]
  try rw [ofBuf_lit main_v99 (by decide) rfl]
  try rw [toBuf_lit main_v99 (by decide) rfl]
  try rw [ofBuf_lit main_call4_v1 (by decide) rfl]
  try rw [toBuf_lit main_call4_v1 (by decide) rfl]
  try rw [ofBuf_lit main_cst_21 (by decide) rfl]
  try rw [toBuf_lit main_cst_21 (by decide) rfl]
  try rw [ofBuf_lit main_call4_v2 (by decide) rfl]
  try rw [toBuf_lit main_call4_v2 (by decide) rfl]
  try rw [ofBuf_lit main_call4_v3 (by decide) rfl]
  try rw [toBuf_lit main_call4_v3 (by decide) rfl]
  try rw [ofBuf_lit main_call4_v4 (by decide) rfl]
  try rw [toBuf_lit main_call4_v4 (by decide) rfl]
  try rw [ofBuf_lit main_v100 (by decide) rfl]
  try rw [toBuf_lit main_v100 (by decide) rfl]
  rfl

/-! ## Stretch M: the head's last layer -/

/-- The buffer contents after stretch M, from contents `W`. -/
def runM (W : Valuation τ sig (Elt Ideal)) : Valuation τ sig (Elt Ideal) := after (opsM (F := Ideal)) W

/-- The buffers stretch M writes. -/
abbrev M_W : List (Ref sig .tc) := [main_v101, main_v102, main_v103, main_v104, main_v105, main_cst_22, main_v106, main_v107, main_cst_23, main_v108, main_v109]

theorem M_writes : (opsM (F := Ideal) : List (HloOp τ sig (Elt Ideal))).Forall fun op => op.writes ⊆ (M_W.map (Proc.devRef (τ := τ) .tc)).toFinset := by
  have one : ∀ y : Ref sig .tc, y ∈ M_W → ({Proc.devRef .tc y} : Finset (DevRef τ sig)) ⊆ (M_W.map (Proc.devRef (τ := τ) .tc)).toFinset :=
    fun y hy => Finset.singleton_subset_iff.mpr (List.mem_toFinset.mpr (List.mem_map_of_mem hy))
  simp only [List.Forall]
  exact ⟨one main_v101 (by decide), one main_v102 (by decide), one main_v103 (by decide), one main_v104 (by decide), one main_v105 (by decide), one main_cst_22 (by decide), one main_v106 (by decide), one main_v107 (by decide), one main_cst_23 (by decide), one main_v108 (by decide), one main_v109 (by decide)⟩

/-- A buffer stretch M does not write keeps its contents through it. -/
theorem M_keep (r : Ref sig .tc) (h : r ∉ M_W) : runM W (no_index (Proc.devRef .tc r)) = W (Proc.devRef .tc r) :=
  after_of_writes_sub _ _ M_writes h

theorem M_v109 : runM W (no_index (Proc.devRef .tc main_v109)) = head4 (W (Proc.devRef .tc main_v100)) (W (Proc.devRef .tc main_arg11)) (biasOne (W (Proc.devRef .tc main_arg12))) := by
  show after (opsM (F := Ideal)) W (Proc.devRef .tc main_v109) = _
  after_results_simp
  rfl

/-! ## The whole program -/

variable (V : Valuation τ sig (Elt Ideal))

/-- The program's run is the thirteen stretches' runs, in order. -/
theorem ops_run : after (RefRun.ops (F := Ideal)) V = runM (runL (runK (runJ (runI (runH (runG (runF (runE (runD (runC (runB (runA V)))))))))))) := by
  show after (opsA ++ opsB ++ opsC ++ opsD ++ opsE ++ opsF ++ opsG ++ opsH ++ opsI ++ opsJ ++ opsK ++ opsL ++ opsM) V = _
  simp only [after_append]
  rfl

/-- The result buffer holds the network of the thirteen arguments. -/
theorem value : after (RefRun.ops (F := Ideal)) V (Proc.devRef .tc main_v109)
    = Cert.Spec.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_run]
  simp (disch := decide) only [Cert.Spec.net, A_v3, A_v6, A_v8, B_v9, C_v16, D_v32, E_v48, F_v49, G_v50, H_v57, I_v73, J_v89, K_v95, L_v100, M_v109, A_keep, B_keep, C_keep, D_keep, E_keep, F_keep, G_keep, H_keep, I_keep, J_keep, K_keep, L_keep, M_keep]

/-- Argument 0 is as it was. -/
theorem kept_arg0 : after (RefRun.ops (F := Ideal)) V (Proc.devRef .tc main_arg0) = V (Proc.devRef .tc main_arg0) := by
  rw [ops_run]
  simp (disch := decide) only [A_keep, B_keep, C_keep, D_keep, E_keep, F_keep, G_keep, H_keep, I_keep, J_keep, K_keep, L_keep, M_keep]

/-- Argument 1 is as it was. -/
theorem kept_arg1 : after (RefRun.ops (F := Ideal)) V (Proc.devRef .tc main_arg1) = V (Proc.devRef .tc main_arg1) := by
  rw [ops_run]
  simp (disch := decide) only [A_keep, B_keep, C_keep, D_keep, E_keep, F_keep, G_keep, H_keep, I_keep, J_keep, K_keep, L_keep, M_keep]

/-- Argument 2 is as it was. -/
theorem kept_arg2 : after (RefRun.ops (F := Ideal)) V (Proc.devRef .tc main_arg2) = V (Proc.devRef .tc main_arg2) := by
  rw [ops_run]
  simp (disch := decide) only [A_keep, B_keep, C_keep, D_keep, E_keep, F_keep, G_keep, H_keep, I_keep, J_keep, K_keep, L_keep, M_keep]

/-- Argument 3 is as it was. -/
theorem kept_arg3 : after (RefRun.ops (F := Ideal)) V (Proc.devRef .tc main_arg3) = V (Proc.devRef .tc main_arg3) := by
  rw [ops_run]
  simp (disch := decide) only [A_keep, B_keep, C_keep, D_keep, E_keep, F_keep, G_keep, H_keep, I_keep, J_keep, K_keep, L_keep, M_keep]

/-- Argument 4 is as it was. -/
theorem kept_arg4 : after (RefRun.ops (F := Ideal)) V (Proc.devRef .tc main_arg4) = V (Proc.devRef .tc main_arg4) := by
  rw [ops_run]
  simp (disch := decide) only [A_keep, B_keep, C_keep, D_keep, E_keep, F_keep, G_keep, H_keep, I_keep, J_keep, K_keep, L_keep, M_keep]

/-- Argument 5 is as it was. -/
theorem kept_arg5 : after (RefRun.ops (F := Ideal)) V (Proc.devRef .tc main_arg5) = V (Proc.devRef .tc main_arg5) := by
  rw [ops_run]
  simp (disch := decide) only [A_keep, B_keep, C_keep, D_keep, E_keep, F_keep, G_keep, H_keep, I_keep, J_keep, K_keep, L_keep, M_keep]

/-- Argument 6 is as it was. -/
theorem kept_arg6 : after (RefRun.ops (F := Ideal)) V (Proc.devRef .tc main_arg6) = V (Proc.devRef .tc main_arg6) := by
  rw [ops_run]
  simp (disch := decide) only [A_keep, B_keep, C_keep, D_keep, E_keep, F_keep, G_keep, H_keep, I_keep, J_keep, K_keep, L_keep, M_keep]

/-- Argument 7 is as it was. -/
theorem kept_arg7 : after (RefRun.ops (F := Ideal)) V (Proc.devRef .tc main_arg7) = V (Proc.devRef .tc main_arg7) := by
  rw [ops_run]
  simp (disch := decide) only [A_keep, B_keep, C_keep, D_keep, E_keep, F_keep, G_keep, H_keep, I_keep, J_keep, K_keep, L_keep, M_keep]

/-- Argument 8 is as it was. -/
theorem kept_arg8 : after (RefRun.ops (F := Ideal)) V (Proc.devRef .tc main_arg8) = V (Proc.devRef .tc main_arg8) := by
  rw [ops_run]
  simp (disch := decide) only [A_keep, B_keep, C_keep, D_keep, E_keep, F_keep, G_keep, H_keep, I_keep, J_keep, K_keep, L_keep, M_keep]

/-- Argument 9 is as it was. -/
theorem kept_arg9 : after (RefRun.ops (F := Ideal)) V (Proc.devRef .tc main_arg9) = V (Proc.devRef .tc main_arg9) := by
  rw [ops_run]
  simp (disch := decide) only [A_keep, B_keep, C_keep, D_keep, E_keep, F_keep, G_keep, H_keep, I_keep, J_keep, K_keep, L_keep, M_keep]

/-- Argument 10 is as it was. -/
theorem kept_arg10 : after (RefRun.ops (F := Ideal)) V (Proc.devRef .tc main_arg10) = V (Proc.devRef .tc main_arg10) := by
  rw [ops_run]
  simp (disch := decide) only [A_keep, B_keep, C_keep, D_keep, E_keep, F_keep, G_keep, H_keep, I_keep, J_keep, K_keep, L_keep, M_keep]

/-- Argument 11 is as it was. -/
theorem kept_arg11 : after (RefRun.ops (F := Ideal)) V (Proc.devRef .tc main_arg11) = V (Proc.devRef .tc main_arg11) := by
  rw [ops_run]
  simp (disch := decide) only [A_keep, B_keep, C_keep, D_keep, E_keep, F_keep, G_keep, H_keep, I_keep, J_keep, K_keep, L_keep, M_keep]

/-- Argument 12 is as it was. -/
theorem kept_arg12 : after (RefRun.ops (F := Ideal)) V (Proc.devRef .tc main_arg12) = V (Proc.devRef .tc main_arg12) := by
  rw [ops_run]
  simp (disch := decide) only [A_keep, B_keep, C_keep, D_keep, E_keep, F_keep, G_keep, H_keep, I_keep, J_keep, K_keep, L_keep, M_keep]

end Cert.ReferenceIdeal.RefValue

end
-- ==== Proof.lean ====
/-
  The proof of the claim: the five conjuncts, assembled.

  Both idealized programs compute ONE function of the thirteen argument arrays, the network `Cert.Spec.net`: a
  two-layer graph convolution followed by a three-layer perceptron head, each stage named once over the
  reference's host operations.

  The frames. The kernel program's and the idealized kernel program's frames are the generated frame
  certificates: every weakly fair execution terminates, nothing faults, the argument arrays end unchanged. The
  reference's frame is read off its run: @main is a straight line of host operations, every buffer ends at the
  fold of the operations' results over the launch contents, and no operation writes an argument array.

  The idealization rewrote no operation, so its conjunct is the true proposition.

  The algebraic claim. The common result is the network of the kernel's launch arguments. The idealized kernel's
  run ends with its result buffer at the last segment boundary's contents, which the value theorem reads as the
  network of the launch arguments. The reference's run ends with its result buffer at the operations' fold, which
  its value theorem reads as the network of ITS launch arguments; the two memories agree on the thirteen
  arguments, so the two networks are applied to the same arrays.
-/
import proofs.«116987_j64750926955165_1_alg».proof.Defs
import proofs.«116987_j64750926955165_1_alg».proof.Proof.Gen.Kernel.Frame
import proofs.«116987_j64750926955165_1_alg».proof.Proof.Gen.KernelIdeal.Frame
import proofs.«116987_j64750926955165_1_alg».proof.Proof.Gen.ReferenceIdeal
import proofs.«116987_j64750926955165_1_alg».proof.Proof.Gen.Pre_finite_inputs
import proofs.«116987_j64750926955165_1_alg».proof.Proof.Spec
import proofs.«116987_j64750926955165_1_alg».proof.Proof.KRun
import proofs.«116987_j64750926955165_1_alg».proof.Proof.KValue
import proofs.«116987_j64750926955165_1_alg».proof.Proof.RefRun
import proofs.«116987_j64750926955165_1_alg».proof.Proof.RefValue
import Idealize.ShloMosaic.Adequacy
import Idealize.ShloMosaic.Init

noncomputable section

namespace Cert.Proof

open Idealize.ShloMosaic Idealize.SL.Sem

/-- The kernel program's frame: the generated frame certificate. -/
theorem frame_k : Cert.frame_Kernel := fun m ρ _ => Cert.Kernel.Gen.frame m ρ

/-- The idealized kernel program's frame: the generated frame certificate. -/
theorem frame_ki : Cert.frame_KernelIdeal := fun m ρ _ => Cert.KernelIdeal.Gen.frame m ρ

/-- The reference's run, read: its result is the network of the launch arguments, and the thirteen argument arrays
    end as launched (the fold of the operations' results, read at the result buffer and at each argument). -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v109)
          = Cert.Spec.net (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)) :=
  (θ_run Cert.ReferenceIdeal.defs _ _).mono (fun r h c =>
    ⟨(h c Cert.ReferenceIdeal.main_v109).trans (Cert.ReferenceIdeal.RefValue.value (StableHlo.launchContents m' c)),
      (h c Cert.ReferenceIdeal.main_arg0).trans (Cert.ReferenceIdeal.RefValue.kept_arg0 (StableHlo.launchContents m' c)),
      (h c Cert.ReferenceIdeal.main_arg1).trans (Cert.ReferenceIdeal.RefValue.kept_arg1 (StableHlo.launchContents m' c)),
      (h c Cert.ReferenceIdeal.main_arg2).trans (Cert.ReferenceIdeal.RefValue.kept_arg2 (StableHlo.launchContents m' c)),
      (h c Cert.ReferenceIdeal.main_arg3).trans (Cert.ReferenceIdeal.RefValue.kept_arg3 (StableHlo.launchContents m' c)),
      (h c Cert.ReferenceIdeal.main_arg4).trans (Cert.ReferenceIdeal.RefValue.kept_arg4 (StableHlo.launchContents m' c)),
      (h c Cert.ReferenceIdeal.main_arg5).trans (Cert.ReferenceIdeal.RefValue.kept_arg5 (StableHlo.launchContents m' c)),
      (h c Cert.ReferenceIdeal.main_arg6).trans (Cert.ReferenceIdeal.RefValue.kept_arg6 (StableHlo.launchContents m' c)),
      (h c Cert.ReferenceIdeal.main_arg7).trans (Cert.ReferenceIdeal.RefValue.kept_arg7 (StableHlo.launchContents m' c)),
      (h c Cert.ReferenceIdeal.main_arg8).trans (Cert.ReferenceIdeal.RefValue.kept_arg8 (StableHlo.launchContents m' c)),
      (h c Cert.ReferenceIdeal.main_arg9).trans (Cert.ReferenceIdeal.RefValue.kept_arg9 (StableHlo.launchContents m' c)),
      (h c Cert.ReferenceIdeal.main_arg10).trans (Cert.ReferenceIdeal.RefValue.kept_arg10 (StableHlo.launchContents m' c)),
      (h c Cert.ReferenceIdeal.main_arg11).trans (Cert.ReferenceIdeal.RefValue.kept_arg11 (StableHlo.launchContents m' c)),
      (h c Cert.ReferenceIdeal.main_arg12).trans (Cert.ReferenceIdeal.RefValue.kept_arg12 (StableHlo.launchContents m' c))⟩)
    (Cert.ReferenceIdeal.RefRun.run_raw (F := Ideal) m' ρ')

/-- The reference's frame: its run with the result's equation dropped. -/
theorem frame_ri : Cert.frame_ReferenceIdeal := fun m ρ _ =>
  (θ_run Cert.ReferenceIdeal.defs _ _).mono (fun _ h c => (h c).2) (ref_run m ρ)

/-- The idealization rewrote nothing. -/
theorem preserves : Cert.preserves_Kernel_KernelIdeal := trivial

/-- At the ideal values both programs end with the network of the (agreeing) arguments in their result buffers. -/
theorem algebraic : Cert.algebraic_KernelIdeal_ReferenceIdeal := by
  intro m ρ m' ρ' _ hagree
  refine ⟨fun c => (Cert.Spec.net (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
      : Buf (Elt Ideal) ((c.tc : Thread Cert.KernelIdeal.nD Cert.KernelIdeal.τ).loc Cert.KernelIdeal.main_v73)), ?_, ?_⟩
  · exact (θ_run Cert.KernelIdeal.defs _ _).mono
      (fun r h c => ⟨(h c).1.trans (Cert.KernelIdeal.KValue.value m ρ c), (h c).2⟩) (Cert.KernelIdeal.KRun.run (F := Ideal) m ρ)
  · refine (θ_run Cert.ReferenceIdeal.defs _ _).mono (fun r h c => ⟨(h c).1.trans ?_, (h c).2⟩) (ref_run m' ρ')
    obtain ⟨a0, a1, a2, a3, a4, a5, a6, a7, a8, a9, a10, a11, a12⟩ := hagree c
    rw [a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
